-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v101)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v101) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v110) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S1600000 : Shape := ⟨1, ![1600000]⟩
abbrev S96x128 : Shape := ⟨2, ![96, 128]⟩
abbrev S128 : Shape := ⟨1, ![128]⟩
abbrev S384x128 : Shape := ⟨2, ![384, 128]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S96x128 : S_.BroadcastsInDim S96x128 (![] : Fin 0 → Fin S96x128.rank)
  reducesTo_S96x128_S_d0_1 : S96x128.ReducesTo [0, 1] S_
  bcast_S_S128 : S_.BroadcastsInDim S128 (![] : Fin 0 → Fin S128.rank)
  reducesTo_S128_S_d0 : S128.ReducesTo [0] S_
  bcast_S_S384x128 : S_.BroadcastsInDim S384x128 (![] : Fin 0 → Fin S384x128.rank)
  reducesTo_S384x128_S_d0_1 : S384x128.ReducesTo [0, 1] S_

variable [Facts]

def fn_part1 {F : FTy → Type} [FloatOps F] (main_arg6 : FVec F S128 .f32) (main_arg7 : FVec F S384x128 .f32) (main_arg8 : FVec F S128 .f32) (main_v13 : IVec S_ 1) (main_v16 : IVec S384x128 1) : IVec S_ 1 :=
  let main_c_5 : IVec S_ 1 := constantI S_ 1 1#1
  let main_v17 : IVec S_ 1 := (fun x v => Host.reduce IntOp.andi x v reducesTo_S384x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S384x128 .f32 := Host.absf main_arg7
  let main_cst_8 : FVec F S_ .f32 := constant S_ .f32 0x7F800000#32
  let main_v25 : FVec F S384x128 .f32 := broadcastInDim S384x128 ![] bcast_S_S384x128 main_cst_8
  let main_v26 : IVec S384x128 1 := cmpf .olt main_v24 main_v25
  let main_c_9 : IVec S_ 1 := constantI S_ 1 1#1
  let main_v27 : IVec S_ 1 := (fun x v => Host.reduce IntOp.andi x v reducesTo_S384x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S100000x32 .f32) (main_arg1 : IVec S1600000 32) (main_arg2 : IVec S1600000 32) (main_arg3 : FVec F S96x128 .f32) (main_arg4 : FVec F S128 .f32) (main_arg5 : FVec F S384x128 .f32) (main_arg6 : FVec F S128 .f32) (main_arg7 : FVec F S384x128 .f32) (main_arg8 : FVec F S128 .f32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S96x128 .f32 := Host.absf main_arg3
  let main_cst_0 : FVec F S_ .f32 := constant S_ .f32 0x7F800000#32
  let main_v5 : FVec F S96x128 .f32 := broadcastInDim S96x128 ![] bcast_S_S96x128 main_cst_0
  let main_v6 : IVec S96x128 1 := cmpf .olt main_v4 main_v5
  let main_c_1 : IVec S_ 1 := constantI S_ 1 1#1
  let main_v7 : IVec S_ 1 := (fun x v => Host.reduce IntOp.andi x v reducesTo_S96x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S384x128 .f32 := Host.absf main_arg5
  let main_cst_4 : FVec F S_ .f32 := constant S_ .f32 0x7F800000#32
  let main_v15 : FVec F S384x128 .f32 := broadcastInDim S384x128 ![] bcast_S_S384x128 main_cst_4
  let main_v16 : IVec S384x128 1 := cmpf .olt main_v14 main_v15
  fn_part1 (F := F) main_arg6 main_arg7 main_arg8 main_v13 main_v16
-- ==== Kernel.lean ====
abbrev S100000x32 : Shape := ⟨2, ![100000, 32]⟩
abbrev S1600000 : Shape := ⟨1, ![1600000]⟩
abbrev S96x128 : Shape := ⟨2, ![96, 128]⟩
abbrev S128 : Shape := ⟨1, ![128]⟩
abbrev S384x128 : Shape := ⟨2, ![384, 128]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x32 : Shape := ⟨2, ![1600000, 32]⟩
abbrev S100000x96 : Shape := ⟨2, ![100000, 96]⟩
abbrev S1x128 : Shape := ⟨2, ![1, 128]⟩
abbrev S100000x128 : Shape := ⟨2, ![100000, 128]⟩
abbrev S2000x96 : Shape := ⟨2, ![2000, 96]⟩
abbrev S2000x128 : Shape := ⟨2, ![2000, 128]⟩
abbrev S1600000x128 : Shape := ⟨2, ![1600000, 128]⟩
abbrev S100000x384 : Shape := ⟨2, ![100000, 384]⟩
abbrev S2000x384 : Shape := ⟨2, ![2000, 384]⟩

abbrev nBuf : Space → Nat
  | .hbm => 133
  | .vmem => 18
  | .smem => 0
  | _ => 0

abbrev hbmTy0_0 (i : Nat) : BufTy := match i % 128 with
  | 0 => ⟨S100000x32, .f32⟩
  | 1 => ⟨S1600000, .i32⟩
  | 2 => ⟨S1600000, .i32⟩
  | 3 => ⟨S96x128, .f32⟩
  | 4 => ⟨S128, .f32⟩
  | 5 => ⟨S384x128, .f32⟩
  | 6 => ⟨S128, .f32⟩
  | 7 => ⟨S384x128, .f32⟩
  | 8 => ⟨S128, .f32⟩
  | 9 => ⟨S_, .f32⟩
  | 10 => ⟨S1600000, .f32⟩
  | 11 => ⟨S_, .f32⟩
  | 12 => ⟨S100000, .f32⟩
  | 13 => ⟨S1600000x1, .i32⟩
  | 14 => ⟨S100000, .f32⟩
  | 15 => ⟨S_, .f32⟩
  | 16 => ⟨S100000, .f32⟩
  | 17 => ⟨S100000, .f32⟩
  | 18 => ⟨S_, .f32⟩
  | 19 => ⟨S100000, .f32⟩
  | 20 => ⟨S100000, .f32⟩
  | 21 => ⟨S100000x1, .f32⟩
  | 22 => ⟨S100000x32, .f32⟩
  | 23 => ⟨S100000x32, .f32⟩
  | 24 => ⟨S_, .i32⟩
  | 25 => ⟨S1600000, .i32⟩
  | 26 => ⟨S1600000, .i1⟩
  | 27 => ⟨S_, .i32⟩
  | 28 => ⟨S1600000, .i32⟩
  | 29 => ⟨S1600000, .i32⟩
  | 30 => ⟨S1600000, .i32⟩
  | 31 => ⟨S1600000x1, .i32⟩
  | 32 => ⟨S1600000x32, .f32⟩
  | 33 => ⟨S_, .f32⟩
  | 34 => ⟨S100000x32, .f32⟩
  | 35 => ⟨S1600000x1, .i32⟩
  | 36 => ⟨S100000x32, .f32⟩
  | 37 => ⟨S100000x32, .f32⟩
  | 38 => ⟨S100000x32, .f32⟩
  | 39 => ⟨S100000x32, .f32⟩
  | 40 => ⟨S100000x32, .f32⟩
  | 41 => ⟨S_, .i32⟩
  | 42 => ⟨S1600000, .i32⟩
  | 43 => ⟨S1600000, .i1⟩
  | 44 => ⟨S_, .i32⟩
  | 45 => ⟨S1600000, .i32⟩
  | 46 => ⟨S1600000, .i32⟩
  | 47 => ⟨S1600000, .i32⟩
  | 48 => ⟨S1600000x1, .i32⟩
  | 49 => ⟨S1600000x32, .f32⟩
  | 50 => ⟨S_, .f32⟩
  | 51 => ⟨S100000x32, .f32⟩
  | 52 => ⟨S1600000x1, .i32⟩
  | 53 => ⟨S100000x32, .f32⟩
  | 54 => ⟨S100000x32, .f32⟩
  | 55 => ⟨S100000x32, .f32⟩
  | 56 => ⟨S100000x96, .f32⟩
  | 57 => ⟨S1x128, .f32⟩
  | 58 => ⟨S100000x128, .f32⟩
  | 59 => ⟨S100000x128, .f32⟩
  | 60 => ⟨S100000x128, .f32⟩
  | 61 => ⟨S_, .i32⟩
  | 62 => ⟨S1600000, .i32⟩
  | 63 => ⟨S1600000, .i1⟩
  | 64 => ⟨S_, .i32⟩
  | 65 => ⟨S1600000, .i32⟩
  | 66 => ⟨S1600000, .i32⟩
  | 67 => ⟨S1600000, .i32⟩
  | 68 => ⟨S1600000x1, .i32⟩
  | 69 => ⟨S1600000x128, .f32⟩
  | 70 => ⟨S_, .f32⟩
  | 71 => ⟨S100000x128, .f32⟩
  | 72 => ⟨S1600000x1, .i32⟩
  | 73 => ⟨S100000x128, .f32⟩
  | 74 => ⟨S100000x128, .f32⟩
  | 75 => ⟨S100000x128, .f32⟩
  | 76 => ⟨S100000x128, .f32⟩
  | 77 => ⟨S100000x128, .f32⟩
  | 78 => ⟨S_, .i32⟩
  | 79 => ⟨S1600000, .i32⟩
  | 80 => ⟨S1600000, .i1⟩
  | 81 => ⟨S_, .i32⟩
  | 82 => ⟨S1600000, .i32⟩
  | 83 => ⟨S1600000, .i32⟩
  | 84 => ⟨S1600000, .i32⟩
  | 85 => ⟨S1600000x1, .i32⟩
  | 86 => ⟨S1600000x128, .f32⟩
  | 87 => ⟨S_, .f32⟩
  | 88 => ⟨S100000x128, .f32⟩
  | 89 => ⟨S1600000x1, .i32⟩
  | 90 => ⟨S100000x128, .f32⟩
  | 91 => ⟨S100000x128, .f32⟩
  | 92 => ⟨S100000x128, .f32⟩
  | 93 => ⟨S100000x384, .f32⟩
  | 94 => ⟨S1x128, .f32⟩
  | 95 => ⟨S100000x128, .f32⟩
  | 96 => ⟨S100000x128, .f32⟩
  | 97 => ⟨S100000x128, .f32⟩
  | 98 => ⟨S_, .i32⟩
  | 99 => ⟨S1600000, .i32⟩
  | 100 => ⟨S1600000, .i1⟩
  | 101 => ⟨S_, .i32⟩
  | 102 => ⟨S1600000, .i32⟩
  | 103 => ⟨S1600000, .i32⟩
  | 104 => ⟨S1600000, .i32⟩
  | 105 => ⟨S1600000x1, .i32⟩
  | 106 => ⟨S1600000x128, .f32⟩
  | 107 => ⟨S_, .f32⟩
  | 108 => ⟨S100000x128, .f32⟩
  | 109 => ⟨S1600000x1, .i32⟩
  | 110 => ⟨S100000x128, .f32⟩
  | 111 => ⟨S100000x128, .f32⟩
  | 112 => ⟨S100000x128, .f32⟩
  | 113 => ⟨S100000x128, .f32⟩
  | 114 => ⟨S100000x128, .f32⟩
  | 115 => ⟨S_, .i32⟩
  | 116 => ⟨S1600000, .i32⟩
  | 117 => ⟨S1600000, .i1⟩
  | 118 => ⟨S_, .i32⟩
  | 119 => ⟨S1600000, .i32⟩
  | 120 => ⟨S1600000, .i32⟩
  | 121 => ⟨S1600000, .i32⟩
  | 122 => ⟨S1600000x1, .i32⟩
  | 123 => ⟨S1600000x128, .f32⟩
  | 124 => ⟨S_, .f32⟩
  | 125 => ⟨S100000x128, .f32⟩
  | 126 => ⟨S1600000x1, .i32⟩
  | 127 => ⟨S100000x128, .f32⟩
  | _ => ⟨S100000x32, .f32⟩

abbrev hbmTy0_1 (i : Nat) : BufTy := match i % 128 with
  | 0 => ⟨S100000x128, .f32⟩
  | 1 => ⟨S100000x128, .f32⟩
  | 2 => ⟨S100000x384, .f32⟩
  | 3 => ⟨S1x128, .f32⟩
  | 4 => ⟨S100000x128, .f32⟩
  | _ => ⟨S100000x32, .f32⟩

abbrev hbmTy (i : Nat) : BufTy := match i / 128 with
  | 0 => hbmTy0_0 i
  | 1 => hbmTy0_1 i
  | _ => ⟨S100000x32, .f32⟩

abbrev bufTy : (tb : Table) → Fin (tcTables nBuf tb) → BufTy
  | .hbm, ⟨i, _⟩ => hbmTy i
  | .local _ .vmem, ⟨0, _⟩ => ⟨S2000x96, .f32⟩
  | .local _ .vmem, ⟨1, _⟩ => ⟨S2000x96, .f32⟩
  | .local _ .vmem, ⟨2, _⟩ => ⟨S96x128, .f32⟩
  | .local _ .vmem, ⟨3, _⟩ => ⟨S1x128, .f32⟩
  | .local _ .vmem, ⟨4, _⟩ => ⟨S2000x128, .f32⟩
  | .local _ .vmem, ⟨5, _⟩ => ⟨S2000x128, .f32⟩
  | .local _ .vmem, ⟨6, _⟩ => ⟨S2000x384, .f32⟩
  | .local _ .vmem, ⟨7, _⟩ => ⟨S2000x384, .f32⟩
  | .local _ .vmem, ⟨8, _⟩ => ⟨S384x128, .f32⟩
  | .local _ .vmem, ⟨9, _⟩ => ⟨S1x128, .f32⟩
  | .local _ .vmem, ⟨10, _⟩ => ⟨S2000x128, .f32⟩
  | .local _ .vmem, ⟨11, _⟩ => ⟨S2000x128, .f32⟩
  | .local _ .vmem, ⟨12, _⟩ => ⟨S2000x384, .f32⟩
  | .local _ .vmem, ⟨13, _⟩ => ⟨S2000x384, .f32⟩
  | .local _ .vmem, ⟨14, _⟩ => ⟨S384x128, .f32⟩
  | .local _ .vmem, ⟨15, _⟩ => ⟨S1x128, .f32⟩
  | .local _ .vmem, ⟨16, _⟩ => ⟨S2000x128, .f32⟩
  | .local _ .vmem, ⟨17, _⟩ => ⟨S2000x128, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_cst_2 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c : Ref sig .tc := ⟨.hbm, 24, rfl⟩
abbrev main_v11 : Ref sig .tc := ⟨.hbm, 25, rfl⟩
abbrev main_v12 : Ref sig .tc := ⟨.hbm, 26, rfl⟩
abbrev main_c_3 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_4 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_c_5 : Ref sig .tc := ⟨.hbm, 41, rfl⟩
abbrev main_v25 : Ref sig .tc := ⟨.hbm, 42, rfl⟩
abbrev main_v26 : Ref sig .tc := ⟨.hbm, 43, rfl⟩
abbrev main_c_6 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_7 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_c_8 : Ref sig .tc := ⟨.hbm, 61, rfl⟩
abbrev main_v42 : Ref sig .tc := ⟨.hbm, 62, rfl⟩
abbrev main_v43 : Ref sig .tc := ⟨.hbm, 63, rfl⟩
abbrev main_c_9 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_10 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_c_11 : Ref sig .tc := ⟨.hbm, 78, rfl⟩
abbrev main_v56 : Ref sig .tc := ⟨.hbm, 79, rfl⟩
abbrev main_v57 : Ref sig .tc := ⟨.hbm, 80, rfl⟩
abbrev main_c_12 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_13 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_c_14 : Ref sig .tc := ⟨.hbm, 98, rfl⟩
abbrev main_v73 : Ref sig .tc := ⟨.hbm, 99, rfl⟩
abbrev main_v74 : Ref sig .tc := ⟨.hbm, 100, rfl⟩
abbrev main_c_15 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_cst_16 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_c_17 : Ref sig .tc := ⟨.hbm, 115, rfl⟩
abbrev main_v87 : Ref sig .tc := ⟨.hbm, 116, rfl⟩
abbrev main_v88 : Ref sig .tc := ⟨.hbm, 117, rfl⟩
abbrev main_c_18 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_cst_19 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S96x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x384 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S384x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x384 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S384x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x32_0_1 : S100000x1.BroadcastsInDim S100000x32 (![0, 1] : Fin 2 → Fin S100000x32.rank)
  bcast_S_S100000x32 : S_.BroadcastsInDim S100000x32 (![] : Fin 0 → Fin S100000x32.rank)
  concatenates_S100000x32_S100000x32_S100000x32_S100000x96_d1 : Shape.Concatenates [S100000x32, S100000x32, S100000x32] S100000x96 1
  shapeCasts_S128_S1x128 : S128.ShapeCasts S1x128
  inb_S2000x96_S2000x96_0_0 : ∀ a, (![0, 0] : Fin 2 → Nat) a + S2000x96.size a ≤ S2000x96.size a
  h_S2000x96 : 0 < S2000x96.numel
  shapeCasts_S2000x96_S2000x96 : S2000x96.ShapeCasts S2000x96
  bitsLt_bf16_f32 : FTy.bits .bf16 < FTy.bits .f32
  inb_S96x128_S96x128_0_0 : ∀ a, (![0, 0] : Fin 2 → Nat) a + S96x128.size a ≤ S96x128.size a
  h_S96x128 : 0 < S96x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  concatenates_S100000x128_S100000x128_S100000x128_S100000x384_d1 : Shape.Concatenates [S100000x128, S100000x128, S100000x128] S100000x384 1
  inb_S2000x384_S2000x384_0_0 : ∀ a, (![0, 0] : Fin 2 → Nat) a + S2000x384.size a ≤ S2000x384.size a
  h_S2000x384 : 0 < S2000x384.numel
  shapeCasts_S2000x384_S2000x384 : S2000x384.ShapeCasts S2000x384
  inb_S384x128_S384x128_0_0 : ∀ a, (![0, 0] : Fin 2 → Nat) a + S384x128.size a ≤ S384x128.size a
  h_S384x128 : 0 < S384x128.numel
  scatter_S100000_S1600000x1_S1600000_n_0_0_1_wf : ScatterDims.WF S100000 S1600000x1 S1600000 [] [0] [0] 1
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S2000x96_S96x128_S2000x128_1_0_0_1_n_n_wf : DotDims.WF S2000x96 S96x128 S2000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x384_S384x128_S2000x128_1_0_0_1_n_n_wf : DotDims.WF S2000x384 S384x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x96.size a ≤ S100000x96.size a
  hwx0_0 : ∀ i : grid0.Coords, EltTy.bits .f32 = 32 ∨ (Rect.block (s := S100000x96) S2000x96.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S96x128.size a ≤ S96x128.size a
  hwx0_1 : ∀ i : grid0.Coords, EltTy.bits .f32 = 32 ∨ (Rect.block (s := S96x128) S96x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S100000x128.size a
  hwx0_3 : ∀ i : grid0.Coords, EltTy.bits .f32 = 32 ∨ (Rect.block (s := S100000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x384.size a ≤ S100000x384.size a
  hwx1_0 : ∀ i : grid1.Coords, EltTy.bits .f32 = 32 ∨ (Rect.block (s := S100000x384) S2000x384.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S384x128.size a ≤ S384x128.size a
  hwx1_1 : ∀ i : grid1.Coords, EltTy.bits .f32 = 32 ∨ (Rect.block (s := S384x128) S384x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S100000x128.size a
  hwx1_3 : ∀ i : grid1.Coords, EltTy.bits .f32 = 32 ∨ (Rect.block (s := S100000x128) S2000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x384.size a ≤ S100000x384.size a
  hwx2_0 : ∀ i : grid2.Coords, EltTy.bits .f32 = 32 ∨ (Rect.block (s := S100000x384) S2000x384.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S384x128.size a ≤ S384x128.size a
  hwx2_1 : ∀ i : grid2.Coords, EltTy.bits .f32 = 32 ∨ (Rect.block (s := S384x128) S384x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x128.size a ≤ S100000x128.size a
  hwx2_3 : ∀ i : grid2.Coords, EltTy.bits .f32 = 32 ∨ (Rect.block (s := S100000x128) S2000x128.size (cc2_transform_3 i) (hinb2_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S2000x96_S96x128_S2000x128_1_0_0_1_n_n : DotDims S2000x96 S96x128 S2000x128 where
  lhsContracting := [1]
  rhsContracting := [0]
  lhsNonContracting := [0]
  rhsNonContracting := [1]
  lhsBatch := []
  rhsBatch := []
  wf := dot_S2000x96_S96x128_S2000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x384_S384x128_S2000x128_1_0_0_1_n_n : DotDims S2000x384 S384x128 S2000x128 where
  lhsContracting := [1]
  rhsContracting := [0]
  lhsNonContracting := [0]
  rhsNonContracting := [1]
  lhsBatch := []
  rhsBatch := []
  wf := dot_S2000x384_S384x128_S2000x128_1_0_0_1_n_n_wf

abbrev win0_0 : Pipeline.Window sig grid0 :=
  Pipeline.Window.ofSpec (Memref.whole main_v37) S2000x96.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S96x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v38) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v39) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v68) S2000x384.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S384x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v69) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v70) S2000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v99) S2000x384.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S384x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v100) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v101) S2000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x32 : Shape := ⟨2, ![100000, 32]⟩
abbrev S1600000 : Shape := ⟨1, ![1600000]⟩
abbrev S96x128 : Shape := ⟨2, ![96, 128]⟩
abbrev S128 : Shape := ⟨1, ![128]⟩
abbrev S384x128 : Shape := ⟨2, ![384, 128]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x32 : Shape := ⟨2, ![1600000, 32]⟩
abbrev S100000x96 : Shape := ⟨2, ![100000, 96]⟩
abbrev S100000x128 : Shape := ⟨2, ![100000, 128]⟩
abbrev S1x128 : Shape := ⟨2, ![1, 128]⟩
abbrev S1600000x128 : Shape := ⟨2, ![1600000, 128]⟩
abbrev S100000x384 : Shape := ⟨2, ![100000, 384]⟩

abbrev nBuf : Space → Nat
  | .hbm => 148
  | .vmem => 0
  | .smem => 0
  | _ => 0

abbrev hbmTy0_0 (i : Nat) : BufTy := match i % 128 with
  | 0 => ⟨S100000x32, .f32⟩
  | 1 => ⟨S1600000, .i32⟩
  | 2 => ⟨S1600000, .i32⟩
  | 3 => ⟨S96x128, .f32⟩
  | 4 => ⟨S128, .f32⟩
  | 5 => ⟨S384x128, .f32⟩
  | 6 => ⟨S128, .f32⟩
  | 7 => ⟨S384x128, .f32⟩
  | 8 => ⟨S128, .f32⟩
  | 9 => ⟨S_, .f32⟩
  | 10 => ⟨S1600000, .f32⟩
  | 11 => ⟨S_, .f32⟩
  | 12 => ⟨S100000, .f32⟩
  | 13 => ⟨S1600000x1, .i32⟩
  | 14 => ⟨S100000, .f32⟩
  | 15 => ⟨S_, .f32⟩
  | 16 => ⟨S100000, .f32⟩
  | 17 => ⟨S100000, .f32⟩
  | 18 => ⟨S_, .f32⟩
  | 19 => ⟨S100000, .f32⟩
  | 20 => ⟨S100000, .f32⟩
  | 21 => ⟨S100000x1, .f32⟩
  | 22 => ⟨S100000x32, .f32⟩
  | 23 => ⟨S100000x32, .f32⟩
  | 24 => ⟨S_, .i32⟩
  | 25 => ⟨S1600000, .i32⟩
  | 26 => ⟨S1600000, .i1⟩
  | 27 => ⟨S_, .i32⟩
  | 28 => ⟨S1600000, .i32⟩
  | 29 => ⟨S1600000, .i32⟩
  | 30 => ⟨S1600000, .i32⟩
  | 31 => ⟨S1600000x1, .i32⟩
  | 32 => ⟨S1600000x32, .f32⟩
  | 33 => ⟨S_, .f32⟩
  | 34 => ⟨S100000x32, .f32⟩
  | 35 => ⟨S1600000x1, .i32⟩
  | 36 => ⟨S100000x32, .f32⟩
  | 37 => ⟨S100000x32, .f32⟩
  | 38 => ⟨S100000x32, .f32⟩
  | 39 => ⟨S100000x32, .f32⟩
  | 40 => ⟨S100000x32, .f32⟩
  | 41 => ⟨S_, .i32⟩
  | 42 => ⟨S1600000, .i32⟩
  | 43 => ⟨S1600000, .i1⟩
  | 44 => ⟨S_, .i32⟩
  | 45 => ⟨S1600000, .i32⟩
  | 46 => ⟨S1600000, .i32⟩
  | 47 => ⟨S1600000, .i32⟩
  | 48 => ⟨S1600000x1, .i32⟩
  | 49 => ⟨S1600000x32, .f32⟩
  | 50 => ⟨S_, .f32⟩
  | 51 => ⟨S100000x32, .f32⟩
  | 52 => ⟨S1600000x1, .i32⟩
  | 53 => ⟨S100000x32, .f32⟩
  | 54 => ⟨S100000x32, .f32⟩
  | 55 => ⟨S100000x32, .f32⟩
  | 56 => ⟨S100000x96, .f32⟩
  | 57 => ⟨S100000x128, .f32⟩
  | 58 => ⟨S1x128, .f32⟩
  | 59 => ⟨S100000x128, .f32⟩
  | 60 => ⟨S100000x128, .f32⟩
  | 61 => ⟨S_, .f32⟩
  | 62 => ⟨S100000x128, .f32⟩
  | 63 => ⟨S100000x128, .f32⟩
  | 64 => ⟨S100000x128, .f32⟩
  | 65 => ⟨S100000x128, .f32⟩
  | 66 => ⟨S_, .i32⟩
  | 67 => ⟨S1600000, .i32⟩
  | 68 => ⟨S1600000, .i1⟩
  | 69 => ⟨S_, .i32⟩
  | 70 => ⟨S1600000, .i32⟩
  | 71 => ⟨S1600000, .i32⟩
  | 72 => ⟨S1600000, .i32⟩
  | 73 => ⟨S1600000x1, .i32⟩
  | 74 => ⟨S1600000x128, .f32⟩
  | 75 => ⟨S_, .f32⟩
  | 76 => ⟨S100000x128, .f32⟩
  | 77 => ⟨S1600000x1, .i32⟩
  | 78 => ⟨S100000x128, .f32⟩
  | 79 => ⟨S100000x128, .f32⟩
  | 80 => ⟨S100000x128, .f32⟩
  | 81 => ⟨S100000x128, .f32⟩
  | 82 => ⟨S100000x128, .f32⟩
  | 83 => ⟨S_, .i32⟩
  | 84 => ⟨S1600000, .i32⟩
  | 85 => ⟨S1600000, .i1⟩
  | 86 => ⟨S_, .i32⟩
  | 87 => ⟨S1600000, .i32⟩
  | 88 => ⟨S1600000, .i32⟩
  | 89 => ⟨S1600000, .i32⟩
  | 90 => ⟨S1600000x1, .i32⟩
  | 91 => ⟨S1600000x128, .f32⟩
  | 92 => ⟨S_, .f32⟩
  | 93 => ⟨S100000x128, .f32⟩
  | 94 => ⟨S1600000x1, .i32⟩
  | 95 => ⟨S100000x128, .f32⟩
  | 96 => ⟨S100000x128, .f32⟩
  | 97 => ⟨S100000x128, .f32⟩
  | 98 => ⟨S100000x384, .f32⟩
  | 99 => ⟨S100000x128, .f32⟩
  | 100 => ⟨S1x128, .f32⟩
  | 101 => ⟨S100000x128, .f32⟩
  | 102 => ⟨S100000x128, .f32⟩
  | 103 => ⟨S_, .f32⟩
  | 104 => ⟨S100000x128, .f32⟩
  | 105 => ⟨S100000x128, .f32⟩
  | 106 => ⟨S100000x128, .f32⟩
  | 107 => ⟨S100000x128, .f32⟩
  | 108 => ⟨S_, .i32⟩
  | 109 => ⟨S1600000, .i32⟩
  | 110 => ⟨S1600000, .i1⟩
  | 111 => ⟨S_, .i32⟩
  | 112 => ⟨S1600000, .i32⟩
  | 113 => ⟨S1600000, .i32⟩
  | 114 => ⟨S1600000, .i32⟩
  | 115 => ⟨S1600000x1, .i32⟩
  | 116 => ⟨S1600000x128, .f32⟩
  | 117 => ⟨S_, .f32⟩
  | 118 => ⟨S100000x128, .f32⟩
  | 119 => ⟨S1600000x1, .i32⟩
  | 120 => ⟨S100000x128, .f32⟩
  | 121 => ⟨S100000x128, .f32⟩
  | 122 => ⟨S100000x128, .f32⟩
  | 123 => ⟨S100000x128, .f32⟩
  | 124 => ⟨S100000x128, .f32⟩
  | 125 => ⟨S_, .i32⟩
  | 126 => ⟨S1600000, .i32⟩
  | 127 => ⟨S1600000, .i1⟩
  | _ => ⟨S100000x32, .f32⟩

abbrev hbmTy0_1 (i : Nat) : BufTy := match i % 128 with
  | 0 => ⟨S_, .i32⟩
  | 1 => ⟨S1600000, .i32⟩
  | 2 => ⟨S1600000, .i32⟩
  | 3 => ⟨S1600000, .i32⟩
  | 4 => ⟨S1600000x1, .i32⟩
  | 5 => ⟨S1600000x128, .f32⟩
  | 6 => ⟨S_, .f32⟩
  | 7 => ⟨S100000x128, .f32⟩
  | 8 => ⟨S1600000x1, .i32⟩
  | 9 => ⟨S100000x128, .f32⟩
  | 10 => ⟨S100000x128, .f32⟩
  | 11 => ⟨S100000x128, .f32⟩
  | 12 => ⟨S100000x384, .f32⟩
  | 13 => ⟨S100000x128, .f32⟩
  | 14 => ⟨S1x128, .f32⟩
  | 15 => ⟨S100000x128, .f32⟩
  | 16 => ⟨S100000x128, .f32⟩
  | 17 => ⟨S_, .f32⟩
  | 18 => ⟨S100000x128, .f32⟩
  | 19 => ⟨S100000x128, .f32⟩
  | _ => ⟨S100000x32, .f32⟩

abbrev hbmTy (i : Nat) : BufTy := match i / 128 with
  | 0 => hbmTy0_0 i
  | 1 => hbmTy0_1 i
  | _ => ⟨S100000x32, .f32⟩

abbrev bufTy : (tb : Table) → Fin (tcTables nBuf tb) → BufTy
  | .hbm, ⟨i, _⟩ => hbmTy i
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_cst_2 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c : Ref sig .tc := ⟨.hbm, 24, rfl⟩
abbrev main_v11 : Ref sig .tc := ⟨.hbm, 25, rfl⟩
abbrev main_v12 : Ref sig .tc := ⟨.hbm, 26, rfl⟩
abbrev main_c_3 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_4 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_c_5 : Ref sig .tc := ⟨.hbm, 41, rfl⟩
abbrev main_v25 : Ref sig .tc := ⟨.hbm, 42, rfl⟩
abbrev main_v26 : Ref sig .tc := ⟨.hbm, 43, rfl⟩
abbrev main_c_6 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_7 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_call0_cst : Ref sig .tc := ⟨.hbm, 61, rfl⟩
abbrev main_call0_v0 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_c_8 : Ref sig .tc := ⟨.hbm, 66, rfl⟩
abbrev main_v45 : Ref sig .tc := ⟨.hbm, 67, rfl⟩
abbrev main_v46 : Ref sig .tc := ⟨.hbm, 68, rfl⟩
abbrev main_c_9 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_10 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_c_11 : Ref sig .tc := ⟨.hbm, 83, rfl⟩
abbrev main_v59 : Ref sig .tc := ⟨.hbm, 84, rfl⟩
abbrev main_v60 : Ref sig .tc := ⟨.hbm, 85, rfl⟩
abbrev main_c_12 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_cst_13 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_call1_cst : Ref sig .tc := ⟨.hbm, 103, rfl⟩
abbrev main_call1_v0 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_c_14 : Ref sig .tc := ⟨.hbm, 108, rfl⟩
abbrev main_v79 : Ref sig .tc := ⟨.hbm, 109, rfl⟩
abbrev main_v80 : Ref sig .tc := ⟨.hbm, 110, rfl⟩
abbrev main_c_15 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_cst_16 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_c_17 : Ref sig .tc := ⟨.hbm, 125, rfl⟩
abbrev main_v93 : Ref sig .tc := ⟨.hbm, 126, rfl⟩
abbrev main_v94 : Ref sig .tc := ⟨.hbm, 127, rfl⟩
abbrev main_c_18 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_cst_19 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_call2_cst : Ref sig .tc := ⟨.hbm, 145, rfl⟩
abbrev main_call2_v0 : Ref sig .tc := ⟨.hbm, 146, rfl⟩
abbrev main_v110 : Ref sig .tc := ⟨.hbm, 147, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x32_0_1 : S100000x1.BroadcastsInDim S100000x32 (![0, 1] : Fin 2 → Fin S100000x32.rank)
  bcast_S_S100000x32 : S_.BroadcastsInDim S100000x32 (![] : Fin 0 → Fin S100000x32.rank)
  concatenates_S100000x32_S100000x32_S100000x32_S100000x96_d1 : Shape.Concatenates [S100000x32, S100000x32, S100000x32] S100000x96 1
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  concatenates_S100000x128_S100000x128_S100000x128_S100000x384_d1 : Shape.Concatenates [S100000x128, S100000x128, S100000x128] S100000x384 1
  scatter_S100000_S1600000x1_S1600000_n_0_0_1_wf : ScatterDims.WF S100000 S1600000x1 S1600000 [] [0] [0] 1
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S100000x96_S96x128_S100000x128_1_0_0_1_n_n_wf : DotDims.WF S100000x96 S96x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x384_S384x128_S100000x128_1_0_0_1_n_n_wf : DotDims.WF S100000x384 S384x128 S100000x128 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S100000x96_S96x128_S100000x128_1_0_0_1_n_n : DotDims S100000x96 S96x128 S100000x128 where
  lhsContracting := [1]
  rhsContracting := [0]
  lhsNonContracting := [0]
  rhsNonContracting := [1]
  lhsBatch := []
  rhsBatch := []
  wf := dot_S100000x96_S96x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x384_S384x128_S100000x128_1_0_0_1_n_n : DotDims S100000x384 S384x128 S100000x128 where
  lhsContracting := [1]
  rhsContracting := [0]
  lhsNonContracting := [0]
  rhsNonContracting := [1]
  lhsBatch := []
  rhsBatch := []
  wf := dot_S100000x384_S384x128_S100000x128_1_0_0_1_n_n_wf

class Facts : Prop extends Facts₀ where

variable [Facts]
-- ==== Proof.LayersRunBits.lean ====
/-
  The run of the three-layer program, layer by layer.  Each layer's dense stage is one kernel region over
  50 row blocks of 2000 nodes: a point reads its block of the stacked features, the whole weight matrix and
  the bias row, and writes its block of the layer's output.  Per region: the block each window holds at a
  point, what the body leaves in the output block (one covering store of the body's value of the three
  loaded blocks), the body's triple, and the pipeline's data at any entry contents.  Then the run: the
  buffers' contents at each of the seven boundaries between host stretches and regions, every region as a
  segment between two boundaries, and the theorem that every execution ends with each unscoped buffer at
  the last boundary's contents; the arguments are read back to the launch memory through the boundaries.
-/
import proofs.«103402_j18631568130049_1_alg».proof.Proof.Gen.Kernel.Launch
import proofs.«103402_j18631568130049_1_alg».proof.Proof.Gen.Kernel.Skeleton
import proofs.«103402_j18631568130049_1_alg».proof.Proof.Gen.Kernel.Points
import proofs.«103402_j18631568130049_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Layers

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section PerRegion
-- the buffers' contents when a region is entered
variable (V : (c : Dev nD) → (b : Ref sig .tc) → Buf (Elt F) ((c : Thread nD τ).loc b))

/-! # Layer 1's dense stage (region 0) at entry contents `V` -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, whether fetched there or at an earlier point
    with the same block index. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, whether fetched there or at an earlier point
    with the same block index. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at every point, whether fetched there or at an earlier point
    with the same block index. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S2000x96 := Rect.unit (s := S2000x96) ![0, 0] S2000x96.size inb_S2000x96_S2000x96_0_0
abbrev r0_1 : Rect S96x128 := Rect.unit (s := S96x128) ![0, 0] S96x128.size inb_S96x128_S96x128_0_0
abbrev r0_2 : Rect S1x128 := Rect.unit (s := S1x128) ![0, 0] S1x128.size inb_S1x128_S1x128_0_0
abbrev r0_3 : Rect S2000x128 := Rect.unit (s := S2000x128) ![0, 0] S2000x128.size inb_S2000x128_S2000x128_0_0

/-- The output block after the body: one store of the body's value of the three loaded blocks, over the whole block. -/
def out0_3 (x0 : Vec F S2000x96 .f32) (x1 : Vec F S96x128 .f32) (x2 : Vec F S1x128 .f32) : Vec F S2000x128 .f32 :=
  View.canon [⟨r0_3, k0_pay1 (View.ld x0 r0_0) (View.ld x1 r0_1) (View.ld x2 r0_2)⟩]

/-- The one store covers the block. -/
theorem cover0_3 (p0 : Vec F S2000x128 .f32) (y : S2000x128.Idx) :
    ∃ pc ∈ ([⟨r0_3, p0⟩] : List (View.Piece (Elt F) S2000x128 .f32)), y ∈ pc.1.set :=
  View.cover_of_tiled [⟨r0_3, p0⟩] S2000x128.size (by rfl) y

set_option maxHeartbeats 1000000 in
/-- The body on whole staging buffers — the inputs at `x0 x1 x2`, the output at anything — returns them with the
    inputs unchanged and the output at `out0_3 x0 x1 x2`. -/
theorem sound_kernel0 (c : Dev nD) (E : Set ℕ) (i : grid0.Coords) (arg1 : Memref sig .tc .vmem S2000x96 .f32) (harg1 : arg1.IsWhole) (arg2 : Memref sig .tc .vmem S96x128 .f32) (harg2 : arg2.IsWhole) (arg3 : Memref sig .tc .vmem S1x128 .f32) (harg3 : arg3.IsWhole) (arg4 : Memref sig .tc .vmem S2000x128 .f32) (harg4 : arg4.IsWhole)
    (x0 : Vec F S2000x96 .f32) (x1 : Vec F S96x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__linear_relu_kernel i arg1 harg1 arg2 harg2 arg3 harg3 arg4 harg4) K := by
  simp only [cc0__linear_relu_kernel_eq_skeleton]; unfold cc0__linear_relu_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The pipeline's data on core `c`: the arrays as the region finds them; after the body at point `t` each input's
    buffer at its block and the output's at `out0_3` of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

/-! # Layer 2's dense stage (region 1) at entry contents `V` -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, whether fetched there or at an earlier point
    with the same block index. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, whether fetched there or at an earlier point
    with the same block index. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point, whether fetched there or at an earlier point
    with the same block index. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

abbrev r1_0 : Rect S2000x384 := Rect.unit (s := S2000x384) ![0, 0] S2000x384.size inb_S2000x384_S2000x384_0_0
abbrev r1_1 : Rect S384x128 := Rect.unit (s := S384x128) ![0, 0] S384x128.size inb_S384x128_S384x128_0_0
abbrev r1_2 : Rect S1x128 := Rect.unit (s := S1x128) ![0, 0] S1x128.size inb_S1x128_S1x128_0_0
abbrev r1_3 : Rect S2000x128 := Rect.unit (s := S2000x128) ![0, 0] S2000x128.size inb_S2000x128_S2000x128_0_0

/-- The output block after the body: one store of the body's value of the three loaded blocks, over the whole block. -/
def out1_3 (x0 : Vec F S2000x384 .f32) (x1 : Vec F S384x128 .f32) (x2 : Vec F S1x128 .f32) : Vec F S2000x128 .f32 :=
  View.canon [⟨r1_3, k1_pay1 (View.ld x0 r1_0) (View.ld x1 r1_1) (View.ld x2 r1_2)⟩]

/-- The one store covers the block. -/
theorem cover1_3 (p0 : Vec F S2000x128 .f32) (y : S2000x128.Idx) :
    ∃ pc ∈ ([⟨r1_3, p0⟩] : List (View.Piece (Elt F) S2000x128 .f32)), y ∈ pc.1.set :=
  View.cover_of_tiled [⟨r1_3, p0⟩] S2000x128.size (by rfl) y

set_option maxHeartbeats 1000000 in
/-- The body on whole staging buffers — the inputs at `x0 x1 x2`, the output at anything — returns them with the
    inputs unchanged and the output at `out1_3 x0 x1 x2`. -/
theorem sound_kernel1 (c : Dev nD) (E : Set ℕ) (i : grid1.Coords) (arg1 : Memref sig .tc .vmem S2000x384 .f32) (harg1 : arg1.IsWhole) (arg2 : Memref sig .tc .vmem S384x128 .f32) (harg2 : arg2.IsWhole) (arg3 : Memref sig .tc .vmem S1x128 .f32) (harg3 : arg3.IsWhole) (arg4 : Memref sig .tc .vmem S2000x128 .f32) (harg4 : arg4.IsWhole)
    (x0 : Vec F S2000x384 .f32) (x1 : Vec F S384x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__linear_relu_kernel i arg1 harg1 arg2 harg2 arg3 harg3 arg4 harg4) K := by
  simp only [cc1__linear_relu_kernel_eq_skeleton]; unfold cc1__linear_relu_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The pipeline's data on core `c`: the arrays as the region finds them; after the body at point `t` each input's
    buffer at its block and the output's at `out1_3` of the input blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  exact sound_body1 V c t

/-! # Layer 3's dense stage (region 2) at entry contents `V` -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, whether fetched there or at an earlier point
    with the same block index. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's staging buffer holds its block at every point, whether fetched there or at an earlier point
    with the same block index. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's staging buffer holds its block at every point, whether fetched there or at an earlier point
    with the same block index. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

abbrev r2_0 : Rect S2000x384 := Rect.unit (s := S2000x384) ![0, 0] S2000x384.size inb_S2000x384_S2000x384_0_0
abbrev r2_1 : Rect S384x128 := Rect.unit (s := S384x128) ![0, 0] S384x128.size inb_S384x128_S384x128_0_0
abbrev r2_2 : Rect S1x128 := Rect.unit (s := S1x128) ![0, 0] S1x128.size inb_S1x128_S1x128_0_0
abbrev r2_3 : Rect S2000x128 := Rect.unit (s := S2000x128) ![0, 0] S2000x128.size inb_S2000x128_S2000x128_0_0

/-- The output block after the body: one store of the body's value of the three loaded blocks, over the whole block. -/
def out2_3 (x0 : Vec F S2000x384 .f32) (x1 : Vec F S384x128 .f32) (x2 : Vec F S1x128 .f32) : Vec F S2000x128 .f32 :=
  View.canon [⟨r2_3, k2_pay1 (View.ld x0 r2_0) (View.ld x1 r2_1) (View.ld x2 r2_2)⟩]

/-- The one store covers the block. -/
theorem cover2_3 (p0 : Vec F S2000x128 .f32) (y : S2000x128.Idx) :
    ∃ pc ∈ ([⟨r2_3, p0⟩] : List (View.Piece (Elt F) S2000x128 .f32)), y ∈ pc.1.set :=
  View.cover_of_tiled [⟨r2_3, p0⟩] S2000x128.size (by rfl) y

set_option maxHeartbeats 1000000 in
/-- The body on whole staging buffers — the inputs at `x0 x1 x2`, the output at anything — returns them with the
    inputs unchanged and the output at `out2_3 x0 x1 x2`. -/
theorem sound_kernel2 (c : Dev nD) (E : Set ℕ) (i : grid2.Coords) (arg1 : Memref sig .tc .vmem S2000x384 .f32) (harg1 : arg1.IsWhole) (arg2 : Memref sig .tc .vmem S384x128 .f32) (harg2 : arg2.IsWhole) (arg3 : Memref sig .tc .vmem S1x128 .f32) (harg3 : arg3.IsWhole) (arg4 : Memref sig .tc .vmem S2000x128 .f32) (harg4 : arg4.IsWhole)
    (x0 : Vec F S2000x384 .f32) (x1 : Vec F S384x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out2_3 x0 x1 x2)) -∗ K ⟨⟩))
      ⊢ wp frame (wpE (defs₀ (F := F)) Variants.none c none) E (cc2__linear_relu_kernel i arg1 harg1 arg2 harg2 arg3 harg3 arg4 harg4) K := by
  simp only [cc2__linear_relu_kernel_eq_skeleton]; unfold cc2__linear_relu_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The pipeline's data on core `c`: the arrays as the region finds them; after the body at point `t` each input's
    buffer at its block and the output's at `out2_3` of the input blocks; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ (grid2.coords t) _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation2 (c : Dev nD) : BodyObligation (dat2 (F := F) V c) (defs₀ (F := F)) Variants.none () Set.univ := fun t => by
  rw [bigSep_W2, bigSep_W2]
  exact sound_body2 V c t

end PerRegion

/-! # The buffers' contents at each boundary -/

/-- At launch. -/
abbrev B0 : Dev nD → Valuation τ sig (Elt F) := fun c b => m ((c : Dev nD), b)
/-- After host stretch 0 (region 0's entry). -/
abbrev B1 : Dev nD → Valuation τ sig (Elt F) := fun c => StableHlo.after hostOps0 (B0 m c)
abbrev T1 : (c : Dev nD) → (b : Ref sig .tc) → Buf (Elt F) ((c : Thread nD τ).loc b) := fun c b => B1 m c b
/-- At region 0's exit: its arrays at what the pipeline leaves, every other buffer as entered. -/
def B2 (c : Dev nD) : Valuation τ sig (Elt F) :=
  Pipeline.withArrays spec0 c (B1 m c) fun w => (dat0 (T1 m) c).arrAt w cfg0.N
theorem B2_arr (c : Dev nD) (w : Fin cfg0.W) :
    B2 m c (Proc.devRef .tc (Pipeline.arrRef spec0 w)) = (dat0 (T1 m) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m c (Proc.devRef .tc b) = B1 m c (Proc.devRef .tc b) := by
  unfold B2; exact Pipeline.withArrays_of_ne spec0 c _ _ b hb
abbrev T2 : (c : Dev nD) → (b : Ref sig .tc) → Buf (Elt F) ((c : Thread nD τ).loc b) := fun c b => B2 m c b
theorem hF0 (c : Dev nD) (w : Fin cfg0.W) : (dat0 (T1 m) c).arrAt w cfg0.N = T2 m c (Pipeline.arrRef spec0 w) :=
  (B2_arr m c w).symm
theorem hrest0 (c : Dev nD) : ∀ b, b ∉ Finset.univ.image (Pipeline.arrRef spec0) → T2 m c b = T1 m c b :=
  fun b hb => B2_of_ne m c b fun w e => hb (Finset.mem_image.mpr ⟨w, Finset.mem_univ _, e⟩)
/-- A host stretch changes only the buffers its operations write. -/
theorem B1_of (c : Dev nD) (r : Ref sig .tc) (h : r ∉ hostOps0_W) : B1 m c (Proc.devRef .tc r) = B0 m c (Proc.devRef .tc r) :=
  StableHlo.after_of_writes_sub hostOps0 _ hostOps0_writes h
/-- After host stretch 1 (region 1's entry). -/
abbrev B3 : Dev nD → Valuation τ sig (Elt F) := fun c => StableHlo.after hostOps1 (B2 m c)
abbrev T3 : (c : Dev nD) → (b : Ref sig .tc) → Buf (Elt F) ((c : Thread nD τ).loc b) := fun c b => B3 m c b
/-- At region 1's exit: its arrays at what the pipeline leaves, every other buffer as entered. -/
def B4 (c : Dev nD) : Valuation τ sig (Elt F) :=
  Pipeline.withArrays spec1 c (B3 m c) fun w => (dat1 (T3 m) c).arrAt w cfg1.N
theorem B4_arr (c : Dev nD) (w : Fin cfg1.W) :
    B4 m c (Proc.devRef .tc (Pipeline.arrRef spec1 w)) = (dat1 (T3 m) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 m c (Proc.devRef .tc b) = B3 m c (Proc.devRef .tc b) := by
  unfold B4; exact Pipeline.withArrays_of_ne spec1 c _ _ b hb
abbrev T4 : (c : Dev nD) → (b : Ref sig .tc) → Buf (Elt F) ((c : Thread nD τ).loc b) := fun c b => B4 m c b
theorem hF1 (c : Dev nD) (w : Fin cfg1.W) : (dat1 (T3 m) c).arrAt w cfg1.N = T4 m c (Pipeline.arrRef spec1 w) :=
  (B4_arr m c w).symm
theorem hrest1 (c : Dev nD) : ∀ b, b ∉ Finset.univ.image (Pipeline.arrRef spec1) → T4 m c b = T3 m c b :=
  fun b hb => B4_of_ne m c b fun w e => hb (Finset.mem_image.mpr ⟨w, Finset.mem_univ _, e⟩)
/-- A host stretch changes only the buffers its operations write. -/
theorem B3_of (c : Dev nD) (r : Ref sig .tc) (h : r ∉ hostOps1_W) : B3 m c (Proc.devRef .tc r) = B2 m c (Proc.devRef .tc r) :=
  StableHlo.after_of_writes_sub hostOps1 _ hostOps1_writes h
/-- After host stretch 2 (region 2's entry). -/
abbrev B5 : Dev nD → Valuation τ sig (Elt F) := fun c => StableHlo.after hostOps2 (B4 m c)
abbrev T5 : (c : Dev nD) → (b : Ref sig .tc) → Buf (Elt F) ((c : Thread nD τ).loc b) := fun c b => B5 m c b
/-- At region 2's exit: its arrays at what the pipeline leaves, every other buffer as entered. -/
def B6 (c : Dev nD) : Valuation τ sig (Elt F) :=
  Pipeline.withArrays spec2 c (B5 m c) fun w => (dat2 (T5 m) c).arrAt w cfg2.N
theorem B6_arr (c : Dev nD) (w : Fin cfg2.W) :
    B6 m c (Proc.devRef .tc (Pipeline.arrRef spec2 w)) = (dat2 (T5 m) c).arrAt w cfg2.N := by
  unfold B6; exact Pipeline.withArrays_arr spec2 launch2.win.arr_inj c _ _ w
theorem B6_of_ne (c : Dev nD) (b : Ref sig .tc) (hb : ∀ w, Pipeline.arrRef spec2 w ≠ b) :
    B6 m c (Proc.devRef .tc b) = B5 m c (Proc.devRef .tc b) := by
  unfold B6; exact Pipeline.withArrays_of_ne spec2 c _ _ b hb
abbrev T6 : (c : Dev nD) → (b : Ref sig .tc) → Buf (Elt F) ((c : Thread nD τ).loc b) := fun c b => B6 m c b
theorem hF2 (c : Dev nD) (w : Fin cfg2.W) : (dat2 (T5 m) c).arrAt w cfg2.N = T6 m c (Pipeline.arrRef spec2 w) :=
  (B6_arr m c w).symm
theorem hrest2 (c : Dev nD) : ∀ b, b ∉ Finset.univ.image (Pipeline.arrRef spec2) → T6 m c b = T5 m c b :=
  fun b hb => B6_of_ne m c b fun w e => hb (Finset.mem_image.mpr ⟨w, Finset.mem_univ _, e⟩)
/-- A host stretch changes only the buffers its operations write. -/
theorem B5_of (c : Dev nD) (r : Ref sig .tc) (h : r ∉ hostOps2_W) : B5 m c (Proc.devRef .tc r) = B4 m c (Proc.devRef .tc r) :=
  StableHlo.after_of_writes_sub hostOps2 _ hostOps2_writes h

/-! ### An argument's buffer holds its launch contents at every boundary: no host operation writes one, and a region only reads one through an input window -/
theorem B0_main_arg0 (c : Dev nD) : B0 m c (Proc.devRef .tc main_arg0) = m ((c : Thread nD τ).loc main_arg0) := rfl
theorem B1_main_arg0 (c : Dev nD) : B1 m c (Proc.devRef .tc main_arg0) = m ((c : Thread nD τ).loc main_arg0) :=
  (B1_of m c main_arg0 (by decide)).trans (B0_main_arg0 m c)
theorem B2_main_arg0 (c : Dev nD) : B2 m c (Proc.devRef .tc main_arg0) = m ((c : Thread nD τ).loc main_arg0) :=
  (B2_of_ne m c main_arg0 (by decide)).trans (B1_main_arg0 m c)
theorem B3_main_arg0 (c : Dev nD) : B3 m c (Proc.devRef .tc main_arg0) = m ((c : Thread nD τ).loc main_arg0) :=
  (B3_of m c main_arg0 (by decide)).trans (B2_main_arg0 m c)
theorem B4_main_arg0 (c : Dev nD) : B4 m c (Proc.devRef .tc main_arg0) = m ((c : Thread nD τ).loc main_arg0) :=
  (B4_of_ne m c main_arg0 (by decide)).trans (B3_main_arg0 m c)
theorem B5_main_arg0 (c : Dev nD) : B5 m c (Proc.devRef .tc main_arg0) = m ((c : Thread nD τ).loc main_arg0) :=
  (B5_of m c main_arg0 (by decide)).trans (B4_main_arg0 m c)
theorem B6_main_arg0 (c : Dev nD) : B6 m c (Proc.devRef .tc main_arg0) = m ((c : Thread nD τ).loc main_arg0) :=
  (B6_of_ne m c main_arg0 (by decide)).trans (B5_main_arg0 m c)
theorem B0_main_arg1 (c : Dev nD) : B0 m c (Proc.devRef .tc main_arg1) = m ((c : Thread nD τ).loc main_arg1) := rfl
theorem B1_main_arg1 (c : Dev nD) : B1 m c (Proc.devRef .tc main_arg1) = m ((c : Thread nD τ).loc main_arg1) :=
  (B1_of m c main_arg1 (by decide)).trans (B0_main_arg1 m c)
theorem B2_main_arg1 (c : Dev nD) : B2 m c (Proc.devRef .tc main_arg1) = m ((c : Thread nD τ).loc main_arg1) :=
  (B2_of_ne m c main_arg1 (by decide)).trans (B1_main_arg1 m c)
theorem B3_main_arg1 (c : Dev nD) : B3 m c (Proc.devRef .tc main_arg1) = m ((c : Thread nD τ).loc main_arg1) :=
  (B3_of m c main_arg1 (by decide)).trans (B2_main_arg1 m c)
theorem B4_main_arg1 (c : Dev nD) : B4 m c (Proc.devRef .tc main_arg1) = m ((c : Thread nD τ).loc main_arg1) :=
  (B4_of_ne m c main_arg1 (by decide)).trans (B3_main_arg1 m c)
theorem B5_main_arg1 (c : Dev nD) : B5 m c (Proc.devRef .tc main_arg1) = m ((c : Thread nD τ).loc main_arg1) :=
  (B5_of m c main_arg1 (by decide)).trans (B4_main_arg1 m c)
theorem B6_main_arg1 (c : Dev nD) : B6 m c (Proc.devRef .tc main_arg1) = m ((c : Thread nD τ).loc main_arg1) :=
  (B6_of_ne m c main_arg1 (by decide)).trans (B5_main_arg1 m c)
theorem B0_main_arg2 (c : Dev nD) : B0 m c (Proc.devRef .tc main_arg2) = m ((c : Thread nD τ).loc main_arg2) := rfl
theorem B1_main_arg2 (c : Dev nD) : B1 m c (Proc.devRef .tc main_arg2) = m ((c : Thread nD τ).loc main_arg2) :=
  (B1_of m c main_arg2 (by decide)).trans (B0_main_arg2 m c)
theorem B2_main_arg2 (c : Dev nD) : B2 m c (Proc.devRef .tc main_arg2) = m ((c : Thread nD τ).loc main_arg2) :=
  (B2_of_ne m c main_arg2 (by decide)).trans (B1_main_arg2 m c)
theorem B3_main_arg2 (c : Dev nD) : B3 m c (Proc.devRef .tc main_arg2) = m ((c : Thread nD τ).loc main_arg2) :=
  (B3_of m c main_arg2 (by decide)).trans (B2_main_arg2 m c)
theorem B4_main_arg2 (c : Dev nD) : B4 m c (Proc.devRef .tc main_arg2) = m ((c : Thread nD τ).loc main_arg2) :=
  (B4_of_ne m c main_arg2 (by decide)).trans (B3_main_arg2 m c)
theorem B5_main_arg2 (c : Dev nD) : B5 m c (Proc.devRef .tc main_arg2) = m ((c : Thread nD τ).loc main_arg2) :=
  (B5_of m c main_arg2 (by decide)).trans (B4_main_arg2 m c)
theorem B6_main_arg2 (c : Dev nD) : B6 m c (Proc.devRef .tc main_arg2) = m ((c : Thread nD τ).loc main_arg2) :=
  (B6_of_ne m c main_arg2 (by decide)).trans (B5_main_arg2 m c)
theorem B0_main_arg3 (c : Dev nD) : B0 m c (Proc.devRef .tc main_arg3) = m ((c : Thread nD τ).loc main_arg3) := rfl
theorem B1_main_arg3 (c : Dev nD) : B1 m c (Proc.devRef .tc main_arg3) = m ((c : Thread nD τ).loc main_arg3) :=
  (B1_of m c main_arg3 (by decide)).trans (B0_main_arg3 m c)
theorem B2_main_arg3 (c : Dev nD) : B2 m c (Proc.devRef .tc main_arg3) = m ((c : Thread nD τ).loc main_arg3) :=
  ((B2_arr m c 1).trans (((dat0 (T1 m) c).arrAt_in 1 rfl _).trans (A_eq0 (T1 m) c 1))).trans (B1_main_arg3 m c)
theorem B3_main_arg3 (c : Dev nD) : B3 m c (Proc.devRef .tc main_arg3) = m ((c : Thread nD τ).loc main_arg3) :=
  (B3_of m c main_arg3 (by decide)).trans (B2_main_arg3 m c)
theorem B4_main_arg3 (c : Dev nD) : B4 m c (Proc.devRef .tc main_arg3) = m ((c : Thread nD τ).loc main_arg3) :=
  (B4_of_ne m c main_arg3 (by decide)).trans (B3_main_arg3 m c)
theorem B5_main_arg3 (c : Dev nD) : B5 m c (Proc.devRef .tc main_arg3) = m ((c : Thread nD τ).loc main_arg3) :=
  (B5_of m c main_arg3 (by decide)).trans (B4_main_arg3 m c)
theorem B6_main_arg3 (c : Dev nD) : B6 m c (Proc.devRef .tc main_arg3) = m ((c : Thread nD τ).loc main_arg3) :=
  (B6_of_ne m c main_arg3 (by decide)).trans (B5_main_arg3 m c)
theorem B0_main_arg4 (c : Dev nD) : B0 m c (Proc.devRef .tc main_arg4) = m ((c : Thread nD τ).loc main_arg4) := rfl
theorem B1_main_arg4 (c : Dev nD) : B1 m c (Proc.devRef .tc main_arg4) = m ((c : Thread nD τ).loc main_arg4) :=
  (B1_of m c main_arg4 (by decide)).trans (B0_main_arg4 m c)
theorem B2_main_arg4 (c : Dev nD) : B2 m c (Proc.devRef .tc main_arg4) = m ((c : Thread nD τ).loc main_arg4) :=
  (B2_of_ne m c main_arg4 (by decide)).trans (B1_main_arg4 m c)
theorem B3_main_arg4 (c : Dev nD) : B3 m c (Proc.devRef .tc main_arg4) = m ((c : Thread nD τ).loc main_arg4) :=
  (B3_of m c main_arg4 (by decide)).trans (B2_main_arg4 m c)
theorem B4_main_arg4 (c : Dev nD) : B4 m c (Proc.devRef .tc main_arg4) = m ((c : Thread nD τ).loc main_arg4) :=
  (B4_of_ne m c main_arg4 (by decide)).trans (B3_main_arg4 m c)
theorem B5_main_arg4 (c : Dev nD) : B5 m c (Proc.devRef .tc main_arg4) = m ((c : Thread nD τ).loc main_arg4) :=
  (B5_of m c main_arg4 (by decide)).trans (B4_main_arg4 m c)
theorem B6_main_arg4 (c : Dev nD) : B6 m c (Proc.devRef .tc main_arg4) = m ((c : Thread nD τ).loc main_arg4) :=
  (B6_of_ne m c main_arg4 (by decide)).trans (B5_main_arg4 m c)
theorem B0_main_arg5 (c : Dev nD) : B0 m c (Proc.devRef .tc main_arg5) = m ((c : Thread nD τ).loc main_arg5) := rfl
theorem B1_main_arg5 (c : Dev nD) : B1 m c (Proc.devRef .tc main_arg5) = m ((c : Thread nD τ).loc main_arg5) :=
  (B1_of m c main_arg5 (by decide)).trans (B0_main_arg5 m c)
theorem B2_main_arg5 (c : Dev nD) : B2 m c (Proc.devRef .tc main_arg5) = m ((c : Thread nD τ).loc main_arg5) :=
  (B2_of_ne m c main_arg5 (by decide)).trans (B1_main_arg5 m c)
theorem B3_main_arg5 (c : Dev nD) : B3 m c (Proc.devRef .tc main_arg5) = m ((c : Thread nD τ).loc main_arg5) :=
  (B3_of m c main_arg5 (by decide)).trans (B2_main_arg5 m c)
theorem B4_main_arg5 (c : Dev nD) : B4 m c (Proc.devRef .tc main_arg5) = m ((c : Thread nD τ).loc main_arg5) :=
  ((B4_arr m c 1).trans (((dat1 (T3 m) c).arrAt_in 1 rfl _).trans (A_eq1 (T3 m) c 1))).trans (B3_main_arg5 m c)
theorem B5_main_arg5 (c : Dev nD) : B5 m c (Proc.devRef .tc main_arg5) = m ((c : Thread nD τ).loc main_arg5) :=
  (B5_of m c main_arg5 (by decide)).trans (B4_main_arg5 m c)
theorem B6_main_arg5 (c : Dev nD) : B6 m c (Proc.devRef .tc main_arg5) = m ((c : Thread nD τ).loc main_arg5) :=
  (B6_of_ne m c main_arg5 (by decide)).trans (B5_main_arg5 m c)
theorem B0_main_arg6 (c : Dev nD) : B0 m c (Proc.devRef .tc main_arg6) = m ((c : Thread nD τ).loc main_arg6) := rfl
theorem B1_main_arg6 (c : Dev nD) : B1 m c (Proc.devRef .tc main_arg6) = m ((c : Thread nD τ).loc main_arg6) :=
  (B1_of m c main_arg6 (by decide)).trans (B0_main_arg6 m c)
theorem B2_main_arg6 (c : Dev nD) : B2 m c (Proc.devRef .tc main_arg6) = m ((c : Thread nD τ).loc main_arg6) :=
  (B2_of_ne m c main_arg6 (by decide)).trans (B1_main_arg6 m c)
theorem B3_main_arg6 (c : Dev nD) : B3 m c (Proc.devRef .tc main_arg6) = m ((c : Thread nD τ).loc main_arg6) :=
  (B3_of m c main_arg6 (by decide)).trans (B2_main_arg6 m c)
theorem B4_main_arg6 (c : Dev nD) : B4 m c (Proc.devRef .tc main_arg6) = m ((c : Thread nD τ).loc main_arg6) :=
  (B4_of_ne m c main_arg6 (by decide)).trans (B3_main_arg6 m c)
theorem B5_main_arg6 (c : Dev nD) : B5 m c (Proc.devRef .tc main_arg6) = m ((c : Thread nD τ).loc main_arg6) :=
  (B5_of m c main_arg6 (by decide)).trans (B4_main_arg6 m c)
theorem B6_main_arg6 (c : Dev nD) : B6 m c (Proc.devRef .tc main_arg6) = m ((c : Thread nD τ).loc main_arg6) :=
  (B6_of_ne m c main_arg6 (by decide)).trans (B5_main_arg6 m c)
theorem B0_main_arg7 (c : Dev nD) : B0 m c (Proc.devRef .tc main_arg7) = m ((c : Thread nD τ).loc main_arg7) := rfl
theorem B1_main_arg7 (c : Dev nD) : B1 m c (Proc.devRef .tc main_arg7) = m ((c : Thread nD τ).loc main_arg7) :=
  (B1_of m c main_arg7 (by decide)).trans (B0_main_arg7 m c)
theorem B2_main_arg7 (c : Dev nD) : B2 m c (Proc.devRef .tc main_arg7) = m ((c : Thread nD τ).loc main_arg7) :=
  (B2_of_ne m c main_arg7 (by decide)).trans (B1_main_arg7 m c)
theorem B3_main_arg7 (c : Dev nD) : B3 m c (Proc.devRef .tc main_arg7) = m ((c : Thread nD τ).loc main_arg7) :=
  (B3_of m c main_arg7 (by decide)).trans (B2_main_arg7 m c)
theorem B4_main_arg7 (c : Dev nD) : B4 m c (Proc.devRef .tc main_arg7) = m ((c : Thread nD τ).loc main_arg7) :=
  (B4_of_ne m c main_arg7 (by decide)).trans (B3_main_arg7 m c)
theorem B5_main_arg7 (c : Dev nD) : B5 m c (Proc.devRef .tc main_arg7) = m ((c : Thread nD τ).loc main_arg7) :=
  (B5_of m c main_arg7 (by decide)).trans (B4_main_arg7 m c)
theorem B6_main_arg7 (c : Dev nD) : B6 m c (Proc.devRef .tc main_arg7) = m ((c : Thread nD τ).loc main_arg7) :=
  ((B6_arr m c 1).trans (((dat2 (T5 m) c).arrAt_in 1 rfl _).trans (A_eq2 (T5 m) c 1))).trans (B5_main_arg7 m c)
theorem B0_main_arg8 (c : Dev nD) : B0 m c (Proc.devRef .tc main_arg8) = m ((c : Thread nD τ).loc main_arg8) := rfl
theorem B1_main_arg8 (c : Dev nD) : B1 m c (Proc.devRef .tc main_arg8) = m ((c : Thread nD τ).loc main_arg8) :=
  (B1_of m c main_arg8 (by decide)).trans (B0_main_arg8 m c)
theorem B2_main_arg8 (c : Dev nD) : B2 m c (Proc.devRef .tc main_arg8) = m ((c : Thread nD τ).loc main_arg8) :=
  (B2_of_ne m c main_arg8 (by decide)).trans (B1_main_arg8 m c)
theorem B3_main_arg8 (c : Dev nD) : B3 m c (Proc.devRef .tc main_arg8) = m ((c : Thread nD τ).loc main_arg8) :=
  (B3_of m c main_arg8 (by decide)).trans (B2_main_arg8 m c)
theorem B4_main_arg8 (c : Dev nD) : B4 m c (Proc.devRef .tc main_arg8) = m ((c : Thread nD τ).loc main_arg8) :=
  (B4_of_ne m c main_arg8 (by decide)).trans (B3_main_arg8 m c)
theorem B5_main_arg8 (c : Dev nD) : B5 m c (Proc.devRef .tc main_arg8) = m ((c : Thread nD τ).loc main_arg8) :=
  (B5_of m c main_arg8 (by decide)).trans (B4_main_arg8 m c)
theorem B6_main_arg8 (c : Dev nD) : B6 m c (Proc.devRef .tc main_arg8) = m ((c : Thread nD τ).loc main_arg8) :=
  (B6_of_ne m c main_arg8 (by decide)).trans (B5_main_arg8 m c)

/-- The normalisation column `main_v8` is written by the first host stretch only. -/
theorem B2_main_v8 (c : Dev nD) : B2 m c (Proc.devRef .tc main_v8) = B1 m c (Proc.devRef .tc main_v8) := B2_of_ne m c main_v8 (by decide)
theorem B3_main_v8 (c : Dev nD) : B3 m c (Proc.devRef .tc main_v8) = B1 m c (Proc.devRef .tc main_v8) := (B3_of m c main_v8 (by decide)).trans (B2_main_v8 m c)
theorem B4_main_v8 (c : Dev nD) : B4 m c (Proc.devRef .tc main_v8) = B1 m c (Proc.devRef .tc main_v8) := (B4_of_ne m c main_v8 (by decide)).trans (B3_main_v8 m c)

/-! # The pipelines' data and the thread state -/

abbrev padm : (p : Fin 3) → (pcfgs (F := F) p).Adm := fun p => (cfgs p).toPCfg_adm
/-- Every pipeline's data, each at its region's entry contents. -/
def pdats : (p : Fin 3) → (c : Dev nD) → Dat τ (Elt F) Unit ℕ (UR sig nD τ) ℕ (Pipeline.pin (pcfgs (F := F)) padm p) c
  | ⟨0, _⟩ => fun c => dat0 (T1 m) c
  | ⟨1, _⟩ => fun c => dat1 (T3 m) c
  | ⟨2, _⟩ => fun c => dat2 (T5 m) c
abbrev 𝒱n : Variants := Variants.none
abbrev Ln : GSem nD τ sig → Finset Unit := fun _ => ∅
abbrev lvn : GSem nD τ sig → Unit → ℕ := fun _ _ => 0
/-- What rides beside the buffers: the generator register at some state, and nothing owed. -/
abbrev Rr (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱n Ln lvn :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rr

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tn (c : Dev nD) : sProp 𝕄 := iprop(StableHlo.held (c : Thread nD τ) (Pipeline.ucRefs τ sig) (B6 m c) ∗ ∃ r, prngReg c r)

/-! # The regions as segments -/

set_option backward.isDefEq.respectTransparency.types false in
/-- Region 0 between boundaries 1 and 2: its arrays split out of the unscoped buffers and put back at the exit contents. -/
def reg0 : Pipeline.RegionSeg (pcfgs (F := F)) padm (pdats m) () defs₀ 𝒱n Ln lvn 0 where
  win := launch0.win.to₀
  block_pos := launch0.block_pos
  stage_whole := launch0.stage_whole
  K := PEmpty
  osem k := k.elim
  ho := Pipeline.OwnSemFacts.none _
  hbody c := (body_obligation0 (T1 m) c).loose
  hwaits := Pipeline.hwaits_of_owed_zero _ _ _ _ Ln lvn 0 fun _ _ => rfl
  pre c := iprop(StableHlo.held (c : Thread nD τ) (Pipeline.ucRefs τ sig) (B1 m c) ∗ Rr c)
  post c := iprop(StableHlo.held (c : Thread nD τ) (Pipeline.ucRefs τ sig) (B2 m c) ∗ Rr c)
  X c := iprop(∃ r, prngReg c r)
  Y c := iprop(∃ r, prngReg c r)
  Z c := Pipeline.unscopedRest (Ix := Unit) (Name := ℕ) (U := UR sig nD τ) (Lvl := ℕ) spec0 c (T1 m c)
  hentry c := by
    rw [Pipeline.ownSems0_none]
    have hsplit := Pipeline.arrays_of_unscopedBufs (p := 0) (pcfgs (F := F)) padm (pdats m) launch0.win launch0.arr_whole c
      ((pdats m 0 c).share_full fun _ => rfl) (T1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) padm (Ix := Unit) (Name := ℕ) (U := UR sig nD τ) (Lvl := ℕ)
      launch0.win launch0.arr_whole c (pdats m) ((pdats m 0 c).share_full fun _ => rfl)
      (T1 m c) (T2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 between boundaries 3 and 4: its arrays split out of the unscoped buffers and put back at the exit contents. -/
def reg1 : Pipeline.RegionSeg (pcfgs (F := F)) padm (pdats m) () defs₀ 𝒱n Ln lvn 1 where
  win := launch1.win.to₀
  block_pos := launch1.block_pos
  stage_whole := launch1.stage_whole
  K := PEmpty
  osem k := k.elim
  ho := Pipeline.OwnSemFacts.none _
  hbody c := (body_obligation1 (T3 m) c).loose
  hwaits := Pipeline.hwaits_of_owed_zero _ _ _ _ Ln lvn 1 fun _ _ => rfl
  pre c := iprop(StableHlo.held (c : Thread nD τ) (Pipeline.ucRefs τ sig) (B3 m c) ∗ Rr c)
  post c := iprop(StableHlo.held (c : Thread nD τ) (Pipeline.ucRefs τ sig) (B4 m c) ∗ Rr c)
  X c := iprop(∃ r, prngReg c r)
  Y c := iprop(∃ r, prngReg c r)
  Z c := Pipeline.unscopedRest (Ix := Unit) (Name := ℕ) (U := UR sig nD τ) (Lvl := ℕ) spec1 c (T3 m c)
  hentry c := by
    rw [Pipeline.ownSems0_none]
    have hsplit := Pipeline.arrays_of_unscopedBufs (p := 1) (pcfgs (F := F)) padm (pdats m) launch1.win launch1.arr_whole c
      ((pdats m 1 c).share_full fun _ => rfl) (T3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) padm (Ix := Unit) (Name := ℕ) (U := UR sig nD τ) (Lvl := ℕ)
      launch1.win launch1.arr_whole c (pdats m) ((pdats m 1 c).share_full fun _ => rfl)
      (T3 m c) (T4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 between boundaries 5 and 6: its arrays split out of the unscoped buffers and put back at the exit contents. -/
def reg2 : Pipeline.RegionSeg (pcfgs (F := F)) padm (pdats m) () defs₀ 𝒱n Ln lvn 2 where
  win := launch2.win.to₀
  block_pos := launch2.block_pos
  stage_whole := launch2.stage_whole
  K := PEmpty
  osem k := k.elim
  ho := Pipeline.OwnSemFacts.none _
  hbody c := (body_obligation2 (T5 m) c).loose
  hwaits := Pipeline.hwaits_of_owed_zero _ _ _ _ Ln lvn 2 fun _ _ => rfl
  pre c := iprop(StableHlo.held (c : Thread nD τ) (Pipeline.ucRefs τ sig) (B5 m c) ∗ Rr c)
  post c := iprop(Tn m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (T5 m c)
  hentry c := by
    rw [Pipeline.ownSems0_none]
    have hsplit := Pipeline.arrays_of_unscopedBufs (p := 2) (pcfgs (F := F)) padm (pdats m) launch2.win launch2.arr_whole c
      ((pdats m 2 c).share_full fun _ => rfl) (T5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) padm (Ix := Unit) (Name := ℕ) (U := UR sig nD τ) (Lvl := ℕ)
      launch2.win launch2.arr_whole c (pdats m) ((pdats m 2 c).share_full fun _ => rfl)
      (T5 m c) (T6 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! # The program as segments, and the run -/

abbrev allSegs : List (Pipeline.Seg (pcfgs (F := F)) padm (pdats m) () defs₀ 𝒱n Ln lvn) :=
  [ .host (hseg hostOps0 hostOps0_sub hostOps0_fresh (B0 m)),
    .region (reg0 m),
    .host (hseg hostOps1 hostOps1_sub hostOps1_fresh (B2 m)),
    .region (reg1 m),
    .host (hseg hostOps2 hostOps2_sub hostOps2_fresh (B4 m)),
    .region (reg2 m) ]

theorem main_run (c : Dev nD) : main (F := F) c = Pipeline.Seg.run (allSegs m) := (main_chain c).trans (by chain_rfl)

set_option backward.isDefEq.respectTransparency.types false in
/-- Every weakly fair execution from memory `m` with zero counters terminates without a fault, and every unscoped
    buffer ends at the last boundary's contents. -/
theorem run_all : θ_run defs (onTc (τ := τ) (main (F := F))) ⟨m, fun _ => 0, ρ⟩ (fun r => ∀ c : Dev nD,
      ∀ b : Ref sig .tc, ¬ (Proc.devRef .tc b : DevRef τ sig).isScoped →
        r.2.mem ((c.tc : Thread nD τ).loc b) = B6 m c (Proc.devRef .tc b)) :=
  Pipeline.θ_run_regions_kit (pcfgs (F := F)) padm (pdats m) () cellOf_inj emb₁ defs₀ 𝒱n Ln lvn m ρ main (allSegs m)
    (fun c Q => by rw [main_run m c])
    (by simp only [allSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ Rr c)) (Tₙ := Tn m)
    (hch := ⟨fun _ => .rfl, fun _ => .rfl, fun _ => .rfl, fun _ => .rfl, fun _ => .rfl, fun _ => .rfl, fun _ => .rfl⟩)
    (hinit := by
      refine Pipeline.initEach Ln lvn fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B6 m c b)
    (hfin := fun c s' => by
      iintro ⟨⟨Hh, -⟩, HSI⟩
      unfold StableHlo.held
      imodintro
      iapply (pointsTo_read_all (Pipeline.ucRefs τ sig) (fun b => (((c : Thread nD τ)).1, b)) (B6 m c) s')
      isplitl [Hh] <;> iassumption)
    (hQ := fun s h c b hb => h c _ (mem_uc b hb))

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(h c main_arg0 (by decide)).trans (B6_main_arg0 m c),
      (h c main_arg1 (by decide)).trans (B6_main_arg1 m c),
      (h c main_arg2 (by decide)).trans (B6_main_arg2 m c),
      (h c main_arg3 (by decide)).trans (B6_main_arg3 m c),
      (h c main_arg4 (by decide)).trans (B6_main_arg4 m c),
      (h c main_arg5 (by decide)).trans (B6_main_arg5 m c),
      (h c main_arg6 (by decide)).trans (B6_main_arg6 m c),
      (h c main_arg7 (by decide)).trans (B6_main_arg7 m c),
      (h c main_arg8 (by decide)).trans (B6_main_arg8 m c)⟩) (run_all m ρ)

end Cert.Kernel.Layers

end
-- ==== Proof.LayersRunIdeal.lean ====
/-
  The run of the three-layer program, layer by layer.  Each layer's dense stage is one kernel region over
  50 row blocks of 2000 nodes: a point reads its block of the stacked features, the whole weight matrix and
  the bias row, and writes its block of the layer's output.  Per region: the block each window holds at a
  point, what the body leaves in the output block (one covering store of the body's value of the three
  loaded blocks), the body's triple, and the pipeline's data at any entry contents.  Then the run: the
  buffers' contents at each of the seven boundaries between host stretches and regions, every region as a
  segment between two boundaries, and the theorem that every execution ends with each unscoped buffer at
  the last boundary's contents; the arguments are read back to the launch memory through the boundaries.
-/
import proofs.«103402_j18631568130049_1_alg».proof.Proof.Gen.KernelIdeal.Launch
import proofs.«103402_j18631568130049_1_alg».proof.Proof.Gen.KernelIdeal.Skeleton
import proofs.«103402_j18631568130049_1_alg».proof.Proof.Gen.KernelIdeal.Points
import proofs.«103402_j18631568130049_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Layers

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section PerRegion
-- the buffers' contents when a region is entered
variable (V : (c : Dev nD) → (b : Ref sig .tc) → Buf (Elt F) ((c : Thread nD τ).loc b))

/-! # Layer 1's dense stage (region 0) at entry contents `V` -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, whether fetched there or at an earlier point
    with the same block index. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, whether fetched there or at an earlier point
    with the same block index. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at every point, whether fetched there or at an earlier point
    with the same block index. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S2000x96 := Rect.unit (s := S2000x96) ![0, 0] S2000x96.size inb_S2000x96_S2000x96_0_0
abbrev r0_1 : Rect S96x128 := Rect.unit (s := S96x128) ![0, 0] S96x128.size inb_S96x128_S96x128_0_0
abbrev r0_2 : Rect S1x128 := Rect.unit (s := S1x128) ![0, 0] S1x128.size inb_S1x128_S1x128_0_0
abbrev r0_3 : Rect S2000x128 := Rect.unit (s := S2000x128) ![0, 0] S2000x128.size inb_S2000x128_S2000x128_0_0

/-- The output block after the body: one store of the body's value of the three loaded blocks, over the whole block. -/
def out0_3 (x0 : Vec F S2000x96 .f32) (x1 : Vec F S96x128 .f32) (x2 : Vec F S1x128 .f32) : Vec F S2000x128 .f32 :=
  View.canon [⟨r0_3, k0_pay1 (View.ld x0 r0_0) (View.ld x1 r0_1) (View.ld x2 r0_2)⟩]

/-- The one store covers the block. -/
theorem cover0_3 (p0 : Vec F S2000x128 .f32) (y : S2000x128.Idx) :
    ∃ pc ∈ ([⟨r0_3, p0⟩] : List (View.Piece (Elt F) S2000x128 .f32)), y ∈ pc.1.set :=
  View.cover_of_tiled [⟨r0_3, p0⟩] S2000x128.size (by rfl) y

set_option maxHeartbeats 1000000 in
/-- The body on whole staging buffers — the inputs at `x0 x1 x2`, the output at anything — returns them with the
    inputs unchanged and the output at `out0_3 x0 x1 x2`. -/
theorem sound_kernel0 (c : Dev nD) (E : Set ℕ) (i : grid0.Coords) (arg1 : Memref sig .tc .vmem S2000x96 .f32) (harg1 : arg1.IsWhole) (arg2 : Memref sig .tc .vmem S96x128 .f32) (harg2 : arg2.IsWhole) (arg3 : Memref sig .tc .vmem S1x128 .f32) (harg3 : arg3.IsWhole) (arg4 : Memref sig .tc .vmem S2000x128 .f32) (harg4 : arg4.IsWhole)
    (x0 : Vec F S2000x96 .f32) (x1 : Vec F S96x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__linear_relu_kernel i arg1 harg1 arg2 harg2 arg3 harg3 arg4 harg4) K := by
  simp only [cc0__linear_relu_kernel_eq_skeleton]; unfold cc0__linear_relu_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The pipeline's data on core `c`: the arrays as the region finds them; after the body at point `t` each input's
    buffer at its block and the output's at `out0_3` of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

/-! # Layer 2's dense stage (region 1) at entry contents `V` -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, whether fetched there or at an earlier point
    with the same block index. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, whether fetched there or at an earlier point
    with the same block index. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point, whether fetched there or at an earlier point
    with the same block index. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

abbrev r1_0 : Rect S2000x384 := Rect.unit (s := S2000x384) ![0, 0] S2000x384.size inb_S2000x384_S2000x384_0_0
abbrev r1_1 : Rect S384x128 := Rect.unit (s := S384x128) ![0, 0] S384x128.size inb_S384x128_S384x128_0_0
abbrev r1_2 : Rect S1x128 := Rect.unit (s := S1x128) ![0, 0] S1x128.size inb_S1x128_S1x128_0_0
abbrev r1_3 : Rect S2000x128 := Rect.unit (s := S2000x128) ![0, 0] S2000x128.size inb_S2000x128_S2000x128_0_0

/-- The output block after the body: one store of the body's value of the three loaded blocks, over the whole block. -/
def out1_3 (x0 : Vec F S2000x384 .f32) (x1 : Vec F S384x128 .f32) (x2 : Vec F S1x128 .f32) : Vec F S2000x128 .f32 :=
  View.canon [⟨r1_3, k1_pay1 (View.ld x0 r1_0) (View.ld x1 r1_1) (View.ld x2 r1_2)⟩]

/-- The one store covers the block. -/
theorem cover1_3 (p0 : Vec F S2000x128 .f32) (y : S2000x128.Idx) :
    ∃ pc ∈ ([⟨r1_3, p0⟩] : List (View.Piece (Elt F) S2000x128 .f32)), y ∈ pc.1.set :=
  View.cover_of_tiled [⟨r1_3, p0⟩] S2000x128.size (by rfl) y

set_option maxHeartbeats 1000000 in
/-- The body on whole staging buffers — the inputs at `x0 x1 x2`, the output at anything — returns them with the
    inputs unchanged and the output at `out1_3 x0 x1 x2`. -/
theorem sound_kernel1 (c : Dev nD) (E : Set ℕ) (i : grid1.Coords) (arg1 : Memref sig .tc .vmem S2000x384 .f32) (harg1 : arg1.IsWhole) (arg2 : Memref sig .tc .vmem S384x128 .f32) (harg2 : arg2.IsWhole) (arg3 : Memref sig .tc .vmem S1x128 .f32) (harg3 : arg3.IsWhole) (arg4 : Memref sig .tc .vmem S2000x128 .f32) (harg4 : arg4.IsWhole)
    (x0 : Vec F S2000x384 .f32) (x1 : Vec F S384x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__linear_relu_kernel i arg1 harg1 arg2 harg2 arg3 harg3 arg4 harg4) K := by
  simp only [cc1__linear_relu_kernel_eq_skeleton]; unfold cc1__linear_relu_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The pipeline's data on core `c`: the arrays as the region finds them; after the body at point `t` each input's
    buffer at its block and the output's at `out1_3` of the input blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  exact sound_body1 V c t

/-! # Layer 3's dense stage (region 2) at entry contents `V` -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, whether fetched there or at an earlier point
    with the same block index. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's staging buffer holds its block at every point, whether fetched there or at an earlier point
    with the same block index. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's staging buffer holds its block at every point, whether fetched there or at an earlier point
    with the same block index. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

abbrev r2_0 : Rect S2000x384 := Rect.unit (s := S2000x384) ![0, 0] S2000x384.size inb_S2000x384_S2000x384_0_0
abbrev r2_1 : Rect S384x128 := Rect.unit (s := S384x128) ![0, 0] S384x128.size inb_S384x128_S384x128_0_0
abbrev r2_2 : Rect S1x128 := Rect.unit (s := S1x128) ![0, 0] S1x128.size inb_S1x128_S1x128_0_0
abbrev r2_3 : Rect S2000x128 := Rect.unit (s := S2000x128) ![0, 0] S2000x128.size inb_S2000x128_S2000x128_0_0

/-- The output block after the body: one store of the body's value of the three loaded blocks, over the whole block. -/
def out2_3 (x0 : Vec F S2000x384 .f32) (x1 : Vec F S384x128 .f32) (x2 : Vec F S1x128 .f32) : Vec F S2000x128 .f32 :=
  View.canon [⟨r2_3, k2_pay1 (View.ld x0 r2_0) (View.ld x1 r2_1) (View.ld x2 r2_2)⟩]

/-- The one store covers the block. -/
theorem cover2_3 (p0 : Vec F S2000x128 .f32) (y : S2000x128.Idx) :
    ∃ pc ∈ ([⟨r2_3, p0⟩] : List (View.Piece (Elt F) S2000x128 .f32)), y ∈ pc.1.set :=
  View.cover_of_tiled [⟨r2_3, p0⟩] S2000x128.size (by rfl) y

set_option maxHeartbeats 1000000 in
/-- The body on whole staging buffers — the inputs at `x0 x1 x2`, the output at anything — returns them with the
    inputs unchanged and the output at `out2_3 x0 x1 x2`. -/
theorem sound_kernel2 (c : Dev nD) (E : Set ℕ) (i : grid2.Coords) (arg1 : Memref sig .tc .vmem S2000x384 .f32) (harg1 : arg1.IsWhole) (arg2 : Memref sig .tc .vmem S384x128 .f32) (harg2 : arg2.IsWhole) (arg3 : Memref sig .tc .vmem S1x128 .f32) (harg3 : arg3.IsWhole) (arg4 : Memref sig .tc .vmem S2000x128 .f32) (harg4 : arg4.IsWhole)
    (x0 : Vec F S2000x384 .f32) (x1 : Vec F S384x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out2_3 x0 x1 x2)) -∗ K ⟨⟩))
      ⊢ wp frame (wpE (defs₀ (F := F)) Variants.none c none) E (cc2__linear_relu_kernel i arg1 harg1 arg2 harg2 arg3 harg3 arg4 harg4) K := by
  simp only [cc2__linear_relu_kernel_eq_skeleton]; unfold cc2__linear_relu_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The pipeline's data on core `c`: the arrays as the region finds them; after the body at point `t` each input's
    buffer at its block and the output's at `out2_3` of the input blocks; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ (grid2.coords t) _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation2 (c : Dev nD) : BodyObligation (dat2 (F := F) V c) (defs₀ (F := F)) Variants.none () Set.univ := fun t => by
  rw [bigSep_W2, bigSep_W2]
  exact sound_body2 V c t

end PerRegion

/-! # The buffers' contents at each boundary -/

/-- At launch. -/
abbrev B0 : Dev nD → Valuation τ sig (Elt F) := fun c b => m ((c : Dev nD), b)
/-- After host stretch 0 (region 0's entry). -/
abbrev B1 : Dev nD → Valuation τ sig (Elt F) := fun c => StableHlo.after hostOps0 (B0 m c)
abbrev T1 : (c : Dev nD) → (b : Ref sig .tc) → Buf (Elt F) ((c : Thread nD τ).loc b) := fun c b => B1 m c b
/-- At region 0's exit: its arrays at what the pipeline leaves, every other buffer as entered. -/
def B2 (c : Dev nD) : Valuation τ sig (Elt F) :=
  Pipeline.withArrays spec0 c (B1 m c) fun w => (dat0 (T1 m) c).arrAt w cfg0.N
theorem B2_arr (c : Dev nD) (w : Fin cfg0.W) :
    B2 m c (Proc.devRef .tc (Pipeline.arrRef spec0 w)) = (dat0 (T1 m) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m c (Proc.devRef .tc b) = B1 m c (Proc.devRef .tc b) := by
  unfold B2; exact Pipeline.withArrays_of_ne spec0 c _ _ b hb
abbrev T2 : (c : Dev nD) → (b : Ref sig .tc) → Buf (Elt F) ((c : Thread nD τ).loc b) := fun c b => B2 m c b
theorem hF0 (c : Dev nD) (w : Fin cfg0.W) : (dat0 (T1 m) c).arrAt w cfg0.N = T2 m c (Pipeline.arrRef spec0 w) :=
  (B2_arr m c w).symm
theorem hrest0 (c : Dev nD) : ∀ b, b ∉ Finset.univ.image (Pipeline.arrRef spec0) → T2 m c b = T1 m c b :=
  fun b hb => B2_of_ne m c b fun w e => hb (Finset.mem_image.mpr ⟨w, Finset.mem_univ _, e⟩)
/-- A host stretch changes only the buffers its operations write. -/
theorem B1_of (c : Dev nD) (r : Ref sig .tc) (h : r ∉ hostOps0_W) : B1 m c (Proc.devRef .tc r) = B0 m c (Proc.devRef .tc r) :=
  StableHlo.after_of_writes_sub hostOps0 _ hostOps0_writes h
/-- After host stretch 1 (region 1's entry). -/
abbrev B3 : Dev nD → Valuation τ sig (Elt F) := fun c => StableHlo.after hostOps1 (B2 m c)
abbrev T3 : (c : Dev nD) → (b : Ref sig .tc) → Buf (Elt F) ((c : Thread nD τ).loc b) := fun c b => B3 m c b
/-- At region 1's exit: its arrays at what the pipeline leaves, every other buffer as entered. -/
def B4 (c : Dev nD) : Valuation τ sig (Elt F) :=
  Pipeline.withArrays spec1 c (B3 m c) fun w => (dat1 (T3 m) c).arrAt w cfg1.N
theorem B4_arr (c : Dev nD) (w : Fin cfg1.W) :
    B4 m c (Proc.devRef .tc (Pipeline.arrRef spec1 w)) = (dat1 (T3 m) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 m c (Proc.devRef .tc b) = B3 m c (Proc.devRef .tc b) := by
  unfold B4; exact Pipeline.withArrays_of_ne spec1 c _ _ b hb
abbrev T4 : (c : Dev nD) → (b : Ref sig .tc) → Buf (Elt F) ((c : Thread nD τ).loc b) := fun c b => B4 m c b
theorem hF1 (c : Dev nD) (w : Fin cfg1.W) : (dat1 (T3 m) c).arrAt w cfg1.N = T4 m c (Pipeline.arrRef spec1 w) :=
  (B4_arr m c w).symm
theorem hrest1 (c : Dev nD) : ∀ b, b ∉ Finset.univ.image (Pipeline.arrRef spec1) → T4 m c b = T3 m c b :=
  fun b hb => B4_of_ne m c b fun w e => hb (Finset.mem_image.mpr ⟨w, Finset.mem_univ _, e⟩)
/-- A host stretch changes only the buffers its operations write. -/
theorem B3_of (c : Dev nD) (r : Ref sig .tc) (h : r ∉ hostOps1_W) : B3 m c (Proc.devRef .tc r) = B2 m c (Proc.devRef .tc r) :=
  StableHlo.after_of_writes_sub hostOps1 _ hostOps1_writes h
/-- After host stretch 2 (region 2's entry). -/
abbrev B5 : Dev nD → Valuation τ sig (Elt F) := fun c => StableHlo.after hostOps2 (B4 m c)
abbrev T5 : (c : Dev nD) → (b : Ref sig .tc) → Buf (Elt F) ((c : Thread nD τ).loc b) := fun c b => B5 m c b
/-- At region 2's exit: its arrays at what the pipeline leaves, every other buffer as entered. -/
def B6 (c : Dev nD) : Valuation τ sig (Elt F) :=
  Pipeline.withArrays spec2 c (B5 m c) fun w => (dat2 (T5 m) c).arrAt w cfg2.N
theorem B6_arr (c : Dev nD) (w : Fin cfg2.W) :
    B6 m c (Proc.devRef .tc (Pipeline.arrRef spec2 w)) = (dat2 (T5 m) c).arrAt w cfg2.N := by
  unfold B6; exact Pipeline.withArrays_arr spec2 launch2.win.arr_inj c _ _ w
theorem B6_of_ne (c : Dev nD) (b : Ref sig .tc) (hb : ∀ w, Pipeline.arrRef spec2 w ≠ b) :
    B6 m c (Proc.devRef .tc b) = B5 m c (Proc.devRef .tc b) := by
  unfold B6; exact Pipeline.withArrays_of_ne spec2 c _ _ b hb
abbrev T6 : (c : Dev nD) → (b : Ref sig .tc) → Buf (Elt F) ((c : Thread nD τ).loc b) := fun c b => B6 m c b
theorem hF2 (c : Dev nD) (w : Fin cfg2.W) : (dat2 (T5 m) c).arrAt w cfg2.N = T6 m c (Pipeline.arrRef spec2 w) :=
  (B6_arr m c w).symm
theorem hrest2 (c : Dev nD) : ∀ b, b ∉ Finset.univ.image (Pipeline.arrRef spec2) → T6 m c b = T5 m c b :=
  fun b hb => B6_of_ne m c b fun w e => hb (Finset.mem_image.mpr ⟨w, Finset.mem_univ _, e⟩)
/-- A host stretch changes only the buffers its operations write. -/
theorem B5_of (c : Dev nD) (r : Ref sig .tc) (h : r ∉ hostOps2_W) : B5 m c (Proc.devRef .tc r) = B4 m c (Proc.devRef .tc r) :=
  StableHlo.after_of_writes_sub hostOps2 _ hostOps2_writes h

/-! ### An argument's buffer holds its launch contents at every boundary: no host operation writes one, and a region only reads one through an input window -/
theorem B0_main_arg0 (c : Dev nD) : B0 m c (Proc.devRef .tc main_arg0) = m ((c : Thread nD τ).loc main_arg0) := rfl
theorem B1_main_arg0 (c : Dev nD) : B1 m c (Proc.devRef .tc main_arg0) = m ((c : Thread nD τ).loc main_arg0) :=
  (B1_of m c main_arg0 (by decide)).trans (B0_main_arg0 m c)
theorem B2_main_arg0 (c : Dev nD) : B2 m c (Proc.devRef .tc main_arg0) = m ((c : Thread nD τ).loc main_arg0) :=
  (B2_of_ne m c main_arg0 (by decide)).trans (B1_main_arg0 m c)
theorem B3_main_arg0 (c : Dev nD) : B3 m c (Proc.devRef .tc main_arg0) = m ((c : Thread nD τ).loc main_arg0) :=
  (B3_of m c main_arg0 (by decide)).trans (B2_main_arg0 m c)
theorem B4_main_arg0 (c : Dev nD) : B4 m c (Proc.devRef .tc main_arg0) = m ((c : Thread nD τ).loc main_arg0) :=
  (B4_of_ne m c main_arg0 (by decide)).trans (B3_main_arg0 m c)
theorem B5_main_arg0 (c : Dev nD) : B5 m c (Proc.devRef .tc main_arg0) = m ((c : Thread nD τ).loc main_arg0) :=
  (B5_of m c main_arg0 (by decide)).trans (B4_main_arg0 m c)
theorem B6_main_arg0 (c : Dev nD) : B6 m c (Proc.devRef .tc main_arg0) = m ((c : Thread nD τ).loc main_arg0) :=
  (B6_of_ne m c main_arg0 (by decide)).trans (B5_main_arg0 m c)
theorem B0_main_arg1 (c : Dev nD) : B0 m c (Proc.devRef .tc main_arg1) = m ((c : Thread nD τ).loc main_arg1) := rfl
theorem B1_main_arg1 (c : Dev nD) : B1 m c (Proc.devRef .tc main_arg1) = m ((c : Thread nD τ).loc main_arg1) :=
  (B1_of m c main_arg1 (by decide)).trans (B0_main_arg1 m c)
theorem B2_main_arg1 (c : Dev nD) : B2 m c (Proc.devRef .tc main_arg1) = m ((c : Thread nD τ).loc main_arg1) :=
  (B2_of_ne m c main_arg1 (by decide)).trans (B1_main_arg1 m c)
theorem B3_main_arg1 (c : Dev nD) : B3 m c (Proc.devRef .tc main_arg1) = m ((c : Thread nD τ).loc main_arg1) :=
  (B3_of m c main_arg1 (by decide)).trans (B2_main_arg1 m c)
theorem B4_main_arg1 (c : Dev nD) : B4 m c (Proc.devRef .tc main_arg1) = m ((c : Thread nD τ).loc main_arg1) :=
  (B4_of_ne m c main_arg1 (by decide)).trans (B3_main_arg1 m c)
theorem B5_main_arg1 (c : Dev nD) : B5 m c (Proc.devRef .tc main_arg1) = m ((c : Thread nD τ).loc main_arg1) :=
  (B5_of m c main_arg1 (by decide)).trans (B4_main_arg1 m c)
theorem B6_main_arg1 (c : Dev nD) : B6 m c (Proc.devRef .tc main_arg1) = m ((c : Thread nD τ).loc main_arg1) :=
  (B6_of_ne m c main_arg1 (by decide)).trans (B5_main_arg1 m c)
theorem B0_main_arg2 (c : Dev nD) : B0 m c (Proc.devRef .tc main_arg2) = m ((c : Thread nD τ).loc main_arg2) := rfl
theorem B1_main_arg2 (c : Dev nD) : B1 m c (Proc.devRef .tc main_arg2) = m ((c : Thread nD τ).loc main_arg2) :=
  (B1_of m c main_arg2 (by decide)).trans (B0_main_arg2 m c)
theorem B2_main_arg2 (c : Dev nD) : B2 m c (Proc.devRef .tc main_arg2) = m ((c : Thread nD τ).loc main_arg2) :=
  (B2_of_ne m c main_arg2 (by decide)).trans (B1_main_arg2 m c)
theorem B3_main_arg2 (c : Dev nD) : B3 m c (Proc.devRef .tc main_arg2) = m ((c : Thread nD τ).loc main_arg2) :=
  (B3_of m c main_arg2 (by decide)).trans (B2_main_arg2 m c)
theorem B4_main_arg2 (c : Dev nD) : B4 m c (Proc.devRef .tc main_arg2) = m ((c : Thread nD τ).loc main_arg2) :=
  (B4_of_ne m c main_arg2 (by decide)).trans (B3_main_arg2 m c)
theorem B5_main_arg2 (c : Dev nD) : B5 m c (Proc.devRef .tc main_arg2) = m ((c : Thread nD τ).loc main_arg2) :=
  (B5_of m c main_arg2 (by decide)).trans (B4_main_arg2 m c)
theorem B6_main_arg2 (c : Dev nD) : B6 m c (Proc.devRef .tc main_arg2) = m ((c : Thread nD τ).loc main_arg2) :=
  (B6_of_ne m c main_arg2 (by decide)).trans (B5_main_arg2 m c)
theorem B0_main_arg3 (c : Dev nD) : B0 m c (Proc.devRef .tc main_arg3) = m ((c : Thread nD τ).loc main_arg3) := rfl
theorem B1_main_arg3 (c : Dev nD) : B1 m c (Proc.devRef .tc main_arg3) = m ((c : Thread nD τ).loc main_arg3) :=
  (B1_of m c main_arg3 (by decide)).trans (B0_main_arg3 m c)
theorem B2_main_arg3 (c : Dev nD) : B2 m c (Proc.devRef .tc main_arg3) = m ((c : Thread nD τ).loc main_arg3) :=
  ((B2_arr m c 1).trans (((dat0 (T1 m) c).arrAt_in 1 rfl _).trans (A_eq0 (T1 m) c 1))).trans (B1_main_arg3 m c)
theorem B3_main_arg3 (c : Dev nD) : B3 m c (Proc.devRef .tc main_arg3) = m ((c : Thread nD τ).loc main_arg3) :=
  (B3_of m c main_arg3 (by decide)).trans (B2_main_arg3 m c)
theorem B4_main_arg3 (c : Dev nD) : B4 m c (Proc.devRef .tc main_arg3) = m ((c : Thread nD τ).loc main_arg3) :=
  (B4_of_ne m c main_arg3 (by decide)).trans (B3_main_arg3 m c)
theorem B5_main_arg3 (c : Dev nD) : B5 m c (Proc.devRef .tc main_arg3) = m ((c : Thread nD τ).loc main_arg3) :=
  (B5_of m c main_arg3 (by decide)).trans (B4_main_arg3 m c)
theorem B6_main_arg3 (c : Dev nD) : B6 m c (Proc.devRef .tc main_arg3) = m ((c : Thread nD τ).loc main_arg3) :=
  (B6_of_ne m c main_arg3 (by decide)).trans (B5_main_arg3 m c)
theorem B0_main_arg4 (c : Dev nD) : B0 m c (Proc.devRef .tc main_arg4) = m ((c : Thread nD τ).loc main_arg4) := rfl
theorem B1_main_arg4 (c : Dev nD) : B1 m c (Proc.devRef .tc main_arg4) = m ((c : Thread nD τ).loc main_arg4) :=
  (B1_of m c main_arg4 (by decide)).trans (B0_main_arg4 m c)
theorem B2_main_arg4 (c : Dev nD) : B2 m c (Proc.devRef .tc main_arg4) = m ((c : Thread nD τ).loc main_arg4) :=
  (B2_of_ne m c main_arg4 (by decide)).trans (B1_main_arg4 m c)
theorem B3_main_arg4 (c : Dev nD) : B3 m c (Proc.devRef .tc main_arg4) = m ((c : Thread nD τ).loc main_arg4) :=
  (B3_of m c main_arg4 (by decide)).trans (B2_main_arg4 m c)
theorem B4_main_arg4 (c : Dev nD) : B4 m c (Proc.devRef .tc main_arg4) = m ((c : Thread nD τ).loc main_arg4) :=
  (B4_of_ne m c main_arg4 (by decide)).trans (B3_main_arg4 m c)
theorem B5_main_arg4 (c : Dev nD) : B5 m c (Proc.devRef .tc main_arg4) = m ((c : Thread nD τ).loc main_arg4) :=
  (B5_of m c main_arg4 (by decide)).trans (B4_main_arg4 m c)
theorem B6_main_arg4 (c : Dev nD) : B6 m c (Proc.devRef .tc main_arg4) = m ((c : Thread nD τ).loc main_arg4) :=
  (B6_of_ne m c main_arg4 (by decide)).trans (B5_main_arg4 m c)
theorem B0_main_arg5 (c : Dev nD) : B0 m c (Proc.devRef .tc main_arg5) = m ((c : Thread nD τ).loc main_arg5) := rfl
theorem B1_main_arg5 (c : Dev nD) : B1 m c (Proc.devRef .tc main_arg5) = m ((c : Thread nD τ).loc main_arg5) :=
  (B1_of m c main_arg5 (by decide)).trans (B0_main_arg5 m c)
theorem B2_main_arg5 (c : Dev nD) : B2 m c (Proc.devRef .tc main_arg5) = m ((c : Thread nD τ).loc main_arg5) :=
  (B2_of_ne m c main_arg5 (by decide)).trans (B1_main_arg5 m c)
theorem B3_main_arg5 (c : Dev nD) : B3 m c (Proc.devRef .tc main_arg5) = m ((c : Thread nD τ).loc main_arg5) :=
  (B3_of m c main_arg5 (by decide)).trans (B2_main_arg5 m c)
theorem B4_main_arg5 (c : Dev nD) : B4 m c (Proc.devRef .tc main_arg5) = m ((c : Thread nD τ).loc main_arg5) :=
  ((B4_arr m c 1).trans (((dat1 (T3 m) c).arrAt_in 1 rfl _).trans (A_eq1 (T3 m) c 1))).trans (B3_main_arg5 m c)
theorem B5_main_arg5 (c : Dev nD) : B5 m c (Proc.devRef .tc main_arg5) = m ((c : Thread nD τ).loc main_arg5) :=
  (B5_of m c main_arg5 (by decide)).trans (B4_main_arg5 m c)
theorem B6_main_arg5 (c : Dev nD) : B6 m c (Proc.devRef .tc main_arg5) = m ((c : Thread nD τ).loc main_arg5) :=
  (B6_of_ne m c main_arg5 (by decide)).trans (B5_main_arg5 m c)
theorem B0_main_arg6 (c : Dev nD) : B0 m c (Proc.devRef .tc main_arg6) = m ((c : Thread nD τ).loc main_arg6) := rfl
theorem B1_main_arg6 (c : Dev nD) : B1 m c (Proc.devRef .tc main_arg6) = m ((c : Thread nD τ).loc main_arg6) :=
  (B1_of m c main_arg6 (by decide)).trans (B0_main_arg6 m c)
theorem B2_main_arg6 (c : Dev nD) : B2 m c (Proc.devRef .tc main_arg6) = m ((c : Thread nD τ).loc main_arg6) :=
  (B2_of_ne m c main_arg6 (by decide)).trans (B1_main_arg6 m c)
theorem B3_main_arg6 (c : Dev nD) : B3 m c (Proc.devRef .tc main_arg6) = m ((c : Thread nD τ).loc main_arg6) :=
  (B3_of m c main_arg6 (by decide)).trans (B2_main_arg6 m c)
theorem B4_main_arg6 (c : Dev nD) : B4 m c (Proc.devRef .tc main_arg6) = m ((c : Thread nD τ).loc main_arg6) :=
  (B4_of_ne m c main_arg6 (by decide)).trans (B3_main_arg6 m c)
theorem B5_main_arg6 (c : Dev nD) : B5 m c (Proc.devRef .tc main_arg6) = m ((c : Thread nD τ).loc main_arg6) :=
  (B5_of m c main_arg6 (by decide)).trans (B4_main_arg6 m c)
theorem B6_main_arg6 (c : Dev nD) : B6 m c (Proc.devRef .tc main_arg6) = m ((c : Thread nD τ).loc main_arg6) :=
  (B6_of_ne m c main_arg6 (by decide)).trans (B5_main_arg6 m c)
theorem B0_main_arg7 (c : Dev nD) : B0 m c (Proc.devRef .tc main_arg7) = m ((c : Thread nD τ).loc main_arg7) := rfl
theorem B1_main_arg7 (c : Dev nD) : B1 m c (Proc.devRef .tc main_arg7) = m ((c : Thread nD τ).loc main_arg7) :=
  (B1_of m c main_arg7 (by decide)).trans (B0_main_arg7 m c)
theorem B2_main_arg7 (c : Dev nD) : B2 m c (Proc.devRef .tc main_arg7) = m ((c : Thread nD τ).loc main_arg7) :=
  (B2_of_ne m c main_arg7 (by decide)).trans (B1_main_arg7 m c)
theorem B3_main_arg7 (c : Dev nD) : B3 m c (Proc.devRef .tc main_arg7) = m ((c : Thread nD τ).loc main_arg7) :=
  (B3_of m c main_arg7 (by decide)).trans (B2_main_arg7 m c)
theorem B4_main_arg7 (c : Dev nD) : B4 m c (Proc.devRef .tc main_arg7) = m ((c : Thread nD τ).loc main_arg7) :=
  (B4_of_ne m c main_arg7 (by decide)).trans (B3_main_arg7 m c)
theorem B5_main_arg7 (c : Dev nD) : B5 m c (Proc.devRef .tc main_arg7) = m ((c : Thread nD τ).loc main_arg7) :=
  (B5_of m c main_arg7 (by decide)).trans (B4_main_arg7 m c)
theorem B6_main_arg7 (c : Dev nD) : B6 m c (Proc.devRef .tc main_arg7) = m ((c : Thread nD τ).loc main_arg7) :=
  ((B6_arr m c 1).trans (((dat2 (T5 m) c).arrAt_in 1 rfl _).trans (A_eq2 (T5 m) c 1))).trans (B5_main_arg7 m c)
theorem B0_main_arg8 (c : Dev nD) : B0 m c (Proc.devRef .tc main_arg8) = m ((c : Thread nD τ).loc main_arg8) := rfl
theorem B1_main_arg8 (c : Dev nD) : B1 m c (Proc.devRef .tc main_arg8) = m ((c : Thread nD τ).loc main_arg8) :=
  (B1_of m c main_arg8 (by decide)).trans (B0_main_arg8 m c)
theorem B2_main_arg8 (c : Dev nD) : B2 m c (Proc.devRef .tc main_arg8) = m ((c : Thread nD τ).loc main_arg8) :=
  (B2_of_ne m c main_arg8 (by decide)).trans (B1_main_arg8 m c)
theorem B3_main_arg8 (c : Dev nD) : B3 m c (Proc.devRef .tc main_arg8) = m ((c : Thread nD τ).loc main_arg8) :=
  (B3_of m c main_arg8 (by decide)).trans (B2_main_arg8 m c)
theorem B4_main_arg8 (c : Dev nD) : B4 m c (Proc.devRef .tc main_arg8) = m ((c : Thread nD τ).loc main_arg8) :=
  (B4_of_ne m c main_arg8 (by decide)).trans (B3_main_arg8 m c)
theorem B5_main_arg8 (c : Dev nD) : B5 m c (Proc.devRef .tc main_arg8) = m ((c : Thread nD τ).loc main_arg8) :=
  (B5_of m c main_arg8 (by decide)).trans (B4_main_arg8 m c)
theorem B6_main_arg8 (c : Dev nD) : B6 m c (Proc.devRef .tc main_arg8) = m ((c : Thread nD τ).loc main_arg8) :=
  (B6_of_ne m c main_arg8 (by decide)).trans (B5_main_arg8 m c)

/-- The normalisation column `main_v8` is written by the first host stretch only. -/
theorem B2_main_v8 (c : Dev nD) : B2 m c (Proc.devRef .tc main_v8) = B1 m c (Proc.devRef .tc main_v8) := B2_of_ne m c main_v8 (by decide)
theorem B3_main_v8 (c : Dev nD) : B3 m c (Proc.devRef .tc main_v8) = B1 m c (Proc.devRef .tc main_v8) := (B3_of m c main_v8 (by decide)).trans (B2_main_v8 m c)
theorem B4_main_v8 (c : Dev nD) : B4 m c (Proc.devRef .tc main_v8) = B1 m c (Proc.devRef .tc main_v8) := (B4_of_ne m c main_v8 (by decide)).trans (B3_main_v8 m c)

/-! # The pipelines' data and the thread state -/

abbrev padm : (p : Fin 3) → (pcfgs (F := F) p).Adm := fun p => (cfgs p).toPCfg_adm
/-- Every pipeline's data, each at its region's entry contents. -/
def pdats : (p : Fin 3) → (c : Dev nD) → Dat τ (Elt F) Unit ℕ (UR sig nD τ) ℕ (Pipeline.pin (pcfgs (F := F)) padm p) c
  | ⟨0, _⟩ => fun c => dat0 (T1 m) c
  | ⟨1, _⟩ => fun c => dat1 (T3 m) c
  | ⟨2, _⟩ => fun c => dat2 (T5 m) c
abbrev 𝒱n : Variants := Variants.none
abbrev Ln : GSem nD τ sig → Finset Unit := fun _ => ∅
abbrev lvn : GSem nD τ sig → Unit → ℕ := fun _ _ => 0
/-- What rides beside the buffers: the generator register at some state, and nothing owed. -/
abbrev Rr (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱n Ln lvn :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rr

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tn (c : Dev nD) : sProp 𝕄 := iprop(StableHlo.held (c : Thread nD τ) (Pipeline.ucRefs τ sig) (B6 m c) ∗ ∃ r, prngReg c r)

/-! # The regions as segments -/

set_option backward.isDefEq.respectTransparency.types false in
/-- Region 0 between boundaries 1 and 2: its arrays split out of the unscoped buffers and put back at the exit contents. -/
def reg0 : Pipeline.RegionSeg (pcfgs (F := F)) padm (pdats m) () defs₀ 𝒱n Ln lvn 0 where
  win := launch0.win.to₀
  block_pos := launch0.block_pos
  stage_whole := launch0.stage_whole
  K := PEmpty
  osem k := k.elim
  ho := Pipeline.OwnSemFacts.none _
  hbody c := (body_obligation0 (T1 m) c).loose
  hwaits := Pipeline.hwaits_of_owed_zero _ _ _ _ Ln lvn 0 fun _ _ => rfl
  pre c := iprop(StableHlo.held (c : Thread nD τ) (Pipeline.ucRefs τ sig) (B1 m c) ∗ Rr c)
  post c := iprop(StableHlo.held (c : Thread nD τ) (Pipeline.ucRefs τ sig) (B2 m c) ∗ Rr c)
  X c := iprop(∃ r, prngReg c r)
  Y c := iprop(∃ r, prngReg c r)
  Z c := Pipeline.unscopedRest (Ix := Unit) (Name := ℕ) (U := UR sig nD τ) (Lvl := ℕ) spec0 c (T1 m c)
  hentry c := by
    rw [Pipeline.ownSems0_none]
    have hsplit := Pipeline.arrays_of_unscopedBufs (p := 0) (pcfgs (F := F)) padm (pdats m) launch0.win launch0.arr_whole c
      ((pdats m 0 c).share_full fun _ => rfl) (T1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) padm (Ix := Unit) (Name := ℕ) (U := UR sig nD τ) (Lvl := ℕ)
      launch0.win launch0.arr_whole c (pdats m) ((pdats m 0 c).share_full fun _ => rfl)
      (T1 m c) (T2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 between boundaries 3 and 4: its arrays split out of the unscoped buffers and put back at the exit contents. -/
def reg1 : Pipeline.RegionSeg (pcfgs (F := F)) padm (pdats m) () defs₀ 𝒱n Ln lvn 1 where
  win := launch1.win.to₀
  block_pos := launch1.block_pos
  stage_whole := launch1.stage_whole
  K := PEmpty
  osem k := k.elim
  ho := Pipeline.OwnSemFacts.none _
  hbody c := (body_obligation1 (T3 m) c).loose
  hwaits := Pipeline.hwaits_of_owed_zero _ _ _ _ Ln lvn 1 fun _ _ => rfl
  pre c := iprop(StableHlo.held (c : Thread nD τ) (Pipeline.ucRefs τ sig) (B3 m c) ∗ Rr c)
  post c := iprop(StableHlo.held (c : Thread nD τ) (Pipeline.ucRefs τ sig) (B4 m c) ∗ Rr c)
  X c := iprop(∃ r, prngReg c r)
  Y c := iprop(∃ r, prngReg c r)
  Z c := Pipeline.unscopedRest (Ix := Unit) (Name := ℕ) (U := UR sig nD τ) (Lvl := ℕ) spec1 c (T3 m c)
  hentry c := by
    rw [Pipeline.ownSems0_none]
    have hsplit := Pipeline.arrays_of_unscopedBufs (p := 1) (pcfgs (F := F)) padm (pdats m) launch1.win launch1.arr_whole c
      ((pdats m 1 c).share_full fun _ => rfl) (T3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) padm (Ix := Unit) (Name := ℕ) (U := UR sig nD τ) (Lvl := ℕ)
      launch1.win launch1.arr_whole c (pdats m) ((pdats m 1 c).share_full fun _ => rfl)
      (T3 m c) (T4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 between boundaries 5 and 6: its arrays split out of the unscoped buffers and put back at the exit contents. -/
def reg2 : Pipeline.RegionSeg (pcfgs (F := F)) padm (pdats m) () defs₀ 𝒱n Ln lvn 2 where
  win := launch2.win.to₀
  block_pos := launch2.block_pos
  stage_whole := launch2.stage_whole
  K := PEmpty
  osem k := k.elim
  ho := Pipeline.OwnSemFacts.none _
  hbody c := (body_obligation2 (T5 m) c).loose
  hwaits := Pipeline.hwaits_of_owed_zero _ _ _ _ Ln lvn 2 fun _ _ => rfl
  pre c := iprop(StableHlo.held (c : Thread nD τ) (Pipeline.ucRefs τ sig) (B5 m c) ∗ Rr c)
  post c := iprop(Tn m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (T5 m c)
  hentry c := by
    rw [Pipeline.ownSems0_none]
    have hsplit := Pipeline.arrays_of_unscopedBufs (p := 2) (pcfgs (F := F)) padm (pdats m) launch2.win launch2.arr_whole c
      ((pdats m 2 c).share_full fun _ => rfl) (T5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) padm (Ix := Unit) (Name := ℕ) (U := UR sig nD τ) (Lvl := ℕ)
      launch2.win launch2.arr_whole c (pdats m) ((pdats m 2 c).share_full fun _ => rfl)
      (T5 m c) (T6 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! # The program as segments, and the run -/

abbrev allSegs : List (Pipeline.Seg (pcfgs (F := F)) padm (pdats m) () defs₀ 𝒱n Ln lvn) :=
  [ .host (hseg hostOps0 hostOps0_sub hostOps0_fresh (B0 m)),
    .region (reg0 m),
    .host (hseg hostOps1 hostOps1_sub hostOps1_fresh (B2 m)),
    .region (reg1 m),
    .host (hseg hostOps2 hostOps2_sub hostOps2_fresh (B4 m)),
    .region (reg2 m) ]

theorem main_run (c : Dev nD) : main (F := F) c = Pipeline.Seg.run (allSegs m) := (main_chain c).trans (by chain_rfl)

set_option backward.isDefEq.respectTransparency.types false in
/-- Every weakly fair execution from memory `m` with zero counters terminates without a fault, and every unscoped
    buffer ends at the last boundary's contents. -/
theorem run_all : θ_run defs (onTc (τ := τ) (main (F := F))) ⟨m, fun _ => 0, ρ⟩ (fun r => ∀ c : Dev nD,
      ∀ b : Ref sig .tc, ¬ (Proc.devRef .tc b : DevRef τ sig).isScoped →
        r.2.mem ((c.tc : Thread nD τ).loc b) = B6 m c (Proc.devRef .tc b)) :=
  Pipeline.θ_run_regions_kit (pcfgs (F := F)) padm (pdats m) () cellOf_inj emb₁ defs₀ 𝒱n Ln lvn m ρ main (allSegs m)
    (fun c Q => by rw [main_run m c])
    (by simp only [allSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ Rr c)) (Tₙ := Tn m)
    (hch := ⟨fun _ => .rfl, fun _ => .rfl, fun _ => .rfl, fun _ => .rfl, fun _ => .rfl, fun _ => .rfl, fun _ => .rfl⟩)
    (hinit := by
      refine Pipeline.initEach Ln lvn fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B6 m c b)
    (hfin := fun c s' => by
      iintro ⟨⟨Hh, -⟩, HSI⟩
      unfold StableHlo.held
      imodintro
      iapply (pointsTo_read_all (Pipeline.ucRefs τ sig) (fun b => (((c : Thread nD τ)).1, b)) (B6 m c) s')
      isplitl [Hh] <;> iassumption)
    (hQ := fun s h c b hb => h c _ (mem_uc b hb))

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(h c main_arg0 (by decide)).trans (B6_main_arg0 m c),
      (h c main_arg1 (by decide)).trans (B6_main_arg1 m c),
      (h c main_arg2 (by decide)).trans (B6_main_arg2 m c),
      (h c main_arg3 (by decide)).trans (B6_main_arg3 m c),
      (h c main_arg4 (by decide)).trans (B6_main_arg4 m c),
      (h c main_arg5 (by decide)).trans (B6_main_arg5 m c),
      (h c main_arg6 (by decide)).trans (B6_main_arg6 m c),
      (h c main_arg7 (by decide)).trans (B6_main_arg7 m c),
      (h c main_arg8 (by decide)).trans (B6_main_arg8 m c)⟩) (run_all m ρ)

end Cert.KernelIdeal.Layers

end
-- ==== Proof.DenseBlock.lean ====
/-
  One row block of a dense stage, at an index, over the extended reals.
  The body's value of a block of stacked features `x0` (2000 rows), the weight matrix `x1` and the bias row `x2`
  is, at row `r` and column `q` of the block, `max (∑ k, x0 r k * x1 k q + x2 0 q) 0`: the two narrowing format
  changes are the identity on extended reals, the matrix product into a zero accumulator is the plain sum over the
  contracted axis, the bias row is broadcast down the rows, and the rectifier is the maximum with the zero word.
-/
import proofs.«103402_j18631568130049_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Dense

open Cert.KernelIdeal Cert.KernelIdeal.Gen
open Idealize.ShloMosaic Idealize.ShloMosaic.TcCoe Idealize.SL.Sem Idealize.ShloMosaic.ValueIdx

/-- The bias row's entry under column `j 1` of a block. -/
abbrev brow (j : S2000x128.Idx) : S1x128.Idx := fun a => match a with
  | ⟨0, _⟩ => ⟨0, Nat.one_pos⟩
  | ⟨1, _⟩ => ⟨(j 1).val, (j 1).isLt⟩

theorem bias_apply (x2 : S1x128.Idx → EReal) (j : S2000x128.Idx) :
    broadcastTo S2000x128 x2 broadcasts_S1x128_S2000x128 j = x2 (brow j) :=
  broadcastTo_apply x2 broadcasts_S1x128_S2000x128 j (brow j) (fun a => match a with
    | ⟨0, _⟩ => by show 0 = if (1 : Nat) = 1 then 0 else (j 0).val; rw [if_pos rfl]
    | ⟨1, _⟩ => by show (j 1).val = if (128 : Nat) = 1 then 0 else (j 1).val; rw [if_neg (by decide)])

/-! ## The matrix product of a 2000×96 block with the 96×128 weights -/

theorem lhs96_0 (i : S2000x128.Idx) (q : dot_S2000x96_S96x128_S2000x128_1_0_0_1_n_n.contr.Idx) :
    (dot_S2000x96_S96x128_S2000x128_1_0_0_1_n_n.lhsIdx i q 0).val = (i 0).val := by
  unfold DotDims.lhsIdx
  rw [dif_neg (show ¬(0 : Fin S2000x96.rank) ∈ dot_S2000x96_S96x128_S2000x128_1_0_0_1_n_n.lhsBatch by decide), dif_pos (show (0 : Fin S2000x96.rank) ∈ dot_S2000x96_S96x128_S2000x128_1_0_0_1_n_n.lhsNonContracting by decide)]
  rfl
theorem lhs96_1 (i : S2000x128.Idx) (q : dot_S2000x96_S96x128_S2000x128_1_0_0_1_n_n.contr.Idx) :
    (dot_S2000x96_S96x128_S2000x128_1_0_0_1_n_n.lhsIdx i q 1).val = (q ⟨0, by decide⟩).val :=
  dot_S2000x96_S96x128_S2000x128_1_0_0_1_n_n.lhsIdx_val_of_single rfl i q
theorem rhs96_0 (i : S2000x128.Idx) (q : dot_S2000x96_S96x128_S2000x128_1_0_0_1_n_n.contr.Idx) :
    (dot_S2000x96_S96x128_S2000x128_1_0_0_1_n_n.rhsIdx i q 0).val = (q ⟨0, by decide⟩).val :=
  dot_S2000x96_S96x128_S2000x128_1_0_0_1_n_n.rhsIdx_val_of_single rfl i q
theorem rhs96_1 (i : S2000x128.Idx) (q : dot_S2000x96_S96x128_S2000x128_1_0_0_1_n_n.contr.Idx) :
    (dot_S2000x96_S96x128_S2000x128_1_0_0_1_n_n.rhsIdx i q 1).val = (i 1).val := by
  unfold DotDims.rhsIdx
  rw [dif_neg (show ¬(1 : Fin S96x128.rank) ∈ dot_S2000x96_S96x128_S2000x128_1_0_0_1_n_n.rhsBatch by decide), dif_pos (show (1 : Fin S96x128.rank) ∈ dot_S2000x96_S96x128_S2000x128_1_0_0_1_n_n.rhsNonContracting by decide)]
  rfl
/-- Row `j 0` of the block, entry `k`. -/
abbrev lrow96 (j : S2000x128.Idx) (k : Fin 96) : S2000x96.Idx := fun a => match a with
  | ⟨0, _⟩ => ⟨(j 0).val, (j 0).isLt⟩
  | ⟨1, _⟩ => ⟨k.val, k.isLt⟩
/-- Column `j 1` of the weights, entry `k`. -/
abbrev rcol96 (j : S2000x128.Idx) (k : Fin 96) : S96x128.Idx := fun a => match a with
  | ⟨0, _⟩ => ⟨k.val, k.isLt⟩
  | ⟨1, _⟩ => ⟨(j 1).val, (j 1).isLt⟩

/-- The product into a zero accumulator, at an index, is the sum over the contracted axis. -/
theorem mm96_apply {φ₁ φ₂ : FTy} (l : FVec Ideal S2000x96 φ₁) (r : FVec Ideal S96x128 φ₂) (j : S2000x128.Idx) :
    matmul dot_S2000x96_S96x128_S2000x128_1_0_0_1_n_n none l r (constant (F := Ideal) S2000x128 .f32 0x00000000#32) j
      = ∑ k : Fin 96, l (lrow96 j k) * r (rcol96 j k) := by
  simp only [matmul]
  rw [Ideal.matmul_constant_zero_apply, ← Equiv.sum_comp (ValueIdx.contrEquiv1 dot_S2000x96_S96x128_S2000x128_1_0_0_1_n_n 96 rfl rfl).symm]
  refine Finset.sum_congr rfl fun k _ => ?_
  have hk := ValueIdx.contrEquiv1_symm_val dot_S2000x96_S96x128_S2000x128_1_0_0_1_n_n 96 rfl rfl k
  have el : dot_S2000x96_S96x128_S2000x128_1_0_0_1_n_n.lhsIdx j ((ValueIdx.contrEquiv1 dot_S2000x96_S96x128_S2000x128_1_0_0_1_n_n 96 rfl rfl).symm k) = lrow96 j k := funext fun a => Fin.ext (by
    match a with
    | ⟨0, _⟩ => exact lhs96_0 _ _
    | ⟨1, _⟩ => exact (lhs96_1 _ _).trans hk)
  have er : dot_S2000x96_S96x128_S2000x128_1_0_0_1_n_n.rhsIdx j ((ValueIdx.contrEquiv1 dot_S2000x96_S96x128_S2000x128_1_0_0_1_n_n 96 rfl rfl).symm k) = rcol96 j k := funext fun a => Fin.ext (by
    match a with
    | ⟨0, _⟩ => exact (rhs96_0 _ _).trans hk
    | ⟨1, _⟩ => exact rhs96_1 _ _)
  rw [el, er]

/-! ## The matrix product of a 2000×384 block with the 384×128 weights -/

theorem lhs384_0 (i : S2000x128.Idx) (q : dot_S2000x384_S384x128_S2000x128_1_0_0_1_n_n.contr.Idx) :
    (dot_S2000x384_S384x128_S2000x128_1_0_0_1_n_n.lhsIdx i q 0).val = (i 0).val := by
  unfold DotDims.lhsIdx
  rw [dif_neg (show ¬(0 : Fin S2000x384.rank) ∈ dot_S2000x384_S384x128_S2000x128_1_0_0_1_n_n.lhsBatch by decide), dif_pos (show (0 : Fin S2000x384.rank) ∈ dot_S2000x384_S384x128_S2000x128_1_0_0_1_n_n.lhsNonContracting by decide)]
  rfl
theorem lhs384_1 (i : S2000x128.Idx) (q : dot_S2000x384_S384x128_S2000x128_1_0_0_1_n_n.contr.Idx) :
    (dot_S2000x384_S384x128_S2000x128_1_0_0_1_n_n.lhsIdx i q 1).val = (q ⟨0, by decide⟩).val :=
  dot_S2000x384_S384x128_S2000x128_1_0_0_1_n_n.lhsIdx_val_of_single rfl i q
theorem rhs384_0 (i : S2000x128.Idx) (q : dot_S2000x384_S384x128_S2000x128_1_0_0_1_n_n.contr.Idx) :
    (dot_S2000x384_S384x128_S2000x128_1_0_0_1_n_n.rhsIdx i q 0).val = (q ⟨0, by decide⟩).val :=
  dot_S2000x384_S384x128_S2000x128_1_0_0_1_n_n.rhsIdx_val_of_single rfl i q
theorem rhs384_1 (i : S2000x128.Idx) (q : dot_S2000x384_S384x128_S2000x128_1_0_0_1_n_n.contr.Idx) :
    (dot_S2000x384_S384x128_S2000x128_1_0_0_1_n_n.rhsIdx i q 1).val = (i 1).val := by
  unfold DotDims.rhsIdx
  rw [dif_neg (show ¬(1 : Fin S384x128.rank) ∈ dot_S2000x384_S384x128_S2000x128_1_0_0_1_n_n.rhsBatch by decide), dif_pos (show (1 : Fin S384x128.rank) ∈ dot_S2000x384_S384x128_S2000x128_1_0_0_1_n_n.rhsNonContracting by decide)]
  rfl
/-- Row `j 0` of the block, entry `k`. -/
abbrev lrow384 (j : S2000x128.Idx) (k : Fin 384) : S2000x384.Idx := fun a => match a with
  | ⟨0, _⟩ => ⟨(j 0).val, (j 0).isLt⟩
  | ⟨1, _⟩ => ⟨k.val, k.isLt⟩
/-- Column `j 1` of the weights, entry `k`. -/
abbrev rcol384 (j : S2000x128.Idx) (k : Fin 384) : S384x128.Idx := fun a => match a with
  | ⟨0, _⟩ => ⟨k.val, k.isLt⟩
  | ⟨1, _⟩ => ⟨(j 1).val, (j 1).isLt⟩

/-- The product into a zero accumulator, at an index, is the sum over the contracted axis. -/
theorem mm384_apply {φ₁ φ₂ : FTy} (l : FVec Ideal S2000x384 φ₁) (r : FVec Ideal S384x128 φ₂) (j : S2000x128.Idx) :
    matmul dot_S2000x384_S384x128_S2000x128_1_0_0_1_n_n none l r (constant (F := Ideal) S2000x128 .f32 0x00000000#32) j
      = ∑ k : Fin 384, l (lrow384 j k) * r (rcol384 j k) := by
  simp only [matmul]
  rw [Ideal.matmul_constant_zero_apply, ← Equiv.sum_comp (ValueIdx.contrEquiv1 dot_S2000x384_S384x128_S2000x128_1_0_0_1_n_n 384 rfl rfl).symm]
  refine Finset.sum_congr rfl fun k _ => ?_
  have hk := ValueIdx.contrEquiv1_symm_val dot_S2000x384_S384x128_S2000x128_1_0_0_1_n_n 384 rfl rfl k
  have el : dot_S2000x384_S384x128_S2000x128_1_0_0_1_n_n.lhsIdx j ((ValueIdx.contrEquiv1 dot_S2000x384_S384x128_S2000x128_1_0_0_1_n_n 384 rfl rfl).symm k) = lrow384 j k := funext fun a => Fin.ext (by
    match a with
    | ⟨0, _⟩ => exact lhs384_0 _ _
    | ⟨1, _⟩ => exact (lhs384_1 _ _).trans hk)
  have er : dot_S2000x384_S384x128_S2000x128_1_0_0_1_n_n.rhsIdx j ((ValueIdx.contrEquiv1 dot_S2000x384_S384x128_S2000x128_1_0_0_1_n_n 384 rfl rfl).symm k) = rcol384 j k := funext fun a => Fin.ext (by
    match a with
    | ⟨0, _⟩ => exact (rhs384_0 _ _).trans hk
    | ⟨1, _⟩ => exact rhs384_1 _ _)
  rw [el, er]

/-- Layer 1's body value at an index of the block. -/
theorem pay0_apply (x0 : Vec Ideal S2000x96 .f32) (x1 : Vec Ideal S96x128 .f32) (x2 : Vec Ideal S1x128 .f32) (j : S2000x128.Idx) :
    k0_pay1 (F := Ideal) x0 x1 x2 j
      = max ((∑ k : Fin 96, x0 (lrow96 j k) * x1 (rcol96 j k)) + x2 (brow j)) (Ideal.ofBits .f32 0x00000000#32) := by
  unfold k0_pay1
  rw [shapeCast_self, shapeCast_self, maximumf_apply, addf_apply, mm96_apply, bias_apply]
  rfl

/-- Layer 2's body value at an index of the block. -/
theorem pay1_apply (x0 : Vec Ideal S2000x384 .f32) (x1 : Vec Ideal S384x128 .f32) (x2 : Vec Ideal S1x128 .f32) (j : S2000x128.Idx) :
    k1_pay1 (F := Ideal) x0 x1 x2 j
      = max ((∑ k : Fin 384, x0 (lrow384 j k) * x1 (rcol384 j k)) + x2 (brow j)) (Ideal.ofBits .f32 0x00000000#32) := by
  unfold k1_pay1
  rw [shapeCast_self, shapeCast_self, maximumf_apply, addf_apply, mm384_apply, bias_apply]
  rfl

/-- Layer 3's body value at an index of the block. -/
theorem pay2_apply (x0 : Vec Ideal S2000x384 .f32) (x1 : Vec Ideal S384x128 .f32) (x2 : Vec Ideal S1x128 .f32) (j : S2000x128.Idx) :
    k2_pay1 (F := Ideal) x0 x1 x2 j
      = max ((∑ k : Fin 384, x0 (lrow384 j k) * x1 (rcol384 j k)) + x2 (brow j)) (Ideal.ofBits .f32 0x00000000#32) := by
  unfold k2_pay1
  rw [shapeCast_self, shapeCast_self, maximumf_apply, addf_apply, mm384_apply, bias_apply]
  rfl

end Cert.KernelIdeal.Dense

end
-- ==== Proof.DenseArray.lean ====
/-
  A dense stage's output array as one function of its three input arrays.
  `dense a w b` at node `n` and column `q` is `max (∑ k, a n k * w k q + b 0 q) 0`.  Point `t` of the grid reads rows
  `2000 t … 2000 t + 1999` of `a`, all of `w` and `b`, and writes the same rows of the output, so what it writes back
  is its block of `dense a w b`; the fifty blocks cover the 100000 rows (row `n` lies in block `n / 2000`), hence the
  region leaves the output array at `dense a w b` of the arrays it found.
-/
import proofs.«103402_j18631568130049_1_alg».proof.Proof.LayersRunIdeal
import proofs.«103402_j18631568130049_1_alg».proof.Proof.DenseBlock
import Idealize.ShloMosaic.Lib.Pipeline.Value

set_option maxRecDepth 16384

noncomputable section

namespace Cert.KernelIdeal.Dense

open Cert.KernelIdeal Cert.KernelIdeal.Gen Cert.KernelIdeal.Layers
open Idealize.ShloMosaic Idealize.ShloMosaic.TcCoe Idealize.SL.Sem Idealize.ShloMosaic.ValueIdx
open Idealize.ShloMosaic.Pipeline (Dat)

theorem hz : (![0, 0] : Fin 2 → Nat) = fun _ => 0 := funext fun a => by fin_cases a <;> rfl

/-- The bias row's entry under column `i 1`. -/
abbrev bcol (i : S100000x128.Idx) : S1x128.Idx := fun a => match a with
  | ⟨0, _⟩ => ⟨0, Nat.one_pos⟩
  | ⟨1, _⟩ => ⟨(i 1).val, (i 1).isLt⟩

/-- Node `i 0`'s stacked features, entry `k`. -/
abbrev arow96 (i : S100000x128.Idx) (k : Fin 96) : S100000x96.Idx := fun a => match a with
  | ⟨0, _⟩ => ⟨(i 0).val, (i 0).isLt⟩
  | ⟨1, _⟩ => ⟨k.val, k.isLt⟩
/-- Column `i 1` of the weights, entry `k`. -/
abbrev wcol96 (i : S100000x128.Idx) (k : Fin 96) : S96x128.Idx := fun a => match a with
  | ⟨0, _⟩ => ⟨k.val, k.isLt⟩
  | ⟨1, _⟩ => ⟨(i 1).val, (i 1).isLt⟩

/-- The dense stage over 96 stacked features: product with the weights, plus the bias row, rectified. -/
def dense96 (a : (⟨S100000x96, .f32⟩ : BufTy).Contents (Elt Ideal)) (w : (⟨S96x128, .f32⟩ : BufTy).Contents (Elt Ideal))
    (b : (⟨S1x128, .f32⟩ : BufTy).Contents (Elt Ideal)) : (⟨S100000x128, .f32⟩ : BufTy).Contents (Elt Ideal) :=
  fun i => max ((∑ k : Fin 96, a (arow96 i k) * w (wcol96 i k)) + b (bcol i)) (Ideal.ofBits .f32 0x00000000#32)

/-- Node `i 0`'s stacked features, entry `k`. -/
abbrev arow384 (i : S100000x128.Idx) (k : Fin 384) : S100000x384.Idx := fun a => match a with
  | ⟨0, _⟩ => ⟨(i 0).val, (i 0).isLt⟩
  | ⟨1, _⟩ => ⟨k.val, k.isLt⟩
/-- Column `i 1` of the weights, entry `k`. -/
abbrev wcol384 (i : S100000x128.Idx) (k : Fin 384) : S384x128.Idx := fun a => match a with
  | ⟨0, _⟩ => ⟨k.val, k.isLt⟩
  | ⟨1, _⟩ => ⟨(i 1).val, (i 1).isLt⟩

/-- The dense stage over 384 stacked features: product with the weights, plus the bias row, rectified. -/
def dense384 (a : (⟨S100000x384, .f32⟩ : BufTy).Contents (Elt Ideal)) (w : (⟨S384x128, .f32⟩ : BufTy).Contents (Elt Ideal))
    (b : (⟨S1x128, .f32⟩ : BufTy).Contents (Elt Ideal)) : (⟨S100000x128, .f32⟩ : BufTy).Contents (Elt Ideal) :=
  fun i => max ((∑ k : Fin 384, a (arow384 i k) * w (wcol384 i k)) + b (bcol i)) (Ideal.ofBits .f32 0x00000000#32)

/-! ## Layer 1 -/

/-- A block's body value at `j` is the dense stage at array index `i`, when the three blocks hold the entries of the
    arrays that index `i` needs. -/
theorem block0 (a : (⟨S100000x96, .f32⟩ : BufTy).Contents (Elt Ideal)) (w : (⟨S96x128, .f32⟩ : BufTy).Contents (Elt Ideal))
    (b : (⟨S1x128, .f32⟩ : BufTy).Contents (Elt Ideal))
    (x0 : Vec Ideal S2000x96 .f32) (x1 : Vec Ideal S96x128 .f32) (x2 : Vec Ideal S1x128 .f32) (j : S2000x128.Idx) (i : S100000x128.Idx)
    (h0 : ∀ k : Fin 96, x0 (lrow96 j k) = a (arow96 i k)) (h1 : ∀ k : Fin 96, x1 (rcol96 j k) = w (wcol96 i k))
    (h2 : x2 (brow j) = b (bcol i)) :
    k0_pay1 (F := Ideal) x0 x1 x2 j = dense96 a w b i := by
  rw [pay0_apply, h2]; unfold dense96
  exact congrArg (fun s => max (s + b (bcol i)) (Ideal.ofBits .f32 0x00000000#32)) (Finset.sum_congr rfl fun k _ => by rw [h0 k, h1 k])

/-- The block indices over the grid: point `t` takes row block `t` of the features and of the output, and block 0 of
    the weights and the bias. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point `t` writes back is its block of the dense stage of the arrays the region found. -/
theorem flushed0_eq (V : (c : Dev nD) → (b : Ref sig .tc) → Buf (Elt Ideal) ((c : Thread nD τ).loc b)) (c : Dev nD) (t : Fin cfg0.N) :
    (dat0 (F := Ideal) V c).flushed 3 t = ((cfg0.win 3).blk t).view.read (Elt Ideal) (dense96 (V c main_v37) (V c main_arg3) (V c main_v38)) := by
  show (cfg0.win 3).cut (grid0.coords t) ((dat0 V c).after 3 t) = _
  rw [after0_3]
  unfold out0_3
  rw [View.canon_unit_zero hz]
  simp only [View.ld_unit_zero (S := S2000x96) hz, View.ld_unit_zero (S := S96x128) hz, View.ld_unit_zero (S := S1x128) hz]
  obtain ⟨e00, e01, e10, e11, e20, e21, e30, e31⟩ := idx_facts0 t
  funext j
  show k0_pay1 (F := Ideal) (iblk0 V c 0 t) (iblk0 V c 1 t) (iblk0 V c 2 t) j = dense96 (V c main_v37) (V c main_arg3) (V c main_v38) (((cfg0.win 3).blk t).view.emb j)
  refine block0 (V c main_v37) (V c main_arg3) (V c main_v38) (iblk0 V c 0 t) (iblk0 V c 1 t) (iblk0 V c 2 t) j (((cfg0.win 3).blk t).view.emb j) (fun k => ?_) (fun k => ?_) ?_
  · show V c main_v37 (((cfg0.win 0).blk t).view.emb (lrow96 j k)) = V c main_v37 (arow96 (((cfg0.win 3).blk t).view.emb j) k)
    refine congrArg (V c main_v37) (funext fun a => Fin.ext ?_)
    match a with
    | ⟨0, _⟩ => show win0_0.index t (0 : Fin 2) * 2000 + 1 * (j 0).val = win0_3.index t (0 : Fin 2) * 2000 + 1 * (j 0).val; omega
    | ⟨1, _⟩ => show win0_0.index t (1 : Fin 2) * 96 + 1 * k.val = k.val; omega
  · show V c main_arg3 (((cfg0.win 1).blk t).view.emb (rcol96 j k)) = V c main_arg3 (wcol96 (((cfg0.win 3).blk t).view.emb j) k)
    refine congrArg (V c main_arg3) (funext fun a => Fin.ext ?_)
    match a with
    | ⟨0, _⟩ => show win0_1.index t (0 : Fin 2) * 96 + 1 * k.val = k.val; omega
    | ⟨1, _⟩ => show win0_1.index t (1 : Fin 2) * 128 + 1 * (j 1).val = win0_3.index t (1 : Fin 2) * 128 + 1 * (j 1).val; omega
  · show V c main_v38 (((cfg0.win 2).blk t).view.emb (brow j)) = V c main_v38 (bcol (((cfg0.win 3).blk t).view.emb j))
    refine congrArg (V c main_v38) (funext fun a => Fin.ext ?_)
    match a with
    | ⟨0, _⟩ => show win0_2.index t (0 : Fin 2) * 1 + 1 * 0 = 0; omega
    | ⟨1, _⟩ => show win0_2.index t (1 : Fin 2) * 128 + 1 * (j 1).val = win0_3.index t (1 : Fin 2) * 128 + 1 * (j 1).val; omega

/-- An index is in point `t`'s output block iff each coordinate is in the block's range on its axis. -/
theorem mem_blk0 (t : Fin cfg0.N) (i : S100000x128.Idx) :
    i ∈ ((cfg0.win 3).blk t).view.set ↔ ∀ a : Fin 2, win0_3.index t a * S2000x128.size a ≤ (i a).val ∧ (i a).val < win0_3.index t a * S2000x128.size a + S2000x128.size a := by
  show i ∈ ((View.whole main_v39).slice (win0_3.rect t)).set ↔ _
  rw [View.set_slice_whole, Rect.mem_set_unit]
  exact Iff.rfl

/-- Row `n` lies in the block of point `n / 2000`. -/
theorem cover0 (i : S100000x128.Idx) : ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 50 := N_0
  obtain ⟨_, _, _, _, _, _, e30, e31⟩ := idx_facts0 ⟨(i 0).val / 2000, lt_of_lt_of_eq (by omega : (i 0).val / 2000 < 50) hN.symm⟩
  have e30' : win0_3.index ⟨(i 0).val / 2000, lt_of_lt_of_eq (by omega : (i 0).val / 2000 < 50) hN.symm⟩ (0 : Fin 2) = (i 0).val / 2000 := e30
  refine ⟨⟨(i 0).val / 2000, lt_of_lt_of_eq (by omega : (i 0).val / 2000 < 50) hN.symm⟩, flush0_3 _, ?_⟩
  rw [mem_blk0]
  intro a
  match a with
  | ⟨0, _⟩ => show win0_3.index ⟨(i 0).val / 2000, _⟩ (0 : Fin 2) * 2000 ≤ (i 0).val ∧ (i 0).val < win0_3.index ⟨(i 0).val / 2000, _⟩ (0 : Fin 2) * 2000 + 2000; rw [e30']; omega
  | ⟨1, _⟩ => show win0_3.index ⟨(i 0).val / 2000, _⟩ (1 : Fin 2) * 128 ≤ (i 1).val ∧ (i 1).val < win0_3.index ⟨(i 0).val / 2000, _⟩ (1 : Fin 2) * 128 + 128; rw [e31]; omega

/-- The region leaves its output array at the dense stage of the arrays it found. -/
theorem final0 (V : (c : Dev nD) → (b : Ref sig .tc) → Buf (Elt Ideal) ((c : Thread nD τ).loc b)) (c : Dev nD) :
    (dat0 (F := Ideal) V c).arrAt 3 cfg0.N = dense96 (V c main_v37) (V c main_arg3) (V c main_v38) :=
  (dat0 V c).arrAt_eq_of_cover 3 (dense96 (V c main_v37) (V c main_arg3) (V c main_v38)) (fun t _ => flushed0_eq V c t) cover0

/-! ## Layer 2 -/

/-- A block's body value at `j` is the dense stage at array index `i`, when the three blocks hold the entries of the
    arrays that index `i` needs. -/
theorem block1 (a : (⟨S100000x384, .f32⟩ : BufTy).Contents (Elt Ideal)) (w : (⟨S384x128, .f32⟩ : BufTy).Contents (Elt Ideal))
    (b : (⟨S1x128, .f32⟩ : BufTy).Contents (Elt Ideal))
    (x0 : Vec Ideal S2000x384 .f32) (x1 : Vec Ideal S384x128 .f32) (x2 : Vec Ideal S1x128 .f32) (j : S2000x128.Idx) (i : S100000x128.Idx)
    (h0 : ∀ k : Fin 384, x0 (lrow384 j k) = a (arow384 i k)) (h1 : ∀ k : Fin 384, x1 (rcol384 j k) = w (wcol384 i k))
    (h2 : x2 (brow j) = b (bcol i)) :
    k1_pay1 (F := Ideal) x0 x1 x2 j = dense384 a w b i := by
  rw [pay1_apply, h2]; unfold dense384
  exact congrArg (fun s => max (s + b (bcol i)) (Ideal.ofBits .f32 0x00000000#32)) (Finset.sum_congr rfl fun k _ => by rw [h0 k, h1 k])

/-- The block indices over the grid: point `t` takes row block `t` of the features and of the output, and block 0 of
    the weights and the bias. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point `t` writes back is its block of the dense stage of the arrays the region found. -/
theorem flushed1_eq (V : (c : Dev nD) → (b : Ref sig .tc) → Buf (Elt Ideal) ((c : Thread nD τ).loc b)) (c : Dev nD) (t : Fin cfg1.N) :
    (dat1 (F := Ideal) V c).flushed 3 t = ((cfg1.win 3).blk t).view.read (Elt Ideal) (dense384 (V c main_v68) (V c main_arg5) (V c main_v69)) := by
  show (cfg1.win 3).cut (grid1.coords t) ((dat1 V c).after 3 t) = _
  rw [after1_3]
  unfold out1_3
  rw [View.canon_unit_zero hz]
  simp only [View.ld_unit_zero (S := S2000x384) hz, View.ld_unit_zero (S := S384x128) hz, View.ld_unit_zero (S := S1x128) hz]
  obtain ⟨e00, e01, e10, e11, e20, e21, e30, e31⟩ := idx_facts1 t
  funext j
  show k1_pay1 (F := Ideal) (iblk1 V c 0 t) (iblk1 V c 1 t) (iblk1 V c 2 t) j = dense384 (V c main_v68) (V c main_arg5) (V c main_v69) (((cfg1.win 3).blk t).view.emb j)
  refine block1 (V c main_v68) (V c main_arg5) (V c main_v69) (iblk1 V c 0 t) (iblk1 V c 1 t) (iblk1 V c 2 t) j (((cfg1.win 3).blk t).view.emb j) (fun k => ?_) (fun k => ?_) ?_
  · show V c main_v68 (((cfg1.win 0).blk t).view.emb (lrow384 j k)) = V c main_v68 (arow384 (((cfg1.win 3).blk t).view.emb j) k)
    refine congrArg (V c main_v68) (funext fun a => Fin.ext ?_)
    match a with
    | ⟨0, _⟩ => show win1_0.index t (0 : Fin 2) * 2000 + 1 * (j 0).val = win1_3.index t (0 : Fin 2) * 2000 + 1 * (j 0).val; omega
    | ⟨1, _⟩ => show win1_0.index t (1 : Fin 2) * 384 + 1 * k.val = k.val; omega
  · show V c main_arg5 (((cfg1.win 1).blk t).view.emb (rcol384 j k)) = V c main_arg5 (wcol384 (((cfg1.win 3).blk t).view.emb j) k)
    refine congrArg (V c main_arg5) (funext fun a => Fin.ext ?_)
    match a with
    | ⟨0, _⟩ => show win1_1.index t (0 : Fin 2) * 384 + 1 * k.val = k.val; omega
    | ⟨1, _⟩ => show win1_1.index t (1 : Fin 2) * 128 + 1 * (j 1).val = win1_3.index t (1 : Fin 2) * 128 + 1 * (j 1).val; omega
  · show V c main_v69 (((cfg1.win 2).blk t).view.emb (brow j)) = V c main_v69 (bcol (((cfg1.win 3).blk t).view.emb j))
    refine congrArg (V c main_v69) (funext fun a => Fin.ext ?_)
    match a with
    | ⟨0, _⟩ => show win1_2.index t (0 : Fin 2) * 1 + 1 * 0 = 0; omega
    | ⟨1, _⟩ => show win1_2.index t (1 : Fin 2) * 128 + 1 * (j 1).val = win1_3.index t (1 : Fin 2) * 128 + 1 * (j 1).val; omega

/-- An index is in point `t`'s output block iff each coordinate is in the block's range on its axis. -/
theorem mem_blk1 (t : Fin cfg1.N) (i : S100000x128.Idx) :
    i ∈ ((cfg1.win 3).blk t).view.set ↔ ∀ a : Fin 2, win1_3.index t a * S2000x128.size a ≤ (i a).val ∧ (i a).val < win1_3.index t a * S2000x128.size a + S2000x128.size a := by
  show i ∈ ((View.whole main_v70).slice (win1_3.rect t)).set ↔ _
  rw [View.set_slice_whole, Rect.mem_set_unit]
  exact Iff.rfl

/-- Row `n` lies in the block of point `n / 2000`. -/
theorem cover1 (i : S100000x128.Idx) : ∃ t : Fin cfg1.N, (cfg1.win 3).flush t = true ∧ i ∈ ((cfg1.win 3).blk t).view.set := by
  have hi0 : (i 0).val < 100000 := (i 0).isLt
  have hi1 : (i 1).val < 128 := (i 1).isLt
  have hN : cfg1.N = 50 := N_1
  obtain ⟨_, _, _, _, _, _, e30, e31⟩ := idx_facts1 ⟨(i 0).val / 2000, lt_of_lt_of_eq (by omega : (i 0).val / 2000 < 50) hN.symm⟩
  have e30' : win1_3.index ⟨(i 0).val / 2000, lt_of_lt_of_eq (by omega : (i 0).val / 2000 < 50) hN.symm⟩ (0 : Fin 2) = (i 0).val / 2000 := e30
  refine ⟨⟨(i 0).val / 2000, lt_of_lt_of_eq (by omega : (i 0).val / 2000 < 50) hN.symm⟩, flush1_3 _, ?_⟩
  rw [mem_blk1]
  intro a
  match a with
  | ⟨0, _⟩ => show win1_3.index ⟨(i 0).val / 2000, _⟩ (0 : Fin 2) * 2000 ≤ (i 0).val ∧ (i 0).val < win1_3.index ⟨(i 0).val / 2000, _⟩ (0 : Fin 2) * 2000 + 2000; rw [e30']; omega
  | ⟨1, _⟩ => show win1_3.index ⟨(i 0).val / 2000, _⟩ (1 : Fin 2) * 128 ≤ (i 1).val ∧ (i 1).val < win1_3.index ⟨(i 0).val / 2000, _⟩ (1 : Fin 2) * 128 + 128; rw [e31]; omega

/-- The region leaves its output array at the dense stage of the arrays it found. -/
theorem final1 (V : (c : Dev nD) → (b : Ref sig .tc) → Buf (Elt Ideal) ((c : Thread nD τ).loc b)) (c : Dev nD) :
    (dat1 (F := Ideal) V c).arrAt 3 cfg1.N = dense384 (V c main_v68) (V c main_arg5) (V c main_v69) :=
  (dat1 V c).arrAt_eq_of_cover 3 (dense384 (V c main_v68) (V c main_arg5) (V c main_v69)) (fun t _ => flushed1_eq V c t) cover1

/-! ## Layer 3 -/

/-- A block's body value at `j` is the dense stage at array index `i`, when the three blocks hold the entries of the
    arrays that index `i` needs. -/
theorem block2 (a : (⟨S100000x384, .f32⟩ : BufTy).Contents (Elt Ideal)) (w : (⟨S384x128, .f32⟩ : BufTy).Contents (Elt Ideal))
    (b : (⟨S1x128, .f32⟩ : BufTy).Contents (Elt Ideal))
    (x0 : Vec Ideal S2000x384 .f32) (x1 : Vec Ideal S384x128 .f32) (x2 : Vec Ideal S1x128 .f32) (j : S2000x128.Idx) (i : S100000x128.Idx)
    (h0 : ∀ k : Fin 384, x0 (lrow384 j k) = a (arow384 i k)) (h1 : ∀ k : Fin 384, x1 (rcol384 j k) = w (wcol384 i k))
    (h2 : x2 (brow j) = b (bcol i)) :
    k2_pay1 (F := Ideal) x0 x1 x2 j = dense384 a w b i := by
  rw [pay2_apply, h2]; unfold dense384
  exact congrArg (fun s => max (s + b (bcol i)) (Ideal.ofBits .f32 0x00000000#32)) (Finset.sum_congr rfl fun k _ => by rw [h0 k, h1 k])

/-- The block indices over the grid: point `t` takes row block `t` of the features and of the output, and block 0 of
    the weights and the bias. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- What point `t` writes back is its block of the dense stage of the arrays the region found. -/
theorem flushed2_eq (V : (c : Dev nD) → (b : Ref sig .tc) → Buf (Elt Ideal) ((c : Thread nD τ).loc b)) (c : Dev nD) (t : Fin cfg2.N) :
    (dat2 (F := Ideal) V c).flushed 3 t = ((cfg2.win 3).blk t).view.read (Elt Ideal) (dense384 (V c main_v99) (V c main_arg7) (V c main_v100)) := by
  show (cfg2.win 3).cut (grid2.coords t) ((dat2 V c).after 3 t) = _
  rw [after2_3]
  unfold out2_3
  rw [View.canon_unit_zero hz]
  simp only [View.ld_unit_zero (S := S2000x384) hz, View.ld_unit_zero (S := S384x128) hz, View.ld_unit_zero (S := S1x128) hz]
  obtain ⟨e00, e01, e10, e11, e20, e21, e30, e31⟩ := idx_facts2 t
  funext j
  show k2_pay1 (F := Ideal) (iblk2 V c 0 t) (iblk2 V c 1 t) (iblk2 V c 2 t) j = dense384 (V c main_v99) (V c main_arg7) (V c main_v100) (((cfg2.win 3).blk t).view.emb j)
  refine block2 (V c main_v99) (V c main_arg7) (V c main_v100) (iblk2 V c 0 t) (iblk2 V c 1 t) (iblk2 V c 2 t) j (((cfg2.win 3).blk t).view.emb j) (fun k => ?_) (fun k => ?_) ?_
  · show V c main_v99 (((cfg2.win 0).blk t).view.emb (lrow384 j k)) = V c main_v99 (arow384 (((cfg2.win 3).blk t).view.emb j) k)
    refine congrArg (V c main_v99) (funext fun a => Fin.ext ?_)
    match a with
    | ⟨0, _⟩ => show win2_0.index t (0 : Fin 2) * 2000 + 1 * (j 0).val = win2_3.index t (0 : Fin 2) * 2000 + 1 * (j 0).val; omega
    | ⟨1, _⟩ => show win2_0.index t (1 : Fin 2) * 384 + 1 * k.val = k.val; omega
  · show V c main_arg7 (((cfg2.win 1).blk t).view.emb (rcol384 j k)) = V c main_arg7 (wcol384 (((cfg2.win 3).blk t).view.emb j) k)
    refine congrArg (V c main_arg7) (funext fun a => Fin.ext ?_)
    match a with
    | ⟨0, _⟩ => show win2_1.index t (0 : Fin 2) * 384 + 1 * k.val = k.val; omega
    | ⟨1, _⟩ => show win2_1.index t (1 : Fin 2) * 128 + 1 * (j 1).val = win2_3.index t (1 : Fin 2) * 128 + 1 * (j 1).val; omega
  · show V c main_v100 (((cfg2.win 2).blk t).view.emb (brow j)) = V c main_v100 (bcol (((cfg2.win 3).blk t).view.emb j))
    refine congrArg (V c main_v100) (funext fun a => Fin.ext ?_)
    match a with
    | ⟨0, _⟩ => show win2_2.index t (0 : Fin 2) * 1 + 1 * 0 = 0; omega
    | ⟨1, _⟩ => show win2_2.index t (1 : Fin 2) * 128 + 1 * (j 1).val = win2_3.index t (1 : Fin 2) * 128 + 1 * (j 1).val; omega

/-- An index is in point `t`'s output block iff each coordinate is in the block's range on its axis. -/
theorem mem_blk2 (t : Fin cfg2.N) (i : S100000x128.Idx) :
    i ∈ ((cfg2.win 3).blk t).view.set ↔ ∀ a : Fin 2, win2_3.index t a * S2000x128.size a ≤ (i a).val ∧ (i a).val < win2_3.index t a * S2000x128.size a + S2000x128.size a := by
  show i ∈ ((View.whole main_v101).slice (win2_3.rect t)).set ↔ _
  rw [View.set_slice_whole, Rect.mem_set_unit]
  exact Iff.rfl

/-- Row `n` lies in the block of point `n / 2000`. -/
theorem cover2 (i : S100000x128.Idx) : ∃ t : Fin cfg2.N, (cfg2.win 3).flush t = true ∧ i ∈ ((cfg2.win 3).blk t).view.set := by
  have hi0 : (i 0).val < 100000 := (i 0).isLt
  have hi1 : (i 1).val < 128 := (i 1).isLt
  have hN : cfg2.N = 50 := N_2
  obtain ⟨_, _, _, _, _, _, e30, e31⟩ := idx_facts2 ⟨(i 0).val / 2000, lt_of_lt_of_eq (by omega : (i 0).val / 2000 < 50) hN.symm⟩
  have e30' : win2_3.index ⟨(i 0).val / 2000, lt_of_lt_of_eq (by omega : (i 0).val / 2000 < 50) hN.symm⟩ (0 : Fin 2) = (i 0).val / 2000 := e30
  refine ⟨⟨(i 0).val / 2000, lt_of_lt_of_eq (by omega : (i 0).val / 2000 < 50) hN.symm⟩, flush2_3 _, ?_⟩
  rw [mem_blk2]
  intro a
  match a with
  | ⟨0, _⟩ => show win2_3.index ⟨(i 0).val / 2000, _⟩ (0 : Fin 2) * 2000 ≤ (i 0).val ∧ (i 0).val < win2_3.index ⟨(i 0).val / 2000, _⟩ (0 : Fin 2) * 2000 + 2000; rw [e30']; omega
  | ⟨1, _⟩ => show win2_3.index ⟨(i 0).val / 2000, _⟩ (1 : Fin 2) * 128 ≤ (i 1).val ∧ (i 1).val < win2_3.index ⟨(i 0).val / 2000, _⟩ (1 : Fin 2) * 128 + 128; rw [e31]; omega

/-- The region leaves its output array at the dense stage of the arrays it found. -/
theorem final2 (V : (c : Dev nD) → (b : Ref sig .tc) → Buf (Elt Ideal) ((c : Thread nD τ).loc b)) (c : Dev nD) :
    (dat2 (F := Ideal) V c).arrAt 3 cfg2.N = dense384 (V c main_v99) (V c main_arg7) (V c main_v100) :=
  (dat2 V c).arrAt_eq_of_cover 3 (dense384 (V c main_v99) (V c main_arg7) (V c main_v100)) (fun t _ => flushed2_eq V c t) cover2

end Cert.KernelIdeal.Dense

end
-- ==== Proof.DenseRef.lean ====
/-
  The reference's dense stage is the same function.  The reference computes a layer's output as the host's matrix
  product of the stacked features with the weights, plus the bias broadcast first to a row and then down the rows,
  rectified by the maximum with a zero array; read at node `n` and column `q` that is
  `max (∑ k, feats n k * w k q + b q) 0`, which is `dense feats w (b as a 1×128 row)`.
-/
import proofs.«103402_j18631568130049_1_alg».proof.Proof.DenseArray
import proofs.«103402_j18631568130049_1_alg».proof.Proof.RefRead

set_option maxRecDepth 16384

noncomputable section

namespace Cert.KernelIdeal.Dense

open Cert.KernelIdeal Cert.KernelIdeal.Gen
open Idealize.ShloMosaic Idealize.ShloMosaic.TcCoe Idealize.SL.Sem Idealize.ShloMosaic.ValueIdx

/-- A bias vector reshaped to a 1×128 row, read under column `i 1`, is the vector's entry `i 1`. -/
theorem bias_ref (x : (⟨S128, .f32⟩ : BufTy).Contents (Elt Ideal)) (i : S100000x128.Idx) (k : S128.Idx) (hk : (k 0).val = (i 1).val) :
    shapeCast S1x128 x shapeCasts_S128_S1x128 (bcol i) = x k :=
  (shapeCast_addUnit_apply ![128] x shapeCasts_S128_S1x128 (bcol i)).trans (congrArg x (funext fun a => Fin.ext (by
    match a with
    | ⟨0, _⟩ => exact hk.symm)))

/-- Layer 1: the reference's stage is `dense96` of its stacked features, weights and bias row. -/
theorem dense_ref1 (x0 : (⟨S100000x32, .f32⟩ : BufTy).Contents (Elt Ideal)) (x1 x2 : (⟨S1600000, .i32⟩ : BufTy).Contents (Elt Ideal)) (x3 : (⟨S96x128, .f32⟩ : BufTy).Contents (Elt Ideal)) (x4 : (⟨S128, .f32⟩ : BufTy).Contents (Elt Ideal)) :
    dense96 (Cert.ReferenceIdeal.Read.val_main_v37 (F := Ideal) x0 x1 x2) x3 (shapeCast S1x128 x4 shapeCasts_S128_S1x128)
      = Cert.ReferenceIdeal.Read.val_main_v42 (F := Ideal) x0 x1 x2 x3 x4 := by
  funext i
  rw [Cert.ReferenceIdeal.Read.val_main_v42_apply, Cert.ReferenceIdeal.Read.val_main_v41_apply, Cert.ReferenceIdeal.Read.val_main_v38_apply,
    Cert.ReferenceIdeal.Read.val_main_v40_apply, Cert.ReferenceIdeal.Read.val_main_v39_apply,
    Cert.ReferenceIdeal.Read.val_main_call0_v0_apply, Cert.ReferenceIdeal.Read.val_main_call0_cst_apply]
  unfold dense96
  rw [bias_ref x4 i (Cert.ReferenceIdeal.Read.idx_main_v39 (Cert.ReferenceIdeal.Read.idx_main_v40 i)) rfl]
  rfl

/-- Layer 2: the reference's stage is `dense384` of its stacked features, weights and bias row. -/
theorem dense_ref2 (x0 : (⟨S100000x32, .f32⟩ : BufTy).Contents (Elt Ideal)) (x1 x2 : (⟨S1600000, .i32⟩ : BufTy).Contents (Elt Ideal)) (x3 : (⟨S96x128, .f32⟩ : BufTy).Contents (Elt Ideal)) (x4 : (⟨S128, .f32⟩ : BufTy).Contents (Elt Ideal)) (x5 : (⟨S384x128, .f32⟩ : BufTy).Contents (Elt Ideal)) (x6 : (⟨S128, .f32⟩ : BufTy).Contents (Elt Ideal)) :
    dense384 (Cert.ReferenceIdeal.Read.val_main_v71 (F := Ideal) x0 x1 x2 x3 x4) x5 (shapeCast S1x128 x6 shapeCasts_S128_S1x128)
      = Cert.ReferenceIdeal.Read.val_main_v76 (F := Ideal) x0 x1 x2 x3 x4 x5 x6 := by
  funext i
  rw [Cert.ReferenceIdeal.Read.val_main_v76_apply, Cert.ReferenceIdeal.Read.val_main_v75_apply, Cert.ReferenceIdeal.Read.val_main_v72_apply,
    Cert.ReferenceIdeal.Read.val_main_v74_apply, Cert.ReferenceIdeal.Read.val_main_v73_apply,
    Cert.ReferenceIdeal.Read.val_main_call1_v0_apply, Cert.ReferenceIdeal.Read.val_main_call1_cst_apply]
  unfold dense384
  rw [bias_ref x6 i (Cert.ReferenceIdeal.Read.idx_main_v73 (Cert.ReferenceIdeal.Read.idx_main_v74 i)) rfl]
  rfl

/-- Layer 3: the reference's stage is `dense384` of its stacked features, weights and bias row. -/
theorem dense_ref3 (x0 : (⟨S100000x32, .f32⟩ : BufTy).Contents (Elt Ideal)) (x1 x2 : (⟨S1600000, .i32⟩ : BufTy).Contents (Elt Ideal)) (x3 : (⟨S96x128, .f32⟩ : BufTy).Contents (Elt Ideal)) (x4 : (⟨S128, .f32⟩ : BufTy).Contents (Elt Ideal)) (x5 : (⟨S384x128, .f32⟩ : BufTy).Contents (Elt Ideal)) (x6 : (⟨S128, .f32⟩ : BufTy).Contents (Elt Ideal)) (x7 : (⟨S384x128, .f32⟩ : BufTy).Contents (Elt Ideal)) (x8 : (⟨S128, .f32⟩ : BufTy).Contents (Elt Ideal)) :
    dense384 (Cert.ReferenceIdeal.Read.val_main_v105 (F := Ideal) x0 x1 x2 x3 x4 x5 x6) x7 (shapeCast S1x128 x8 shapeCasts_S128_S1x128)
      = Cert.ReferenceIdeal.Read.val_main_v110 (F := Ideal) x0 x1 x2 x3 x4 x5 x6 x7 x8 := by
  funext i
  rw [Cert.ReferenceIdeal.Read.val_main_v110_apply, Cert.ReferenceIdeal.Read.val_main_v109_apply, Cert.ReferenceIdeal.Read.val_main_v106_apply,
    Cert.ReferenceIdeal.Read.val_main_v108_apply, Cert.ReferenceIdeal.Read.val_main_v107_apply,
    Cert.ReferenceIdeal.Read.val_main_call2_v0_apply, Cert.ReferenceIdeal.Read.val_main_call2_cst_apply]
  unfold dense384
  rw [bias_ref x8 i (Cert.ReferenceIdeal.Read.idx_main_v107 (Cert.ReferenceIdeal.Read.idx_main_v108 i)) rfl]
  rfl

end Cert.KernelIdeal.Dense

end
-- ==== Proof.LibHostLine.lean ====
/-
  Two small tools for reading what a buffer holds after a line of host operations when the line contains a
  concatenation of three operands.  A concatenation takes its operands as a list of (shape, array) pairs together
  with a proof about the list's shapes, so a rewriting pass cannot enter the list; the congruence below splits such a
  goal into its three operands, each of which is then computed on its own.
-/
import Idealize.ShloMosaic.Lib.StableHlo.Run

namespace Cert.HostLine

open Idealize.ShloMosaic Idealize.ShloMosaic.StableHlo

/-- Two concatenations of three operands of the same shapes along the same axis are equal when the operands are. -/
theorem concat3_congr {α : Type} (t : Shape) (a : Fin t.rank) (s1 s2 s3 : Shape)
    (x1 y1 : s1.Idx → α) (x2 y2 : s2.Idx → α) (x3 y3 : s3.Idx → α) (h h')
    (e1 : x1 = y1) (e2 : x2 = y2) (e3 : x3 = y3) :
    concatenate t a [⟨s1, x1⟩, ⟨s2, x2⟩, ⟨s3, x3⟩] h = concatenate t a [⟨s1, y1⟩, ⟨s2, y2⟩, ⟨s3, y3⟩] h' := by
  subst e1 e2 e3; rfl

/-- An operand of a three-operand operation is read at the reference `![a, b, c] k`; at a literal `k` this reduces it
    to the reference itself (β first: the operand family is applied to the literal index). -/
macro "operand_ref" : tactic =>
  `(tactic| dsimp only [Matrix.cons_val_zero, Matrix.cons_val_one, Matrix.cons_val])

end Cert.HostLine
-- ==== Proof.LayerValues.lean ====
/-
  The three layers' outputs, one after the other, as the reference's own stages of the arguments.
  Before each region a host stretch builds the stacked features `[h, Â h, Â² h]` (scale by the degree
  normalisation, gather along the edges, sum into the target nodes, scale again; twice) and the bias as a row; the
  stretch is the reference's own operations, so its results are the reference's stages of the same inputs.  The
  region then leaves the dense stage of what it found, which is the reference's layer output; the next stretch reads
  it back.  A stacking is a concatenation of three operands: it is split into its operands, and each operand is
  computed operation by operation.
-/
import proofs.«103402_j18631568130049_1_alg».proof.Proof.DenseRef
import proofs.«103402_j18631568130049_1_alg».proof.Proof.LibHostLine
import Idealize.ShloMosaic.Lib.StableHlo.Run

set_option maxRecDepth 16384

noncomputable section

namespace Cert.KernelIdeal.Layers

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (c : Dev nD)

/-- The arguments' launch contents. -/
abbrev A0 := m ((c : Thread nD τ).loc main_arg0)
abbrev A1 := m ((c : Thread nD τ).loc main_arg1)
abbrev A2 := m ((c : Thread nD τ).loc main_arg2)
abbrev A3 := m ((c : Thread nD τ).loc main_arg3)
abbrev A4 := m ((c : Thread nD τ).loc main_arg4)
abbrev A5 := m ((c : Thread nD τ).loc main_arg5)
abbrev A6 := m ((c : Thread nD τ).loc main_arg6)
abbrev A7 := m ((c : Thread nD τ).loc main_arg7)
abbrev A8 := m ((c : Thread nD τ).loc main_arg8)

/-- The degree normalisation column, computed by the first stretch. -/
theorem norm0 : B1 m c (Proc.devRef .tc main_v8) = Cert.ReferenceIdeal.Read.val_main_v8 (F := Ideal) (A2 m c) := by
  show StableHlo.after (hostOps0 (F := Ideal)) (fun b => m ((c : Dev nD), b)) (Proc.devRef .tc main_v8) = _
  after_results_simp
  rfl

/-! ## Before region 0 -/

set_option maxHeartbeats 4000000 in
/-- The stacked features layer 1 multiplies. -/
theorem feats0 : B1 m c (Proc.devRef .tc main_v37) = Cert.ReferenceIdeal.Read.val_main_v37 (F := Ideal) (A0 m c) (A1 m c) (A2 m c) := by
  show StableHlo.after (hostOps0 (F := Ideal)) (fun b => m ((c : Dev nD), b)) (Proc.devRef .tc main_v37) = _
  simp only [after_cons, after_nil]
  rw [reshape_result_ne]; rotate_left; decide
  rw [nary_result]
  dsimp only
  unfold Cert.ReferenceIdeal.Read.val_main_v37
  refine Cert.HostLine.concat3_congr _ _ _ _ _ _ _ _ _ _ _ _ _ ?_ ?_ ?_
  · operand_ref
    after_results_simp
  · operand_ref
    after_results_simp
    rfl
  · operand_ref
    after_results_simp
    rfl

/-- Layer 1's bias as a row. -/
theorem bias0 : B1 m c (Proc.devRef .tc main_v38) = shapeCast S1x128 (A4 m c) shapeCasts_S128_S1x128 := by
  show StableHlo.after (hostOps0 (F := Ideal)) (fun b => m ((c : Dev nD), b)) (Proc.devRef .tc main_v38) = _
  after_results_simp
  rfl

/-- Layer 1's output. -/
theorem out1 : B2 m c (Proc.devRef .tc main_v39) = Cert.ReferenceIdeal.Read.val_main_v42 (F := Ideal) (A0 m c) (A1 m c) (A2 m c) (A3 m c) (A4 m c) := by
  refine (B2_arr m c 3).trans ((Dense.final0 (T1 m) c).trans ?_)
  rw [show T1 m c main_v37 = _ from feats0 m c, show T1 m c main_arg3 = A3 m c from B1_main_arg3 m c, show T1 m c main_v38 = _ from bias0 m c]
  exact Dense.dense_ref1 _ _ _ _ _

/-! ## Before region 1 -/

set_option maxHeartbeats 4000000 in
/-- The stacked features layer 2 multiplies. -/
theorem feats1 : B3 m c (Proc.devRef .tc main_v68) = Cert.ReferenceIdeal.Read.val_main_v71 (F := Ideal) (A0 m c) (A1 m c) (A2 m c) (A3 m c) (A4 m c) := by
  show StableHlo.after (hostOps1 (F := Ideal)) (B2 m c) (Proc.devRef .tc main_v68) = _
  simp only [after_cons, after_nil]
  rw [reshape_result_ne]; rotate_left; decide
  rw [nary_result]
  dsimp only
  unfold Cert.ReferenceIdeal.Read.val_main_v71
  refine Cert.HostLine.concat3_congr _ _ _ _ _ _ _ _ _ _ _ _ _ ?_ ?_ ?_
  · operand_ref
    after_results_simp
    exact out1 m c
  · operand_ref
    after_results_simp
    rw [out1 m c, B2_main_v8 m c, norm0 m c, B2_main_arg1 m c, B2_main_arg2 m c]
    rfl
  · operand_ref
    after_results_simp
    rw [out1 m c, B2_main_v8 m c, norm0 m c, B2_main_arg1 m c, B2_main_arg2 m c]
    rfl

/-- Layer 2's bias as a row. -/
theorem bias1 : B3 m c (Proc.devRef .tc main_v69) = shapeCast S1x128 (A6 m c) shapeCasts_S128_S1x128 := by
  show StableHlo.after (hostOps1 (F := Ideal)) (B2 m c) (Proc.devRef .tc main_v69) = _
  after_results_simp
  rw [B2_main_arg6 m c]
  rfl

/-- Layer 2's output. -/
theorem out2 : B4 m c (Proc.devRef .tc main_v70) = Cert.ReferenceIdeal.Read.val_main_v76 (F := Ideal) (A0 m c) (A1 m c) (A2 m c) (A3 m c) (A4 m c) (A5 m c) (A6 m c) := by
  refine (B4_arr m c 3).trans ((Dense.final1 (T3 m) c).trans ?_)
  rw [show T3 m c main_v68 = _ from feats1 m c, show T3 m c main_arg5 = A5 m c from B3_main_arg5 m c, show T3 m c main_v69 = _ from bias1 m c]
  exact Dense.dense_ref2 _ _ _ _ _ _ _

/-! ## Before region 2 -/

set_option maxHeartbeats 4000000 in
/-- The stacked features layer 3 multiplies. -/
theorem feats2 : B5 m c (Proc.devRef .tc main_v99) = Cert.ReferenceIdeal.Read.val_main_v105 (F := Ideal) (A0 m c) (A1 m c) (A2 m c) (A3 m c) (A4 m c) (A5 m c) (A6 m c) := by
  show StableHlo.after (hostOps2 (F := Ideal)) (B4 m c) (Proc.devRef .tc main_v99) = _
  simp only [after_cons, after_nil]
  rw [reshape_result_ne]; rotate_left; decide
  rw [nary_result]
  dsimp only
  unfold Cert.ReferenceIdeal.Read.val_main_v105
  refine Cert.HostLine.concat3_congr _ _ _ _ _ _ _ _ _ _ _ _ _ ?_ ?_ ?_
  · operand_ref
    after_results_simp
    exact out2 m c
  · operand_ref
    after_results_simp
    rw [out2 m c, B4_main_v8 m c, norm0 m c, B4_main_arg1 m c, B4_main_arg2 m c]
    rfl
  · operand_ref
    after_results_simp
    rw [out2 m c, B4_main_v8 m c, norm0 m c, B4_main_arg1 m c, B4_main_arg2 m c]
    rfl

/-- Layer 3's bias as a row. -/
theorem bias2 : B5 m c (Proc.devRef .tc main_v100) = shapeCast S1x128 (A8 m c) shapeCasts_S128_S1x128 := by
  show StableHlo.after (hostOps2 (F := Ideal)) (B4 m c) (Proc.devRef .tc main_v100) = _
  after_results_simp
  rw [B4_main_arg8 m c]
  rfl

/-- Layer 3's output. -/
theorem out3 : B6 m c (Proc.devRef .tc main_v101) = Cert.ReferenceIdeal.Read.val_main_v110 (F := Ideal) (A0 m c) (A1 m c) (A2 m c) (A3 m c) (A4 m c) (A5 m c) (A6 m c) (A7 m c) (A8 m c) := by
  refine (B6_arr m c 3).trans ((Dense.final2 (T5 m) c).trans ?_)
  rw [show T5 m c main_v99 = _ from feats2 m c, show T5 m c main_arg7 = A7 m c from B5_main_arg7 m c, show T5 m c main_v100 = _ from bias2 m c]
  exact Dense.dense_ref3 _ _ _ _ _ _ _ _ _

end Cert.KernelIdeal.Layers

end
-- ==== Proof.RefSegments.lean ====
/-
  The reference's line of 139 operations cut where the kernel program is cut: the three stackings of features (48, 35
  and 35 operations, each ending in the concatenation) and the three dense stages after them (7 operations each: the
  product, the bias broadcast twice, the sum, and the rectifier's zero, its broadcast and the maximum).  The six
  pieces, in order, are the line.
-/
import proofs.«103402_j18631568130049_1_alg».proof.Proof.RefOps
import Idealize.ShloMosaic.Lib.Pipeline.Frame

noncomputable section

namespace Cert.ReferenceIdeal.HostRun

open Cert.ReferenceIdeal Cert.ReferenceIdeal.Gen Cert.ReferenceIdeal.Value Idealize.ShloMosaic Idealize.ShloMosaic.TcCoe Idealize.SL.Sem Idealize.ShloMosaic.StableHlo

variable {F : FTy → Type} [FloatOps F]

/-- Piece 0: 48 operations. -/
abbrev stack0 : List (HloOp τ sig (Elt F)) :=
  [ nullary main_cst (constant S_ .f32 0x3F800000#32),
    unary main_cst main_v0 (broadcastInDim S1600000 ![] bcast_S_S1600000 : (⟨S_, .f32⟩ : BufTy).Contents (Elt F) → (⟨S1600000, .f32⟩ : BufTy).Contents (Elt F)),
    nullary main_cst_0 (constant S_ .f32 0x00000000#32),
    unary main_cst_0 main_v1 (broadcastInDim S100000 ![] bcast_S_S100000 : (⟨S_, .f32⟩ : BufTy).Contents (Elt F) → (⟨S100000, .f32⟩ : BufTy).Contents (Elt F)),
    unary main_arg2 main_v2 (broadcastInDim S1600000x1 ![0] bcast_S1600000_S1600000x1_0 : (⟨S1600000, .i32⟩ : BufTy).Contents (Elt F) → (⟨S1600000x1, .i32⟩ : BufTy).Contents (Elt F)),
    ternary main_v1 main_v2 main_v0 main_v3 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_1 (constant S_ .f32 0x3F800000#32),
    unary main_cst_1 main_v4 (broadcastInDim S100000 ![] bcast_S_S100000 : (⟨S_, .f32⟩ : BufTy).Contents (Elt F) → (⟨S100000, .f32⟩ : BufTy).Contents (Elt F)),
    binary main_v3 main_v4 main_v5 (maximumf : (⟨S100000, .f32⟩ : BufTy).Contents (Elt F) → (⟨S100000, .f32⟩ : BufTy).Contents (Elt F) → (⟨S100000, .f32⟩ : BufTy).Contents (Elt F)),
    nullary main_cst_2 (constant S_ .f32 0xBF000000#32),
    unary main_cst_2 main_v6 (broadcastInDim S100000 ![] bcast_S_S100000 : (⟨S_, .f32⟩ : BufTy).Contents (Elt F) → (⟨S100000, .f32⟩ : BufTy).Contents (Elt F)),
    binary main_v5 main_v6 main_v7 (Host.powf : (⟨S100000, .f32⟩ : BufTy).Contents (Elt F) → (⟨S100000, .f32⟩ : BufTy).Contents (Elt F) → (⟨S100000, .f32⟩ : BufTy).Contents (Elt F)),
    unary main_v7 main_v8 (broadcastInDim S100000x1 ![0] bcast_S100000_S100000x1_0 : (⟨S100000, .f32⟩ : BufTy).Contents (Elt F) → (⟨S100000x1, .f32⟩ : BufTy).Contents (Elt F)),
    unary main_v8 main_v9 (broadcastInDim S100000x32 ![0, 1] bcast_S100000x1_S100000x32_0_1 : (⟨S100000x1, .f32⟩ : BufTy).Contents (Elt F) → (⟨S100000x32, .f32⟩ : BufTy).Contents (Elt F)),
    binary main_arg0 main_v9 main_v10 (mulf : (⟨S100000x32, .f32⟩ : BufTy).Contents (Elt F) → (⟨S100000x32, .f32⟩ : BufTy).Contents (Elt F) → (⟨S100000x32, .f32⟩ : BufTy).Contents (Elt F)),
    nullary main_c (constantI S_ 32 0#32),
    unary main_c main_v11 (broadcastInDim S1600000 ![] bcast_S_S1600000 : (⟨S_, .i32⟩ : BufTy).Contents (Elt F) → (⟨S1600000, .i32⟩ : BufTy).Contents (Elt F)),
    binary main_arg1 main_v11 main_v12 (cmpi .slt : (⟨S1600000, .i32⟩ : BufTy).Contents (Elt F) → (⟨S1600000, .i32⟩ : BufTy).Contents (Elt F) → (⟨S1600000, .i1⟩ : BufTy).Contents (Elt F)),
    nullary main_c_3 (constantI S_ 32 100000#32),
    unary main_c_3 main_v13 (broadcastInDim S1600000 ![] bcast_S_S1600000 : (⟨S_, .i32⟩ : BufTy).Contents (Elt F) → (⟨S1600000, .i32⟩ : BufTy).Contents (Elt F)),
    binary main_arg1 main_v13 main_v14 (addi : (⟨S1600000, .i32⟩ : BufTy).Contents (Elt F) → (⟨S1600000, .i32⟩ : BufTy).Contents (Elt F) → (⟨S1600000, .i32⟩ : BufTy).Contents (Elt F)),
    ternary main_v12 main_v14 main_arg1 main_v15 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v15 main_v16 (broadcastInDim S1600000x1 ![0] bcast_S1600000_S1600000x1_0 : (⟨S1600000, .i32⟩ : BufTy).Contents (Elt F) → (⟨S1600000x1, .i32⟩ : BufTy).Contents (Elt F)),
    binary main_v10 main_v16 main_v17 ((fun x i => Host.gather gather_S100000x32_S1600000x1_S1600000x32_1_0_n_n_0_1_132 x i) : (⟨S100000x32, .f32⟩ : BufTy).Contents (Elt F) → (⟨S1600000x1, .i32⟩ : BufTy).Contents (Elt F) → (⟨S1600000x32, .f32⟩ : BufTy).Contents (Elt F)),
    nullary main_cst_4 (constant S_ .f32 0x00000000#32),
    unary main_cst_4 main_v18 (broadcastInDim S100000x32 ![] bcast_S_S100000x32 : (⟨S_, .f32⟩ : BufTy).Contents (Elt F) → (⟨S100000x32, .f32⟩ : BufTy).Contents (Elt F)),
    unary main_arg2 main_v19 (broadcastInDim S1600000x1 ![0] bcast_S1600000_S1600000x1_0 : (⟨S1600000, .i32⟩ : BufTy).Contents (Elt F) → (⟨S1600000x1, .i32⟩ : BufTy).Contents (Elt F)),
    ternary main_v18 main_v19 main_v17 main_v20 ((fun x i u => Host.scatterAdd scatter_S100000x32_S1600000x1_S1600000x32_1_0_0_1 x i u) : (⟨S100000x32, .f32⟩ : BufTy).Contents (Elt F) → (⟨S1600000x1, .i32⟩ : BufTy).Contents (Elt F) → (⟨S1600000x32, .f32⟩ : BufTy).Contents (Elt F) → (⟨S100000x32, .f32⟩ : BufTy).Contents (Elt F)),
    unary main_v8 main_v21 (broadcastInDim S100000x32 ![0, 1] bcast_S100000x1_S100000x32_0_1 : (⟨S100000x1, .f32⟩ : BufTy).Contents (Elt F) → (⟨S100000x32, .f32⟩ : BufTy).Contents (Elt F)),
    binary main_v20 main_v21 main_v22 (mulf : (⟨S100000x32, .f32⟩ : BufTy).Contents (Elt F) → (⟨S100000x32, .f32⟩ : BufTy).Contents (Elt F) → (⟨S100000x32, .f32⟩ : BufTy).Contents (Elt F)),
    unary main_v8 main_v23 (broadcastInDim S100000x32 ![0, 1] bcast_S100000x1_S100000x32_0_1 : (⟨S100000x1, .f32⟩ : BufTy).Contents (Elt F) → (⟨S100000x32, .f32⟩ : BufTy).Contents (Elt F)),
    binary main_v22 main_v23 main_v24 (mulf : (⟨S100000x32, .f32⟩ : BufTy).Contents (Elt F) → (⟨S100000x32, .f32⟩ : BufTy).Contents (Elt F) → (⟨S100000x32, .f32⟩ : BufTy).Contents (Elt F)),
    nullary main_c_5 (constantI S_ 32 0#32),
    unary main_c_5 main_v25 (broadcastInDim S1600000 ![] bcast_S_S1600000 : (⟨S_, .i32⟩ : BufTy).Contents (Elt F) → (⟨S1600000, .i32⟩ : BufTy).Contents (Elt F)),
    binary main_arg1 main_v25 main_v26 (cmpi .slt : (⟨S1600000, .i32⟩ : BufTy).Contents (Elt F) → (⟨S1600000, .i32⟩ : BufTy).Contents (Elt F) → (⟨S1600000, .i1⟩ : BufTy).Contents (Elt F)),
    nullary main_c_6 (constantI S_ 32 100000#32),
    unary main_c_6 main_v27 (broadcastInDim S1600000 ![] bcast_S_S1600000 : (⟨S_, .i32⟩ : BufTy).Contents (Elt F) → (⟨S1600000, .i32⟩ : BufTy).Contents (Elt F)),
    binary main_arg1 main_v27 main_v28 (addi : (⟨S1600000, .i32⟩ : BufTy).Contents (Elt F) → (⟨S1600000, .i32⟩ : BufTy).Contents (Elt F) → (⟨S1600000, .i32⟩ : BufTy).Contents (Elt F)),
    ternary main_v26 main_v28 main_arg1 main_v29 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v29 main_v30 (broadcastInDim S1600000x1 ![0] bcast_S1600000_S1600000x1_0 : (⟨S1600000, .i32⟩ : BufTy).Contents (Elt F) → (⟨S1600000x1, .i32⟩ : BufTy).Contents (Elt F)),
    binary main_v24 main_v30 main_v31 ((fun x i => Host.gather gather_S100000x32_S1600000x1_S1600000x32_1_0_n_n_0_1_132 x i) : (⟨S100000x32, .f32⟩ : BufTy).Contents (Elt F) → (⟨S1600000x1, .i32⟩ : BufTy).Contents (Elt F) → (⟨S1600000x32, .f32⟩ : BufTy).Contents (Elt F)),
    nullary main_cst_7 (constant S_ .f32 0x00000000#32),
    unary main_cst_7 main_v32 (broadcastInDim S100000x32 ![] bcast_S_S100000x32 : (⟨S_, .f32⟩ : BufTy).Contents (Elt F) → (⟨S100000x32, .f32⟩ : BufTy).Contents (Elt F)),
    unary main_arg2 main_v33 (broadcastInDim S1600000x1 ![0] bcast_S1600000_S1600000x1_0 : (⟨S1600000, .i32⟩ : BufTy).Contents (Elt F) → (⟨S1600000x1, .i32⟩ : BufTy).Contents (Elt F)),
    ternary main_v32 main_v33 main_v31 main_v34 ((fun x i u => Host.scatterAdd scatter_S100000x32_S1600000x1_S1600000x32_1_0_0_1 x i u) : (⟨S100000x32, .f32⟩ : BufTy).Contents (Elt F) → (⟨S1600000x1, .i32⟩ : BufTy).Contents (Elt F) → (⟨S1600000x32, .f32⟩ : BufTy).Contents (Elt F) → (⟨S100000x32, .f32⟩ : BufTy).Contents (Elt F)),
    unary main_v8 main_v35 (broadcastInDim S100000x32 ![0, 1] bcast_S100000x1_S100000x32_0_1 : (⟨S100000x1, .f32⟩ : BufTy).Contents (Elt F) → (⟨S100000x32, .f32⟩ : BufTy).Contents (Elt F)),
    binary main_v34 main_v35 main_v36 (mulf : (⟨S100000x32, .f32⟩ : BufTy).Contents (Elt F) → (⟨S100000x32, .f32⟩ : BufTy).Contents (Elt F) → (⟨S100000x32, .f32⟩ : BufTy).Contents (Elt F)),
    nary ![main_arg0, main_v22, main_v36] main_v37 (fun u => concatenate S100000x96 1 [⟨S100000x32, u 0⟩, ⟨S100000x32, u 1⟩, ⟨S100000x32, u 2⟩] concatenates_S100000x32_S100000x32_S100000x32_S100000x96_d1) ]

/-- Piece 1: 7 operations. -/
abbrev dense0 : List (HloOp τ sig (Elt F)) :=
  [ binary main_v37 main_arg3 main_v38 ((fun l r => Host.dotGeneral dot_S100000x96_S96x128_S100000x128_1_0_0_1_n_n none l r) : (⟨S100000x96, .f32⟩ : BufTy).Contents (Elt F) → (⟨S96x128, .f32⟩ : BufTy).Contents (Elt F) → (⟨S100000x128, .f32⟩ : BufTy).Contents (Elt F)),
    unary main_arg4 main_v39 (broadcastInDim S1x128 ![1] bcast_S128_S1x128_1 : (⟨S128, .f32⟩ : BufTy).Contents (Elt F) → (⟨S1x128, .f32⟩ : BufTy).Contents (Elt F)),
    unary main_v39 main_v40 (broadcastInDim S100000x128 ![0, 1] bcast_S1x128_S100000x128_0_1 : (⟨S1x128, .f32⟩ : BufTy).Contents (Elt F) → (⟨S100000x128, .f32⟩ : BufTy).Contents (Elt F)),
    binary main_v38 main_v40 main_v41 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x128, .f32⟩) main_call0_v0) (broadcastInDim S100000x128 ![] bcast_S_S100000x128),
    TRef.binary (TRef.of (T := ⟨S100000x128, .f32⟩) main_v41) (TRef.of (T := ⟨S100000x128, .f32⟩) main_call0_v0) (TRef.of (T := ⟨S100000x128, .f32⟩) main_v42) maximumf ]

/-- Piece 2: 35 operations. -/
abbrev stack1 : List (HloOp τ sig (Elt F)) :=
  [ unary main_v8 main_v43 (broadcastInDim S100000x128 ![0, 1] bcast_S100000x1_S100000x128_0_1 : (⟨S100000x1, .f32⟩ : BufTy).Contents (Elt F) → (⟨S100000x128, .f32⟩ : BufTy).Contents (Elt F)),
    binary main_v42 main_v43 main_v44 (mulf : (⟨S100000x128, .f32⟩ : BufTy).Contents (Elt F) → (⟨S100000x128, .f32⟩ : BufTy).Contents (Elt F) → (⟨S100000x128, .f32⟩ : BufTy).Contents (Elt F)),
    nullary main_c_8 (constantI S_ 32 0#32),
    unary main_c_8 main_v45 (broadcastInDim S1600000 ![] bcast_S_S1600000 : (⟨S_, .i32⟩ : BufTy).Contents (Elt F) → (⟨S1600000, .i32⟩ : BufTy).Contents (Elt F)),
    binary main_arg1 main_v45 main_v46 (cmpi .slt : (⟨S1600000, .i32⟩ : BufTy).Contents (Elt F) → (⟨S1600000, .i32⟩ : BufTy).Contents (Elt F) → (⟨S1600000, .i1⟩ : BufTy).Contents (Elt F)),
    nullary main_c_9 (constantI S_ 32 100000#32),
    unary main_c_9 main_v47 (broadcastInDim S1600000 ![] bcast_S_S1600000 : (⟨S_, .i32⟩ : BufTy).Contents (Elt F) → (⟨S1600000, .i32⟩ : BufTy).Contents (Elt F)),
    binary main_arg1 main_v47 main_v48 (addi : (⟨S1600000, .i32⟩ : BufTy).Contents (Elt F) → (⟨S1600000, .i32⟩ : BufTy).Contents (Elt F) → (⟨S1600000, .i32⟩ : BufTy).Contents (Elt F)),
    ternary main_v46 main_v48 main_arg1 main_v49 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v49 main_v50 (broadcastInDim S1600000x1 ![0] bcast_S1600000_S1600000x1_0 : (⟨S1600000, .i32⟩ : BufTy).Contents (Elt F) → (⟨S1600000x1, .i32⟩ : BufTy).Contents (Elt F)),
    binary main_v44 main_v50 main_v51 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_10 (constant S_ .f32 0x00000000#32),
    unary main_cst_10 main_v52 (broadcastInDim S100000x128 ![] bcast_S_S100000x128 : (⟨S_, .f32⟩ : BufTy).Contents (Elt F) → (⟨S100000x128, .f32⟩ : BufTy).Contents (Elt F)),
    unary main_arg2 main_v53 (broadcastInDim S1600000x1 ![0] bcast_S1600000_S1600000x1_0 : (⟨S1600000, .i32⟩ : BufTy).Contents (Elt F) → (⟨S1600000x1, .i32⟩ : BufTy).Contents (Elt F)),
    ternary main_v52 main_v53 main_v51 main_v54 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    unary main_v8 main_v55 (broadcastInDim S100000x128 ![0, 1] bcast_S100000x1_S100000x128_0_1 : (⟨S100000x1, .f32⟩ : BufTy).Contents (Elt F) → (⟨S100000x128, .f32⟩ : BufTy).Contents (Elt F)),
    binary main_v54 main_v55 main_v56 (mulf : (⟨S100000x128, .f32⟩ : BufTy).Contents (Elt F) → (⟨S100000x128, .f32⟩ : BufTy).Contents (Elt F) → (⟨S100000x128, .f32⟩ : BufTy).Contents (Elt F)),
    unary main_v8 main_v57 (broadcastInDim S100000x128 ![0, 1] bcast_S100000x1_S100000x128_0_1 : (⟨S100000x1, .f32⟩ : BufTy).Contents (Elt F) → (⟨S100000x128, .f32⟩ : BufTy).Contents (Elt F)),
    binary main_v56 main_v57 main_v58 (mulf : (⟨S100000x128, .f32⟩ : BufTy).Contents (Elt F) → (⟨S100000x128, .f32⟩ : BufTy).Contents (Elt F) → (⟨S100000x128, .f32⟩ : BufTy).Contents (Elt F)),
    nullary main_c_11 (constantI S_ 32 0#32),
    unary main_c_11 main_v59 (broadcastInDim S1600000 ![] bcast_S_S1600000 : (⟨S_, .i32⟩ : BufTy).Contents (Elt F) → (⟨S1600000, .i32⟩ : BufTy).Contents (Elt F)),
    binary main_arg1 main_v59 main_v60 (cmpi .slt : (⟨S1600000, .i32⟩ : BufTy).Contents (Elt F) → (⟨S1600000, .i32⟩ : BufTy).Contents (Elt F) → (⟨S1600000, .i1⟩ : BufTy).Contents (Elt F)),
    nullary main_c_12 (constantI S_ 32 100000#32),
    unary main_c_12 main_v61 (broadcastInDim S1600000 ![] bcast_S_S1600000 : (⟨S_, .i32⟩ : BufTy).Contents (Elt F) → (⟨S1600000, .i32⟩ : BufTy).Contents (Elt F)),
    binary main_arg1 main_v61 main_v62 (addi : (⟨S1600000, .i32⟩ : BufTy).Contents (Elt F) → (⟨S1600000, .i32⟩ : BufTy).Contents (Elt F) → (⟨S1600000, .i32⟩ : BufTy).Contents (Elt F)),
    ternary main_v60 main_v62 main_arg1 main_v63 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v63 main_v64 (broadcastInDim S1600000x1 ![0] bcast_S1600000_S1600000x1_0 : (⟨S1600000, .i32⟩ : BufTy).Contents (Elt F) → (⟨S1600000x1, .i32⟩ : BufTy).Contents (Elt F)),
    binary main_v58 main_v64 main_v65 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_13 (constant S_ .f32 0x00000000#32),
    unary main_cst_13 main_v66 (broadcastInDim S100000x128 ![] bcast_S_S100000x128 : (⟨S_, .f32⟩ : BufTy).Contents (Elt F) → (⟨S100000x128, .f32⟩ : BufTy).Contents (Elt F)),
    unary main_arg2 main_v67 (broadcastInDim S1600000x1 ![0] bcast_S1600000_S1600000x1_0 : (⟨S1600000, .i32⟩ : BufTy).Contents (Elt F) → (⟨S1600000x1, .i32⟩ : BufTy).Contents (Elt F)),
    ternary main_v66 main_v67 main_v65 main_v68 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    unary main_v8 main_v69 (broadcastInDim S100000x128 ![0, 1] bcast_S100000x1_S100000x128_0_1 : (⟨S100000x1, .f32⟩ : BufTy).Contents (Elt F) → (⟨S100000x128, .f32⟩ : BufTy).Contents (Elt F)),
    binary main_v68 main_v69 main_v70 (mulf : (⟨S100000x128, .f32⟩ : BufTy).Contents (Elt F) → (⟨S100000x128, .f32⟩ : BufTy).Contents (Elt F) → (⟨S100000x128, .f32⟩ : BufTy).Contents (Elt F)),
    nary ![main_v42, main_v56, main_v70] main_v71 (fun u => concatenate S100000x384 1 [⟨S100000x128, u 0⟩, ⟨S100000x128, u 1⟩, ⟨S100000x128, u 2⟩] concatenates_S100000x128_S100000x128_S100000x128_S100000x384_d1) ]

/-- Piece 3: 7 operations. -/
abbrev dense1 : List (HloOp τ sig (Elt F)) :=
  [ binary main_v71 main_arg5 main_v72 ((fun l r => Host.dotGeneral dot_S100000x384_S384x128_S100000x128_1_0_0_1_n_n none l r) : (⟨S100000x384, .f32⟩ : BufTy).Contents (Elt F) → (⟨S384x128, .f32⟩ : BufTy).Contents (Elt F) → (⟨S100000x128, .f32⟩ : BufTy).Contents (Elt F)),
    unary main_arg6 main_v73 (broadcastInDim S1x128 ![1] bcast_S128_S1x128_1 : (⟨S128, .f32⟩ : BufTy).Contents (Elt F) → (⟨S1x128, .f32⟩ : BufTy).Contents (Elt F)),
    unary main_v73 main_v74 (broadcastInDim S100000x128 ![0, 1] bcast_S1x128_S100000x128_0_1 : (⟨S1x128, .f32⟩ : BufTy).Contents (Elt F) → (⟨S100000x128, .f32⟩ : BufTy).Contents (Elt F)),
    binary main_v72 main_v74 main_v75 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v75) (TRef.of (T := ⟨S100000x128, .f32⟩) main_call1_v0) (TRef.of (T := ⟨S100000x128, .f32⟩) main_v76) maximumf ]

/-- Piece 4: 35 operations. -/
abbrev stack2 : List (HloOp τ sig (Elt F)) :=
  [ unary main_v8 main_v77 (broadcastInDim S100000x128 ![0, 1] bcast_S100000x1_S100000x128_0_1 : (⟨S100000x1, .f32⟩ : BufTy).Contents (Elt F) → (⟨S100000x128, .f32⟩ : BufTy).Contents (Elt F)),
    binary main_v76 main_v77 main_v78 (mulf : (⟨S100000x128, .f32⟩ : BufTy).Contents (Elt F) → (⟨S100000x128, .f32⟩ : BufTy).Contents (Elt F) → (⟨S100000x128, .f32⟩ : BufTy).Contents (Elt F)),
    nullary main_c_14 (constantI S_ 32 0#32),
    unary main_c_14 main_v79 (broadcastInDim S1600000 ![] bcast_S_S1600000 : (⟨S_, .i32⟩ : BufTy).Contents (Elt F) → (⟨S1600000, .i32⟩ : BufTy).Contents (Elt F)),
    binary main_arg1 main_v79 main_v80 (cmpi .slt : (⟨S1600000, .i32⟩ : BufTy).Contents (Elt F) → (⟨S1600000, .i32⟩ : BufTy).Contents (Elt F) → (⟨S1600000, .i1⟩ : BufTy).Contents (Elt F)),
    nullary main_c_15 (constantI S_ 32 100000#32),
    unary main_c_15 main_v81 (broadcastInDim S1600000 ![] bcast_S_S1600000 : (⟨S_, .i32⟩ : BufTy).Contents (Elt F) → (⟨S1600000, .i32⟩ : BufTy).Contents (Elt F)),
    binary main_arg1 main_v81 main_v82 (addi : (⟨S1600000, .i32⟩ : BufTy).Contents (Elt F) → (⟨S1600000, .i32⟩ : BufTy).Contents (Elt F) → (⟨S1600000, .i32⟩ : BufTy).Contents (Elt F)),
    ternary main_v80 main_v82 main_arg1 main_v83 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v83 main_v84 (broadcastInDim S1600000x1 ![0] bcast_S1600000_S1600000x1_0 : (⟨S1600000, .i32⟩ : BufTy).Contents (Elt F) → (⟨S1600000x1, .i32⟩ : BufTy).Contents (Elt F)),
    binary main_v78 main_v84 main_v85 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_16 (constant S_ .f32 0x00000000#32),
    unary main_cst_16 main_v86 (broadcastInDim S100000x128 ![] bcast_S_S100000x128 : (⟨S_, .f32⟩ : BufTy).Contents (Elt F) → (⟨S100000x128, .f32⟩ : BufTy).Contents (Elt F)),
    unary main_arg2 main_v87 (broadcastInDim S1600000x1 ![0] bcast_S1600000_S1600000x1_0 : (⟨S1600000, .i32⟩ : BufTy).Contents (Elt F) → (⟨S1600000x1, .i32⟩ : BufTy).Contents (Elt F)),
    ternary main_v86 main_v87 main_v85 main_v88 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    unary main_v8 main_v89 (broadcastInDim S100000x128 ![0, 1] bcast_S100000x1_S100000x128_0_1 : (⟨S100000x1, .f32⟩ : BufTy).Contents (Elt F) → (⟨S100000x128, .f32⟩ : BufTy).Contents (Elt F)),
    binary main_v88 main_v89 main_v90 (mulf : (⟨S100000x128, .f32⟩ : BufTy).Contents (Elt F) → (⟨S100000x128, .f32⟩ : BufTy).Contents (Elt F) → (⟨S100000x128, .f32⟩ : BufTy).Contents (Elt F)),
    unary main_v8 main_v91 (broadcastInDim S100000x128 ![0, 1] bcast_S100000x1_S100000x128_0_1 : (⟨S100000x1, .f32⟩ : BufTy).Contents (Elt F) → (⟨S100000x128, .f32⟩ : BufTy).Contents (Elt F)),
    binary main_v90 main_v91 main_v92 (mulf : (⟨S100000x128, .f32⟩ : BufTy).Contents (Elt F) → (⟨S100000x128, .f32⟩ : BufTy).Contents (Elt F) → (⟨S100000x128, .f32⟩ : BufTy).Contents (Elt F)),
    nullary main_c_17 (constantI S_ 32 0#32),
    unary main_c_17 main_v93 (broadcastInDim S1600000 ![] bcast_S_S1600000 : (⟨S_, .i32⟩ : BufTy).Contents (Elt F) → (⟨S1600000, .i32⟩ : BufTy).Contents (Elt F)),
    binary main_arg1 main_v93 main_v94 (cmpi .slt : (⟨S1600000, .i32⟩ : BufTy).Contents (Elt F) → (⟨S1600000, .i32⟩ : BufTy).Contents (Elt F) → (⟨S1600000, .i1⟩ : BufTy).Contents (Elt F)),
    nullary main_c_18 (constantI S_ 32 100000#32),
    unary main_c_18 main_v95 (broadcastInDim S1600000 ![] bcast_S_S1600000 : (⟨S_, .i32⟩ : BufTy).Contents (Elt F) → (⟨S1600000, .i32⟩ : BufTy).Contents (Elt F)),
    binary main_arg1 main_v95 main_v96 (addi : (⟨S1600000, .i32⟩ : BufTy).Contents (Elt F) → (⟨S1600000, .i32⟩ : BufTy).Contents (Elt F) → (⟨S1600000, .i32⟩ : BufTy).Contents (Elt F)),
    ternary main_v94 main_v96 main_arg1 main_v97 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v97 main_v98 (broadcastInDim S1600000x1 ![0] bcast_S1600000_S1600000x1_0 : (⟨S1600000, .i32⟩ : BufTy).Contents (Elt F) → (⟨S1600000x1, .i32⟩ : BufTy).Contents (Elt F)),
    binary main_v92 main_v98 main_v99 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_19 (constant S_ .f32 0x00000000#32),
    unary main_cst_19 main_v100 (broadcastInDim S100000x128 ![] bcast_S_S100000x128 : (⟨S_, .f32⟩ : BufTy).Contents (Elt F) → (⟨S100000x128, .f32⟩ : BufTy).Contents (Elt F)),
    unary main_arg2 main_v101 (broadcastInDim S1600000x1 ![0] bcast_S1600000_S1600000x1_0 : (⟨S1600000, .i32⟩ : BufTy).Contents (Elt F) → (⟨S1600000x1, .i32⟩ : BufTy).Contents (Elt F)),
    ternary main_v100 main_v101 main_v99 main_v102 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    unary main_v8 main_v103 (broadcastInDim S100000x128 ![0, 1] bcast_S100000x1_S100000x128_0_1 : (⟨S100000x1, .f32⟩ : BufTy).Contents (Elt F) → (⟨S100000x128, .f32⟩ : BufTy).Contents (Elt F)),
    binary main_v102 main_v103 main_v104 (mulf : (⟨S100000x128, .f32⟩ : BufTy).Contents (Elt F) → (⟨S100000x128, .f32⟩ : BufTy).Contents (Elt F) → (⟨S100000x128, .f32⟩ : BufTy).Contents (Elt F)),
    nary ![main_v76, main_v90, main_v104] main_v105 (fun u => concatenate S100000x384 1 [⟨S100000x128, u 0⟩, ⟨S100000x128, u 1⟩, ⟨S100000x128, u 2⟩] concatenates_S100000x128_S100000x128_S100000x128_S100000x384_d1) ]

/-- Piece 5: 7 operations. -/
abbrev dense2 : List (HloOp τ sig (Elt F)) :=
  [ binary main_v105 main_arg7 main_v106 ((fun l r => Host.dotGeneral dot_S100000x384_S384x128_S100000x128_1_0_0_1_n_n none l r) : (⟨S100000x384, .f32⟩ : BufTy).Contents (Elt F) → (⟨S384x128, .f32⟩ : BufTy).Contents (Elt F) → (⟨S100000x128, .f32⟩ : BufTy).Contents (Elt F)),
    unary main_arg8 main_v107 (broadcastInDim S1x128 ![1] bcast_S128_S1x128_1 : (⟨S128, .f32⟩ : BufTy).Contents (Elt F) → (⟨S1x128, .f32⟩ : BufTy).Contents (Elt F)),
    unary main_v107 main_v108 (broadcastInDim S100000x128 ![0, 1] bcast_S1x128_S100000x128_0_1 : (⟨S1x128, .f32⟩ : BufTy).Contents (Elt F) → (⟨S100000x128, .f32⟩ : BufTy).Contents (Elt F)),
    binary main_v106 main_v108 main_v109 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x128, .f32⟩) main_call2_v0) (broadcastInDim S100000x128 ![] bcast_S_S100000x128),
    TRef.binary (TRef.of (T := ⟨S100000x128, .f32⟩) main_v109) (TRef.of (T := ⟨S100000x128, .f32⟩) main_call2_v0) (TRef.of (T := ⟨S100000x128, .f32⟩) main_v110) maximumf ]

set_option maxRecDepth 8192 in
/-- The line is its six pieces in order. -/
theorem ops_split : (ops : List (HloOp τ sig (Elt F))) = stack0 ++ (dense0 ++ (stack1 ++ (dense1 ++ (stack2 ++ dense2)))) := rfl

end Cert.ReferenceIdeal.HostRun

end
-- ==== Proof.RefRun.lean ====
/-
  The reference's run, piece by piece.  The reference is one line of 139 host operations; every execution ends with
  each buffer at what the line computes from the launch memory.  The line is cut into the three stackings and the
  three dense stages; what each piece leaves in the buffers the next piece reads is the corresponding stage of the
  staged reading of the program, so the result buffer ends at the last stage — the third layer's rectified output
  as a function of the nine arguments — and no operation writes an argument.
-/
import proofs.«103402_j18631568130049_1_alg».proof.Proof.RefSegments
import proofs.«103402_j18631568130049_1_alg».proof.Proof.RefRead
import proofs.«103402_j18631568130049_1_alg».proof.Proof.LibHostLine

set_option maxRecDepth 16384

noncomputable section

namespace Cert.ReferenceIdeal.HostRun

open Cert.ReferenceIdeal Cert.ReferenceIdeal.Gen Cert.ReferenceIdeal.Value
open Idealize.ShloMosaic Idealize.ShloMosaic.TcCoe Idealize.SL.Sem Idealize.ShloMosaic.StableHlo

variable (m : (ℓ : Loc nD τ sig) → Buf (Elt Ideal) ℓ) (c : Dev nD)

/-- The arguments' launch contents. -/
abbrev X0 := m ((c.tc : Thread nD τ).loc main_arg0)
abbrev X1 := m ((c.tc : Thread nD τ).loc main_arg1)
abbrev X2 := m ((c.tc : Thread nD τ).loc main_arg2)
abbrev X3 := m ((c.tc : Thread nD τ).loc main_arg3)
abbrev X4 := m ((c.tc : Thread nD τ).loc main_arg4)
abbrev X5 := m ((c.tc : Thread nD τ).loc main_arg5)
abbrev X6 := m ((c.tc : Thread nD τ).loc main_arg6)
abbrev X7 := m ((c.tc : Thread nD τ).loc main_arg7)
abbrev X8 := m ((c.tc : Thread nD τ).loc main_arg8)

/-! ## The buffers' contents after each piece -/

/-- At launch. -/
def R0 : Valuation τ sig (Elt Ideal) := launchContents m c
/-- After piece 0. -/
def R1 : Valuation τ sig (Elt Ideal) := StableHlo.after (stack0 (F := Ideal)) (R0 m c)
/-- After piece 1. -/
def R2 : Valuation τ sig (Elt Ideal) := StableHlo.after (dense0 (F := Ideal)) (R1 m c)
/-- After piece 2. -/
def R3 : Valuation τ sig (Elt Ideal) := StableHlo.after (stack1 (F := Ideal)) (R2 m c)
/-- After piece 3. -/
def R4 : Valuation τ sig (Elt Ideal) := StableHlo.after (dense1 (F := Ideal)) (R3 m c)
/-- After piece 4. -/
def R5 : Valuation τ sig (Elt Ideal) := StableHlo.after (stack2 (F := Ideal)) (R4 m c)
/-- After piece 5. -/
def R6 : Valuation τ sig (Elt Ideal) := StableHlo.after (dense2 (F := Ideal)) (R5 m c)

theorem R0_arg (b : Ref sig .tc) : R0 m c (Proc.devRef .tc b) = m ((c.tc : Thread nD τ).loc b) := rfl
theorem R1_arg1 : R1 m c (Proc.devRef .tc main_arg1) = X1 m c := by
  unfold R1; after_results_simp; exact R0_arg m c main_arg1
theorem R2_arg1 : R2 m c (Proc.devRef .tc main_arg1) = X1 m c := by
  unfold R2; after_results_simp; exact R1_arg1 m c
theorem R3_arg1 : R3 m c (Proc.devRef .tc main_arg1) = X1 m c := by
  unfold R3; after_results_simp; exact R2_arg1 m c
theorem R4_arg1 : R4 m c (Proc.devRef .tc main_arg1) = X1 m c := by
  unfold R4; after_results_simp; exact R3_arg1 m c
theorem R1_arg2 : R1 m c (Proc.devRef .tc main_arg2) = X2 m c := by
  unfold R1; after_results_simp; exact R0_arg m c main_arg2
theorem R2_arg2 : R2 m c (Proc.devRef .tc main_arg2) = X2 m c := by
  unfold R2; after_results_simp; exact R1_arg2 m c
theorem R3_arg2 : R3 m c (Proc.devRef .tc main_arg2) = X2 m c := by
  unfold R3; after_results_simp; exact R2_arg2 m c
theorem R4_arg2 : R4 m c (Proc.devRef .tc main_arg2) = X2 m c := by
  unfold R4; after_results_simp; exact R3_arg2 m c
theorem R1_arg3 : R1 m c (Proc.devRef .tc main_arg3) = X3 m c := by
  unfold R1; after_results_simp; exact R0_arg m c main_arg3
theorem R1_arg4 : R1 m c (Proc.devRef .tc main_arg4) = X4 m c := by
  unfold R1; after_results_simp; exact R0_arg m c main_arg4
theorem R1_arg5 : R1 m c (Proc.devRef .tc main_arg5) = X5 m c := by
  unfold R1; after_results_simp; exact R0_arg m c main_arg5
theorem R2_arg5 : R2 m c (Proc.devRef .tc main_arg5) = X5 m c := by
  unfold R2; after_results_simp; exact R1_arg5 m c
theorem R3_arg5 : R3 m c (Proc.devRef .tc main_arg5) = X5 m c := by
  unfold R3; after_results_simp; exact R2_arg5 m c
theorem R1_arg6 : R1 m c (Proc.devRef .tc main_arg6) = X6 m c := by
  unfold R1; after_results_simp; exact R0_arg m c main_arg6
theorem R2_arg6 : R2 m c (Proc.devRef .tc main_arg6) = X6 m c := by
  unfold R2; after_results_simp; exact R1_arg6 m c
theorem R3_arg6 : R3 m c (Proc.devRef .tc main_arg6) = X6 m c := by
  unfold R3; after_results_simp; exact R2_arg6 m c
theorem R1_arg7 : R1 m c (Proc.devRef .tc main_arg7) = X7 m c := by
  unfold R1; after_results_simp; exact R0_arg m c main_arg7
theorem R2_arg7 : R2 m c (Proc.devRef .tc main_arg7) = X7 m c := by
  unfold R2; after_results_simp; exact R1_arg7 m c
theorem R3_arg7 : R3 m c (Proc.devRef .tc main_arg7) = X7 m c := by
  unfold R3; after_results_simp; exact R2_arg7 m c
theorem R4_arg7 : R4 m c (Proc.devRef .tc main_arg7) = X7 m c := by
  unfold R4; after_results_simp; exact R3_arg7 m c
theorem R5_arg7 : R5 m c (Proc.devRef .tc main_arg7) = X7 m c := by
  unfold R5; after_results_simp; exact R4_arg7 m c
theorem R1_arg8 : R1 m c (Proc.devRef .tc main_arg8) = X8 m c := by
  unfold R1; after_results_simp; exact R0_arg m c main_arg8
theorem R2_arg8 : R2 m c (Proc.devRef .tc main_arg8) = X8 m c := by
  unfold R2; after_results_simp; exact R1_arg8 m c
theorem R3_arg8 : R3 m c (Proc.devRef .tc main_arg8) = X8 m c := by
  unfold R3; after_results_simp; exact R2_arg8 m c
theorem R4_arg8 : R4 m c (Proc.devRef .tc main_arg8) = X8 m c := by
  unfold R4; after_results_simp; exact R3_arg8 m c
theorem R5_arg8 : R5 m c (Proc.devRef .tc main_arg8) = X8 m c := by
  unfold R5; after_results_simp; exact R4_arg8 m c

/-- The degree normalisation column, computed by the first stacking and kept by the later pieces. -/
theorem R1_norm : R1 m c (Proc.devRef .tc main_v8) = Cert.ReferenceIdeal.Read.val_main_v8 (F := Ideal) (X2 m c) := by
  unfold R1; after_results_simp; rfl
theorem R2_norm : R2 m c (Proc.devRef .tc main_v8) = Cert.ReferenceIdeal.Read.val_main_v8 (F := Ideal) (X2 m c) := by
  unfold R2; after_results_simp; exact R1_norm m c
theorem R3_norm : R3 m c (Proc.devRef .tc main_v8) = Cert.ReferenceIdeal.Read.val_main_v8 (F := Ideal) (X2 m c) := by
  unfold R3; after_results_simp; exact R2_norm m c
theorem R4_norm : R4 m c (Proc.devRef .tc main_v8) = Cert.ReferenceIdeal.Read.val_main_v8 (F := Ideal) (X2 m c) := by
  unfold R4; after_results_simp; exact R3_norm m c

/-! ## Layer 1 -/

set_option maxHeartbeats 4000000 in
/-- The stacked features layer 1 multiplies. -/
theorem feats0 : R1 m c (Proc.devRef .tc main_v37) = Cert.ReferenceIdeal.Read.val_main_v37 (F := Ideal) (X0 m c) (X1 m c) (X2 m c) := by
  unfold R1
  simp only [after_cons, after_nil]
  rw [nary_result]
  dsimp only
  unfold Cert.ReferenceIdeal.Read.val_main_v37
  refine Cert.HostLine.concat3_congr _ _ _ _ _ _ _ _ _ _ _ _ _ ?_ ?_ ?_
  · operand_ref
    after_results_simp
    exact R0_arg m c main_arg0
  · operand_ref
    after_results_simp
    rfl
  · operand_ref
    after_results_simp
    rfl

set_option maxHeartbeats 4000000 in
/-- Layer 1's output. -/
theorem out1 : R2 m c (Proc.devRef .tc main_v42) = Cert.ReferenceIdeal.Read.val_main_v42 (F := Ideal) (X0 m c) (X1 m c) (X2 m c) (X3 m c) (X4 m c) := by
  unfold R2
  after_results_simp
  rw [feats0 m c, R1_arg3 m c, R1_arg4 m c]
  rfl

/-! ## Layer 2 -/

set_option maxHeartbeats 4000000 in
/-- The stacked features layer 2 multiplies. -/
theorem feats1 : R3 m c (Proc.devRef .tc main_v71) = Cert.ReferenceIdeal.Read.val_main_v71 (F := Ideal) (X0 m c) (X1 m c) (X2 m c) (X3 m c) (X4 m c) := by
  unfold R3
  simp only [after_cons, after_nil]
  rw [nary_result]
  dsimp only
  unfold Cert.ReferenceIdeal.Read.val_main_v71
  refine Cert.HostLine.concat3_congr _ _ _ _ _ _ _ _ _ _ _ _ _ ?_ ?_ ?_
  · operand_ref
    after_results_simp
    exact out1 m c
  · operand_ref
    after_results_simp
    rw [out1 m c, R2_norm m c, R2_arg1 m c, R2_arg2 m c]
    rfl
  · operand_ref
    after_results_simp
    rw [out1 m c, R2_norm m c, R2_arg1 m c, R2_arg2 m c]
    rfl

set_option maxHeartbeats 4000000 in
/-- Layer 2's output. -/
theorem out2 : R4 m c (Proc.devRef .tc main_v76) = Cert.ReferenceIdeal.Read.val_main_v76 (F := Ideal) (X0 m c) (X1 m c) (X2 m c) (X3 m c) (X4 m c) (X5 m c) (X6 m c) := by
  unfold R4
  after_results_simp
  rw [feats1 m c, R3_arg5 m c, R3_arg6 m c]
  rfl

/-! ## Layer 3 -/

set_option maxHeartbeats 4000000 in
/-- The stacked features layer 3 multiplies. -/
theorem feats2 : R5 m c (Proc.devRef .tc main_v105) = Cert.ReferenceIdeal.Read.val_main_v105 (F := Ideal) (X0 m c) (X1 m c) (X2 m c) (X3 m c) (X4 m c) (X5 m c) (X6 m c) := by
  unfold R5
  simp only [after_cons, after_nil]
  rw [nary_result]
  dsimp only
  unfold Cert.ReferenceIdeal.Read.val_main_v105
  refine Cert.HostLine.concat3_congr _ _ _ _ _ _ _ _ _ _ _ _ _ ?_ ?_ ?_
  · operand_ref
    after_results_simp
    exact out2 m c
  · operand_ref
    after_results_simp
    rw [out2 m c, R4_norm m c, R4_arg1 m c, R4_arg2 m c]
    rfl
  · operand_ref
    after_results_simp
    rw [out2 m c, R4_norm m c, R4_arg1 m c, R4_arg2 m c]
    rfl

set_option maxHeartbeats 4000000 in
/-- Layer 3's output. -/
theorem out3 : R6 m c (Proc.devRef .tc main_v110) = Cert.ReferenceIdeal.Read.val_main_v110 (F := Ideal) (X0 m c) (X1 m c) (X2 m c) (X3 m c) (X4 m c) (X5 m c) (X6 m c) (X7 m c) (X8 m c) := by
  unfold R6
  after_results_simp
  rw [feats2 m c, R5_arg7 m c, R5_arg8 m c]
  rfl

/-! ## The whole line -/

/-- What the line leaves in the result buffer is the last stage of the arguments. -/
theorem result_eq :
    StableHlo.after (ops (F := Ideal)) (launchContents m c) (Proc.devRef .tc main_v110)
      = Cert.ReferenceIdeal.Read.val_main_v110 (F := Ideal) (X0 m c) (X1 m c) (X2 m c) (X3 m c) (X4 m c) (X5 m c) (X6 m c) (X7 m c) (X8 m c) := by
  rw [ops_split, StableHlo.after_append, StableHlo.after_append, StableHlo.after_append, StableHlo.after_append, StableHlo.after_append]
  exact out3 m c

set_option maxHeartbeats 20000000 in
/-- Every weakly fair execution of the reference terminates with the result at the last stage of the arguments and
    the arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v110) = Cert.ReferenceIdeal.Read.val_main_v110 (F := Ideal) (X0 m c) (X1 m c) (X2 m c) (X3 m c) (X4 m c) (X5 m c) (X6 m c) (X7 m c) (X8 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c main_v110).trans (result_eq m c),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl),
      (h c main_arg8).trans (by after_results_simp <;> rfl)⟩)
    (run_seq scopedRefs_eq scopedSems_eq defs main (fun _ => ops) main_eq (fun _ => ops_sub) m ρ)

end Cert.ReferenceIdeal.HostRun

end
-- ==== Proof.lean ====
/-
  Three stacked graph-convolution layers over 100000 nodes and 1600000 edges.  A layer stacks its input `h` with
  `Â h` and `Â² h` (`Â` scales a node by its clamped in-degree to the power −1/2, sums the scaled source rows
  into each target node, and scales again), multiplies the stack by the layer's weights, adds the bias and rectifies.
  The kernel program runs the stacking on the host and the dense stage as a gridded region over row blocks of 2000
  nodes; the reference runs everything on the host.  Over the extended reals the two narrowing format changes in the
  region's body are the identity and its block product into a zero accumulator is the plain sum over the stacked
  axis, so each region leaves exactly the reference's layer output, and the next layer's stacking — the same
  operations in both programs — reads equal arrays.  The contracted sum is only re-indexed by its axis's own
  coordinate; no cancellation or distribution is used, so the precondition is not needed for the equality.
  Frames: each region's body loads its three blocks and stores the output block whole, so the pipeline around it
  terminates, and no region or host operation writes an argument; the reference is one line of host operations.
-/
import proofs.«103402_j18631568130049_1_alg».proof.Defs
import proofs.«103402_j18631568130049_1_alg».proof.Proof.Gen.Kernel
import proofs.«103402_j18631568130049_1_alg».proof.Proof.Gen.KernelIdeal
import proofs.«103402_j18631568130049_1_alg».proof.Proof.Gen.ReferenceIdeal
import proofs.«103402_j18631568130049_1_alg».proof.Proof.Gen.Pre_finite_inputs
import proofs.«103402_j18631568130049_1_alg».proof.Proof.LayersRunBits
import proofs.«103402_j18631568130049_1_alg».proof.Proof.LayersRunIdeal
import proofs.«103402_j18631568130049_1_alg».proof.Proof.LayerValues
import proofs.«103402_j18631568130049_1_alg».proof.Proof.RefRun
import Idealize.ShloMosaic.Adequacy
import Idealize.ShloMosaic.Init

noncomputable section

namespace Cert.Proof

open Idealize.ShloMosaic Idealize.SL.Sem

/-- The kernel program as printed runs to the end with its arguments unchanged. -/
theorem frame_k : Cert.frame_Kernel (hKernel := Cert.Kernel.Gen.facts) (hPre_finite_inputs := Cert.Pre_finite_inputs.Gen.facts) :=
  fun m ρ _ => Cert.Kernel.Layers.frame (F := Bits) m ρ

/-- So does its idealization. -/
theorem frame_ki : Cert.frame_KernelIdeal (hKernelIdeal := Cert.KernelIdeal.Gen.facts) (hPre_finite_inputs := Cert.Pre_finite_inputs.Gen.facts) :=
  fun m ρ _ => Cert.KernelIdeal.Layers.frame (F := Ideal) m ρ

/-- The reference is a line of host operations: its run, with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.HostRun.run m ρ)

/-- Both programs end with the third layer's output as the reference's last stage of the arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.ReferenceIdeal.Read.val_main_v110 (F := Ideal) (Cert.KernelIdeal.Layers.A0 m c) (Cert.KernelIdeal.Layers.A1 m c) (Cert.KernelIdeal.Layers.A2 m c) (Cert.KernelIdeal.Layers.A3 m c) (Cert.KernelIdeal.Layers.A4 m c) (Cert.KernelIdeal.Layers.A5 m c) (Cert.KernelIdeal.Layers.A6 m c) (Cert.KernelIdeal.Layers.A7 m c) (Cert.KernelIdeal.Layers.A8 m c), ?_, ?_⟩
  · exact (θ_run Cert.KernelIdeal.defs _ _).mono (fun _ h c => ⟨(h c Cert.KernelIdeal.main_v101 (by decide)).trans (Cert.KernelIdeal.Layers.out3 m c),
      (h c Cert.KernelIdeal.main_arg0 (by decide)).trans (Cert.KernelIdeal.Layers.B6_main_arg0 m c),
      (h c Cert.KernelIdeal.main_arg1 (by decide)).trans (Cert.KernelIdeal.Layers.B6_main_arg1 m c),
      (h c Cert.KernelIdeal.main_arg2 (by decide)).trans (Cert.KernelIdeal.Layers.B6_main_arg2 m c),
      (h c Cert.KernelIdeal.main_arg3 (by decide)).trans (Cert.KernelIdeal.Layers.B6_main_arg3 m c),
      (h c Cert.KernelIdeal.main_arg4 (by decide)).trans (Cert.KernelIdeal.Layers.B6_main_arg4 m c),
      (h c Cert.KernelIdeal.main_arg5 (by decide)).trans (Cert.KernelIdeal.Layers.B6_main_arg5 m c),
      (h c Cert.KernelIdeal.main_arg6 (by decide)).trans (Cert.KernelIdeal.Layers.B6_main_arg6 m c),
      (h c Cert.KernelIdeal.main_arg7 (by decide)).trans (Cert.KernelIdeal.Layers.B6_main_arg7 m c),
      (h c Cert.KernelIdeal.main_arg8 (by decide)).trans (Cert.KernelIdeal.Layers.B6_main_arg8 m c)⟩) (Cert.KernelIdeal.Layers.run_all m ρ)
  · refine (θ_run Cert.ReferenceIdeal.defs _ _).mono (fun _ h c => ⟨(h c).1.trans ?_, (h c).2⟩) (Cert.ReferenceIdeal.HostRun.run m' ρ')
    rw [show Cert.ReferenceIdeal.HostRun.X0 m' c = Cert.KernelIdeal.Layers.A0 m c from (hagree c).1,
      show Cert.ReferenceIdeal.HostRun.X1 m' c = Cert.KernelIdeal.Layers.A1 m c from (hagree c).2.1,
      show Cert.ReferenceIdeal.HostRun.X2 m' c = Cert.KernelIdeal.Layers.A2 m c from (hagree c).2.2.1,
      show Cert.ReferenceIdeal.HostRun.X3 m' c = Cert.KernelIdeal.Layers.A3 m c from (hagree c).2.2.2.1,
      show Cert.ReferenceIdeal.HostRun.X4 m' c = Cert.KernelIdeal.Layers.A4 m c from (hagree c).2.2.2.2.1,
      show Cert.ReferenceIdeal.HostRun.X5 m' c = Cert.KernelIdeal.Layers.A5 m c from (hagree c).2.2.2.2.2.1,
      show Cert.ReferenceIdeal.HostRun.X6 m' c = Cert.KernelIdeal.Layers.A6 m c from (hagree c).2.2.2.2.2.2.1,
      show Cert.ReferenceIdeal.HostRun.X7 m' c = Cert.KernelIdeal.Layers.A7 m c from (hagree c).2.2.2.2.2.2.2.1,
      show Cert.ReferenceIdeal.HostRun.X8 m' c = Cert.KernelIdeal.Layers.A8 m c from (hagree c).2.2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
